-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S1600000 : Shape := ⟨1, ![1600000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg6 : FVec F S16 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S16 .f32 := Host.absf main_arg6
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S50000x128 .f32) (main_arg1 : IVec S1600000 32) (main_arg2 : IVec S1600000 32) (main_arg3 : FVec F S128x64 .f32) (main_arg4 : FVec F S64 .f32) (main_arg5 : FVec F S64x16 .f32) (main_arg6 : FVec F S16 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x16 .f32 := Host.absf main_arg5
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg6 main_v13 main_v16
-- ==== Kernel.lean ====
abbrev S50000x128 : Shape := ⟨2, ![50000, 128]⟩
abbrev S1600000 : Shape := ⟨1, ![1600000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S1x64 : Shape := ⟨2, ![1, 64]⟩
abbrev S1x16 : Shape := ⟨2, ![1, 16]⟩
abbrev S50000x64 : Shape := ⟨2, ![50000, 64]⟩
abbrev S1600000x64 : Shape := ⟨2, ![1600000, 64]⟩
abbrev S50000x16 : Shape := ⟨2, ![50000, 16]⟩
abbrev S1600000x16 : Shape := ⟨2, ![1600000, 16]⟩
abbrev S2000x128 : Shape := ⟨2, ![2000, 128]⟩
abbrev S2000x1 : Shape := ⟨2, ![2000, 1]⟩
abbrev S2000x64 : Shape := ⟨2, ![2000, 64]⟩
abbrev S2000x16 : Shape := ⟨2, ![2000, 16]⟩

abbrev nBuf : Space → Nat
  | .hbm => 53
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S1600000, .i32⟩
  | .hbm, ⟨2, _⟩ => ⟨S1600000, .i32⟩
  | .hbm, ⟨3, _⟩ => ⟨S128x64, .f32⟩
  | .hbm, ⟨4, _⟩ => ⟨S64, .f32⟩
  | .hbm, ⟨5, _⟩ => ⟨S64x16, .f32⟩
  | .hbm, ⟨6, _⟩ => ⟨S16, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S50000, .f32⟩
  | .hbm, ⟨11, _⟩ => ⟨S1600000x1, .i32⟩
  | .hbm, ⟨12, _⟩ => ⟨S50000, .f32⟩
  | .hbm, ⟨13, _⟩ => ⟨S50000x1, .f32⟩
  | .hbm, ⟨14, _⟩ => ⟨S_, .f32⟩
  | .hbm, ⟨15, _⟩ => ⟨S50000, .f32⟩
  | .hbm, ⟨16, _⟩ => ⟨S1600000x1, .i32⟩
  | .hbm, ⟨17, _⟩ => ⟨S50000, .f32⟩
  | .hbm, ⟨18, _⟩ => ⟨S50000x1, .f32⟩
  | .hbm, ⟨19, _⟩ => ⟨S1x64, .f32⟩
  | .hbm, ⟨20, _⟩ => ⟨S1x16, .f32⟩
  | .hbm, ⟨21, _⟩ => ⟨S50000x64, .bf16⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x64, .bf16⟩
  | .hbm, ⟨31, _⟩ => ⟨S1600000x64, .f32⟩
  | .hbm, ⟨32, _⟩ => ⟨S_, .f32⟩
  | .hbm, ⟨33, _⟩ => ⟨S50000x64, .f32⟩
  | .hbm, ⟨34, _⟩ => ⟨S1600000x1, .i32⟩
  | .hbm, ⟨35, _⟩ => ⟨S50000x64, .f32⟩
  | .hbm, ⟨36, _⟩ => ⟨S50000x64, .f32⟩
  | .hbm, ⟨37, _⟩ => ⟨S50000x16, .bf16⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x16, .bf16⟩
  | .hbm, ⟨47, _⟩ => ⟨S1600000x16, .f32⟩
  | .hbm, ⟨48, _⟩ => ⟨S_, .f32⟩
  | .hbm, ⟨49, _⟩ => ⟨S50000x16, .f32⟩
  | .hbm, ⟨50, _⟩ => ⟨S1600000x1, .i32⟩
  | .hbm, ⟨51, _⟩ => ⟨S50000x16, .f32⟩
  | .hbm, ⟨52, _⟩ => ⟨S50000x16, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S128x64, .f32⟩
  | .local _ .vmem, ⟨5, _⟩ => ⟨S2000x64, .bf16⟩
  | .local _ .vmem, ⟨6, _⟩ => ⟨S2000x64, .bf16⟩
  | .local _ .vmem, ⟨7, _⟩ => ⟨S2000x64, .f32⟩
  | .local _ .vmem, ⟨8, _⟩ => ⟨S2000x64, .f32⟩
  | .local _ .vmem, ⟨9, _⟩ => ⟨S2000x1, .f32⟩
  | .local _ .vmem, ⟨10, _⟩ => ⟨S2000x1, .f32⟩
  | .local _ .vmem, ⟨11, _⟩ => ⟨S2000x1, .f32⟩
  | .local _ .vmem, ⟨12, _⟩ => ⟨S2000x1, .f32⟩
  | .local _ .vmem, ⟨13, _⟩ => ⟨S1x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S2000x64, .f32⟩
  | .local _ .vmem, ⟨18, _⟩ => ⟨S64x16, .f32⟩
  | .local _ .vmem, ⟨19, _⟩ => ⟨S2000x16, .bf16⟩
  | .local _ .vmem, ⟨20, _⟩ => ⟨S2000x16, .bf16⟩
  | .local _ .vmem, ⟨21, _⟩ => ⟨S2000x16, .f32⟩
  | .local _ .vmem, ⟨22, _⟩ => ⟨S2000x16, .f32⟩
  | .local _ .vmem, ⟨23, _⟩ => ⟨S2000x1, .f32⟩
  | .local _ .vmem, ⟨24, _⟩ => ⟨S2000x1, .f32⟩
  | .local _ .vmem, ⟨25, _⟩ => ⟨S1x16, .f32⟩
  | .local _ .vmem, ⟨26, _⟩ => ⟨S2000x16, .f32⟩
  | .local _ .vmem, ⟨27, _⟩ => ⟨S2000x16, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_cst : Ref sig .tc := ⟨.hbm, 7, rfl⟩
abbrev main_call0_v0 : Ref sig .tc := ⟨.hbm, 8, rfl⟩
abbrev main_call0_cst_0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_cst_1 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c : Ref sig .tc := ⟨.hbm, 22, rfl⟩
abbrev main_call0_v12 : Ref sig .tc := ⟨.hbm, 23, rfl⟩
abbrev main_call0_v13 : Ref sig .tc := ⟨.hbm, 24, rfl⟩
abbrev main_call0_c_2 : Ref sig .tc := ⟨.hbm, 25, rfl⟩
abbrev main_call0_v14 : Ref sig .tc := ⟨.hbm, 26, rfl⟩
abbrev main_call0_v15 : Ref sig .tc := ⟨.hbm, 27, rfl⟩
abbrev main_call0_v16 : Ref sig .tc := ⟨.hbm, 28, rfl⟩
abbrev main_call0_v17 : Ref sig .tc := ⟨.hbm, 29, rfl⟩
abbrev main_call0_v18 : Ref sig .tc := ⟨.hbm, 30, rfl⟩
abbrev main_call0_v19 : Ref sig .tc := ⟨.hbm, 31, rfl⟩
abbrev main_call0_cst_3 : Ref sig .tc := ⟨.hbm, 32, rfl⟩
abbrev main_call0_v20 : Ref sig .tc := ⟨.hbm, 33, rfl⟩
abbrev main_call0_v21 : Ref sig .tc := ⟨.hbm, 34, rfl⟩
abbrev main_call0_v22 : Ref sig .tc := ⟨.hbm, 35, rfl⟩
abbrev main_call0_v23 : Ref sig .tc := ⟨.hbm, 36, rfl⟩
abbrev main_call0_v24 : Ref sig .tc := ⟨.hbm, 37, rfl⟩
abbrev main_call0_c_4 : Ref sig .tc := ⟨.hbm, 38, rfl⟩
abbrev main_call0_v25 : Ref sig .tc := ⟨.hbm, 39, rfl⟩
abbrev main_call0_v26 : Ref sig .tc := ⟨.hbm, 40, rfl⟩
abbrev main_call0_c_5 : Ref sig .tc := ⟨.hbm, 41, rfl⟩
abbrev main_call0_v27 : Ref sig .tc := ⟨.hbm, 42, rfl⟩
abbrev main_call0_v28 : Ref sig .tc := ⟨.hbm, 43, rfl⟩
abbrev main_call0_v29 : Ref sig .tc := ⟨.hbm, 44, rfl⟩
abbrev main_call0_v30 : Ref sig .tc := ⟨.hbm, 45, rfl⟩
abbrev main_call0_v31 : Ref sig .tc := ⟨.hbm, 46, rfl⟩
abbrev main_call0_v32 : Ref sig .tc := ⟨.hbm, 47, rfl⟩
abbrev main_call0_cst_6 : Ref sig .tc := ⟨.hbm, 48, rfl⟩
abbrev main_call0_v33 : Ref sig .tc := ⟨.hbm, 49, rfl⟩
abbrev main_call0_v34 : Ref sig .tc := ⟨.hbm, 50, rfl⟩
abbrev main_call0_v35 : Ref sig .tc := ⟨.hbm, 51, rfl⟩
abbrev main_v0 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x16 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x16 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  shapeCasts_S50000_S50000x1 : S50000.ShapeCasts S50000x1
  shapeCasts_S64_S1x64 : S64.ShapeCasts S1x64
  shapeCasts_S16_S1x16 : S16.ShapeCasts S1x16
  bitsLt_bf16_f32 : FTy.bits .bf16 < FTy.bits .f32
  bcast_S_S50000x64 : S_.BroadcastsInDim S50000x64 (![] : Fin 0 → Fin S50000x64.rank)
  bcast_S_S50000x16 : S_.BroadcastsInDim S50000x16 (![] : Fin 0 → Fin S50000x16.rank)
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x128_S2000x128_0_0 : ∀ a, (![0, 0] : Fin 2 → Nat) a + S2000x128.size a ≤ S2000x128.size a
  h_S2000x128 : 0 < S2000x128.numel
  broadcasts_S2000x1_S2000x128 : S2000x1.Broadcasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  packedbf16_S2000x64_S2000x64_0_0 : (Rect.unit (s := S2000x64) ![0, 0] S2000x64.size inb_S2000x64_S2000x64_0_0).PackedRows (EltTy.packing .bf16)
  shapeCasts_S2000x64_S2000x64 : S2000x64.ShapeCasts S2000x64
  broadcasts_S2000x1_S2000x64 : S2000x1.Broadcasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x16_S64x16_0_0 : ∀ a, (![0, 0] : Fin 2 → Nat) a + S64x16.size a ≤ S64x16.size a
  h_S64x16 : 0 < S64x16.numel
  inb_S2000x16_S2000x16_0_0 : ∀ a, (![0, 0] : Fin 2 → Nat) a + S2000x16.size a ≤ S2000x16.size a
  h_S2000x16 : 0 < S2000x16.numel
  packedbf16_S2000x16_S2000x16_0_0 : (Rect.unit (s := S2000x16) ![0, 0] S2000x16.size inb_S2000x16_S2000x16_0_0).PackedRows (EltTy.packing .bf16)
  shapeCasts_S2000x16_S2000x16 : S2000x16.ShapeCasts S2000x16
  broadcasts_S2000x1_S2000x16 : S2000x1.Broadcasts S2000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  scatter_S50000_S1600000x1_S1600000_n_0_0_1_wf : ScatterDims.WF S50000 S1600000x1 S1600000 [] [0] [0] 1
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  gather_S50000x16_S1600000x1_S1600000x16_1_0_n_n_0_1_116_wf : GatherDims.WF S50000x16 S1600000x1 S1600000x16 [1] [0] [] [0] [] 1 ![1, 16]
  scatter_S50000x16_S1600000x1_S1600000x16_1_0_0_1_wf : ScatterDims.WF S50000x16 S1600000x1 S1600000x16 [1] [0] [0] 1
  dot_S2000x128_S128x64_S2000x64_1_0_0_1_n_n_wf : DotDims.WF S2000x128 S128x64 S2000x64 [1] [0] [0] [1] [] []
  dot_S2000x64_S64x16_S2000x16_1_0_0_1_n_n_wf : DotDims.WF S2000x64 S64x16 S2000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S50000x64.size a
  hwx0_3 : ∀ i : grid0.Coords, EltTy.bits .bf16 = 32 ∨ (Rect.block (s := S50000x64) S2000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x64.size a ≤ S50000x64.size a
  hwx1_4 : ∀ i : grid1.Coords, EltTy.bits .f32 = 32 ∨ (Rect.block (s := S50000x64) S2000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x16.size a ≤ S64x16.size a
  hwx2_1 : ∀ i : grid2.Coords, EltTy.bits .f32 = 32 ∨ (Rect.block (s := S64x16) S64x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x16.size a ≤ S50000x16.size a
  hwx2_2 : ∀ i : grid2.Coords, EltTy.bits .bf16 = 32 ∨ (Rect.block (s := S50000x16) S2000x16.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x16.size a ≤ S50000x16.size a
  hwx3_0 : ∀ i : grid3.Coords, EltTy.bits .f32 = 32 ∨ (Rect.block (s := S50000x16) S2000x16.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S50000x1.size a
  hwx3_1 : ∀ i : grid3.Coords, EltTy.bits .f32 = 32 ∨ (Rect.block (s := S50000x1) S2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x16.size a ≤ S1x16.size a
  hwx3_2 : ∀ i : grid3.Coords, EltTy.bits .f32 = 32 ∨ (Rect.block (s := S1x16) S1x16.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x16.size a ≤ S50000x16.size a
  hwx3_3 : ∀ i : grid3.Coords, EltTy.bits .f32 = 32 ∨ (Rect.block (s := S50000x16) S2000x16.size (cc3_transform_3 i) (hinb3_3 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def gather_S50000x16_S1600000x1_S1600000x16_1_0_n_n_0_1_116 : GatherDims S50000x16 S1600000x1 S1600000x16 where
  offsetDims := [1]
  collapsedSliceDims := [0]
  operandBatchingDims := []
  startIndicesBatchingDims := []
  startIndexMap := [0]
  indexVectorDim := 1
  sliceSizes := ![1, 16]
  wf := gather_S50000x16_S1600000x1_S1600000x16_1_0_n_n_0_1_116_wf
def scatter_S50000x16_S1600000x1_S1600000x16_1_0_0_1 : ScatterDims S50000x16 S1600000x1 S1600000x16 where
  updateWindowDims := [1]
  insertedWindowDims := [0]
  scatterDimsToOperandDims := [0]
  indexVectorDim := 1
  wf := scatter_S50000x16_S1600000x1_S1600000x16_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x64_S64x16_S2000x16_1_0_0_1_n_n : DotDims S2000x64 S64x16 S2000x16 where
  lhsContracting := [1]
  rhsContracting := [0]
  lhsNonContracting := [0]
  rhsNonContracting := [1]
  lhsBatch := []
  rhsBatch := []
  wf := dot_S2000x64_S64x16_S2000x16_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v4) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v11) S2000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_call0_v22) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v8) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v4) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v9) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v23) S2000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_call0_v23) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v24) S2000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_call0_v35) S2000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_call0_v8) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_call0_v10) S1x16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v0) S2000x16.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x128 : Shape := ⟨2, ![50000, 128]⟩
abbrev S1600000 : Shape := ⟨1, ![1600000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S1600000x128 : Shape := ⟨2, ![1600000, 128]⟩
abbrev S50000x64 : Shape := ⟨2, ![50000, 64]⟩
abbrev S1x64 : Shape := ⟨2, ![1, 64]⟩
abbrev S1600000x64 : Shape := ⟨2, ![1600000, 64]⟩
abbrev S50000x16 : Shape := ⟨2, ![50000, 16]⟩
abbrev S1x16 : Shape := ⟨2, ![1, 16]⟩

abbrev nBuf : Space → Nat
  | .hbm => 104
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S1600000, .i32⟩
  | .hbm, ⟨2, _⟩ => ⟨S1600000, .i32⟩
  | .hbm, ⟨3, _⟩ => ⟨S128x64, .f32⟩
  | .hbm, ⟨4, _⟩ => ⟨S64, .f32⟩
  | .hbm, ⟨5, _⟩ => ⟨S64x16, .f32⟩
  | .hbm, ⟨6, _⟩ => ⟨S16, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S50000, .f32⟩
  | .hbm, ⟨11, _⟩ => ⟨S1600000x1, .i32⟩
  | .hbm, ⟨12, _⟩ => ⟨S50000, .f32⟩
  | .hbm, ⟨13, _⟩ => ⟨S_, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S1600000x1, .i32⟩
  | .hbm, ⟨20, _⟩ => ⟨S50000, .f32⟩
  | .hbm, ⟨21, _⟩ => ⟨S_, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S50000x128, .f32⟩
  | .hbm, ⟨30, _⟩ => ⟨S50000x128, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x128, .f32⟩
  | .hbm, ⟨40, _⟩ => ⟨S_, .f32⟩
  | .hbm, ⟨41, _⟩ => ⟨S50000x128, .f32⟩
  | .hbm, ⟨42, _⟩ => ⟨S1600000x1, .i32⟩
  | .hbm, ⟨43, _⟩ => ⟨S50000x128, .f32⟩
  | .hbm, ⟨44, _⟩ => ⟨S_, .f32⟩
  | .hbm, ⟨45, _⟩ => ⟨S50000, .f32⟩
  | .hbm, ⟨46, _⟩ => ⟨S50000, .f32⟩
  | .hbm, ⟨47, _⟩ => ⟨S50000x1, .f32⟩
  | .hbm, ⟨48, _⟩ => ⟨S50000x128, .f32⟩
  | .hbm, ⟨49, _⟩ => ⟨S50000x128, .f32⟩
  | .hbm, ⟨50, _⟩ => ⟨S50000x64, .f32⟩
  | .hbm, ⟨51, _⟩ => ⟨S1x64, .f32⟩
  | .hbm, ⟨52, _⟩ => ⟨S50000x64, .f32⟩
  | .hbm, ⟨53, _⟩ => ⟨S50000x64, .f32⟩
  | .hbm, ⟨54, _⟩ => ⟨S_, .f32⟩
  | .hbm, ⟨55, _⟩ => ⟨S50000x64, .f32⟩
  | .hbm, ⟨56, _⟩ => ⟨S50000x64, .f32⟩
  | .hbm, ⟨57, _⟩ => ⟨S_, .f32⟩
  | .hbm, ⟨58, _⟩ => ⟨S1600000, .f32⟩
  | .hbm, ⟨59, _⟩ => ⟨S_, .f32⟩
  | .hbm, ⟨60, _⟩ => ⟨S50000, .f32⟩
  | .hbm, ⟨61, _⟩ => ⟨S1600000x1, .i32⟩
  | .hbm, ⟨62, _⟩ => ⟨S50000, .f32⟩
  | .hbm, ⟨63, _⟩ => ⟨S_, .f32⟩
  | .hbm, ⟨64, _⟩ => ⟨S_, .f32⟩
  | .hbm, ⟨65, _⟩ => ⟨S50000, .f32⟩
  | .hbm, ⟨66, _⟩ => ⟨S50000, .f32⟩
  | .hbm, ⟨67, _⟩ => ⟨S_, .f32⟩
  | .hbm, ⟨68, _⟩ => ⟨S50000, .f32⟩
  | .hbm, ⟨69, _⟩ => ⟨S1600000x1, .i32⟩
  | .hbm, ⟨70, _⟩ => ⟨S50000, .f32⟩
  | .hbm, ⟨71, _⟩ => ⟨S_, .f32⟩
  | .hbm, ⟨72, _⟩ => ⟨S_, .f32⟩
  | .hbm, ⟨73, _⟩ => ⟨S50000, .f32⟩
  | .hbm, ⟨74, _⟩ => ⟨S50000, .f32⟩
  | .hbm, ⟨75, _⟩ => ⟨S_, .f32⟩
  | .hbm, ⟨76, _⟩ => ⟨S50000, .f32⟩
  | .hbm, ⟨77, _⟩ => ⟨S50000, .f32⟩
  | .hbm, ⟨78, _⟩ => ⟨S50000x1, .f32⟩
  | .hbm, ⟨79, _⟩ => ⟨S50000x64, .f32⟩
  | .hbm, ⟨80, _⟩ => ⟨S50000x64, .f32⟩
  | .hbm, ⟨81, _⟩ => ⟨S_, .i32⟩
  | .hbm, ⟨82, _⟩ => ⟨S1600000, .i32⟩
  | .hbm, ⟨83, _⟩ => ⟨S1600000, .i1⟩
  | .hbm, ⟨84, _⟩ => ⟨S_, .i32⟩
  | .hbm, ⟨85, _⟩ => ⟨S1600000, .i32⟩
  | .hbm, ⟨86, _⟩ => ⟨S1600000, .i32⟩
  | .hbm, ⟨87, _⟩ => ⟨S1600000, .i32⟩
  | .hbm, ⟨88, _⟩ => ⟨S1600000x1, .i32⟩
  | .hbm, ⟨89, _⟩ => ⟨S1600000x64, .f32⟩
  | .hbm, ⟨90, _⟩ => ⟨S_, .f32⟩
  | .hbm, ⟨91, _⟩ => ⟨S50000x64, .f32⟩
  | .hbm, ⟨92, _⟩ => ⟨S1600000x1, .i32⟩
  | .hbm, ⟨93, _⟩ => ⟨S50000x64, .f32⟩
  | .hbm, ⟨94, _⟩ => ⟨S_, .f32⟩
  | .hbm, ⟨95, _⟩ => ⟨S50000, .f32⟩
  | .hbm, ⟨96, _⟩ => ⟨S50000, .f32⟩
  | .hbm, ⟨97, _⟩ => ⟨S50000x1, .f32⟩
  | .hbm, ⟨98, _⟩ => ⟨S50000x64, .f32⟩
  | .hbm, ⟨99, _⟩ => ⟨S50000x64, .f32⟩
  | .hbm, ⟨100, _⟩ => ⟨S50000x16, .f32⟩
  | .hbm, ⟨101, _⟩ => ⟨S1x16, .f32⟩
  | .hbm, ⟨102, _⟩ => ⟨S50000x16, .f32⟩
  | .hbm, ⟨103, _⟩ => ⟨S50000x16, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v8 : Ref sig .tc := ⟨.hbm, 24, rfl⟩
abbrev main_cst_4 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_6 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_7 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_call2_cst : Ref sig .tc := ⟨.hbm, 54, rfl⟩
abbrev main_call2_v0 : Ref sig .tc := ⟨.hbm, 55, rfl⟩
abbrev main_v33 : Ref sig .tc := ⟨.hbm, 56, rfl⟩
abbrev main_cst_8 : Ref sig .tc := ⟨.hbm, 57, rfl⟩
abbrev main_v34 : Ref sig .tc := ⟨.hbm, 58, rfl⟩
abbrev main_cst_9 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_10 : Ref sig .tc := ⟨.hbm, 63, rfl⟩
abbrev main_call3_v0 : Ref sig .tc := ⟨.hbm, 64, rfl⟩
abbrev main_call3_v1 : Ref sig .tc := ⟨.hbm, 65, rfl⟩
abbrev main_v38 : Ref sig .tc := ⟨.hbm, 66, rfl⟩
abbrev main_cst_11 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_12 : Ref sig .tc := ⟨.hbm, 71, rfl⟩
abbrev main_call4_v0 : Ref sig .tc := ⟨.hbm, 72, rfl⟩
abbrev main_call4_v1 : Ref sig .tc := ⟨.hbm, 73, rfl⟩
abbrev main_v42 : Ref sig .tc := ⟨.hbm, 74, rfl⟩
abbrev main_cst_13 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_c_14 : Ref sig .tc := ⟨.hbm, 81, rfl⟩
abbrev main_v48 : Ref sig .tc := ⟨.hbm, 82, rfl⟩
abbrev main_v49 : Ref sig .tc := ⟨.hbm, 83, rfl⟩
abbrev main_c_15 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_cst_16 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_cst_17 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  scatter_S50000_S1600000x1_S1600000_n_0_0_1_wf : ScatterDims.WF S50000 S1600000x1 S1600000 [] [0] [0] 1
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x64_S50000x64_1_0_0_1_n_n_wf : DotDims.WF S50000x128 S128x64 S50000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S50000x64_S64x16_S50000x16_1_0_0_1_n_n_wf : DotDims.WF S50000x64 S64x16 S50000x16 [1] [0] [0] [1] [] []

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S50000x64_S64x16_S50000x16_1_0_0_1_n_n : DotDims S50000x64 S64x16 S50000x16 where
  lhsContracting := [1]
  rhsContracting := [0]
  lhsNonContracting := [0]
  rhsNonContracting := [1]
  lhsBatch := []
  rhsBatch := []
  wf := dot_S50000x64_S64x16_S50000x16_1_0_0_1_n_n_wf

class Facts : Prop extends Facts₀ where

variable [Facts]
-- ==== Proof.KRun.lean ====
/-
  The idealized kernel's run with its result named.

  @main is four tiled regions among three stretches of host operations.  Every weakly fair execution from a memory
  with zero counters terminates without a fault, and in the final state every buffer that is not a region's scratch
  holds the last of the boundary contents: the launch memory carried through the first stretch of host operations,
  the first region's write-backs, the second stretch, the second and third regions' write-backs, the third stretch
  and the fourth region's write-backs (the fold `W7`).  In particular the result buffer holds `W7` at the result,
  and the seven argument arrays are as launched.
-/
import proofs.«102259_j2284922601619_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with the result buffer at the last boundary's
    contents and the argument arrays as launched. -/
theorem run : θ_run defs (onTc (τ := τ) (main (F := F))) ⟨m, fun _ => 0, ρ⟩ (fun r => ∀ c : Dev nD,
      r.2.mem ((c.tc : Thread nD τ).loc main_v0) = W7 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v0 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c)⟩)

end Cert.KernelIdeal.KRun

end
-- ==== Proof.LibRows.lean ====
/-
  Gathering rows by an index array and accumulating rows per destination, read at an index, for any sizes.

  A gather of rows: the operand has N rows of C entries (or N scalar entries), the index array has one word per edge
  (carried with a trailing unit axis), and the result has one row (one entry) per edge: the operand's row at the
  edge's word read as a signed integer and clamped to [0, N - 1].  So a row gather at (e, c) and a flat gather at e,
  given the same index array, read the same row of their operands.

  An accumulating scatter of rows: an update (e, c) lands on the operand's entry (i, c') exactly when the edge's word,
  read as a signed integer and NOT clamped, is i, and c = c'.  In particular a word that lands on row i is
  non-negative and below N, so the clamped read of that same word is i again.
-/
import Idealize.ShloMosaic.PureOps.Ideal
import Idealize.ShloMosaic.Lib.ValueIdx

noncomputable section

namespace Cert.LibRows

open Idealize.ShloMosaic Idealize.ShloMosaic.ValueIdx

variable {N E C w : ℕ}

/-- An edge's word read as a row number for a gather: signed, clamped to the last row. -/
def clampRow (N : ℕ) (x : BitVec w) : ℕ := min x.toInt.toNat (N - 1)

theorem clampRow_lt (hN : 0 < N) (x : BitVec w) : clampRow N x < N := by
  unfold clampRow
  have := Nat.min_le_right x.toInt.toNat (N - 1)
  omega

/-- A word that reads, signed, as a row number below N is its own clamped read. -/
theorem clampRow_of_toInt {x : BitVec w} {i : ℕ} (hi : i < N) (h : x.toInt = (i : Int)) : clampRow N x = i := by
  unfold clampRow
  rw [h, Int.toNat_natCast]
  exact Nat.min_eq_left (by omega)

/-! ## The row gather -/

section RowGather
variable (wfG : GatherDims.WF ⟨2, ![N, C]⟩ ⟨2, ![E, 1]⟩ ⟨2, ![E, C]⟩ [1] [0] [] [0] [] 1 ![1, C])

/-- The row gather's dimension numbers. -/
abbrev rowDims : GatherDims ⟨2, ![N, C]⟩ ⟨2, ![E, 1]⟩ ⟨2, ![E, C]⟩ := ⟨[1], [0], [], [], [0], 1, ![1, C], wfG⟩

theorem row_operandIdx0 (idx : IVec ⟨2, ![E, 1]⟩ w) (e : Fin E) (c : Fin C) :
    (((rowDims wfG).operandIdx (ix2 e c) idx) 0).val = clampRow N (idx (ix2 e 0)) := by
  show (rowDims wfG).start (ix2 e c) idx 0 + (rowDims wfG).batchCoord (ix2 e c) 0 + (rowDims wfG).offCoord (ix2 e c) 0 = _
  have hs : (rowDims wfG).start (ix2 e c) idx 0 = clampRow N (idx (ix2 e 0)) := by
    unfold GatherDims.start clampRow
    rw [dif_pos (by simp)]
    congr 3
    refine congrArg idx (funext fun b => ?_)
    match b with
    | ⟨0, _⟩ => rfl
    | ⟨1, _⟩ => rfl
  have hb : (rowDims wfG).batchCoord (ix2 e c) 0 = 0 := by
    unfold GatherDims.batchCoord
    rw [dif_neg (by simp)]
  have ho : (rowDims wfG).offCoord (ix2 e c) 0 = 0 := by
    unfold GatherDims.offCoord
    rw [dif_neg (by simp [GatherDims.sKept, Shape.kept, List.finRange])]
  rw [hs, hb, ho]
  omega

theorem row_operandIdx1 (idx : IVec ⟨2, ![E, 1]⟩ w) (e : Fin E) (c : Fin C) :
    (((rowDims wfG).operandIdx (ix2 e c) idx) 1).val = c.val := by
  show (rowDims wfG).start (ix2 e c) idx 1 + (rowDims wfG).batchCoord (ix2 e c) 1 + (rowDims wfG).offCoord (ix2 e c) 1 = _
  have hs : (rowDims wfG).start (ix2 e c) idx 1 = 0 := by
    unfold GatherDims.start
    rw [dif_neg (by simp)]
  have hb : (rowDims wfG).batchCoord (ix2 e c) 1 = 0 := by
    unfold GatherDims.batchCoord
    rw [dif_neg (by simp)]
  have ho : (rowDims wfG).offCoord (ix2 e c) 1 = c.val := by
    unfold GatherDims.offCoord
    rw [dif_pos (by simp [GatherDims.sKept, Shape.kept, List.finRange])]
    rfl
  rw [hs, hb, ho]
  omega

/-- THE ROW GATHER AT AN ENTRY: the operand's row at the edge's clamped word, same column. -/
theorem row_gather_apply {α : Type} (hN : 0 < N) (X : (⟨2, ![N, C]⟩ : Shape).Idx → α) (idx : IVec ⟨2, ![E, 1]⟩ w)
    (e : Fin E) (c : Fin C) :
    Host.gather (rowDims wfG) X idx (ix2 e c) = X (ix2 ⟨clampRow N (idx (ix2 e 0)), clampRow_lt hN _⟩ c) := by
  unfold Host.gather
  refine congrArg X (funext fun a => Fin.ext ?_)
  match a with
  | ⟨0, _⟩ => exact row_operandIdx0 wfG idx e c
  | ⟨1, _⟩ => exact row_operandIdx1 wfG idx e c
end RowGather

/-! ## The flat gather -/

section FlatGather
variable (wfg : GatherDims.WF ⟨1, ![N]⟩ ⟨2, ![E, 1]⟩ ⟨1, ![E]⟩ [] [0] [] [0] [] 1 ![1])

/-- The flat gather's dimension numbers. -/
abbrev flatDims : GatherDims ⟨1, ![N]⟩ ⟨2, ![E, 1]⟩ ⟨1, ![E]⟩ := ⟨[], [0], [], [], [0], 1, ![1], wfg⟩

theorem flat_operandIdx0 (idx : IVec ⟨2, ![E, 1]⟩ w) (e : Fin E) :
    (((flatDims wfg).operandIdx (ix1 e) idx) 0).val = clampRow N (idx (ix2 e 0)) := by
  show (flatDims wfg).start (ix1 e) idx 0 + (flatDims wfg).batchCoord (ix1 e) 0 + (flatDims wfg).offCoord (ix1 e) 0 = _
  have hs : (flatDims wfg).start (ix1 e) idx 0 = clampRow N (idx (ix2 e 0)) := by
    unfold GatherDims.start clampRow
    rw [dif_pos (by simp)]
    congr 3
    refine congrArg idx (funext fun b => ?_)
    match b with
    | ⟨0, _⟩ => rfl
    | ⟨1, _⟩ => rfl
  have hb : (flatDims wfg).batchCoord (ix1 e) 0 = 0 := by
    unfold GatherDims.batchCoord
    rw [dif_neg (by simp)]
  have ho : (flatDims wfg).offCoord (ix1 e) 0 = 0 := by
    unfold GatherDims.offCoord
    rw [dif_neg (by simp [GatherDims.sKept, Shape.kept, List.finRange])]
  rw [hs, hb, ho]
  omega

/-- THE FLAT GATHER AT AN ENTRY: the operand's entry at the edge's clamped word. -/
theorem flat_gather_apply {α : Type} (hN : 0 < N) (x : (⟨1, ![N]⟩ : Shape).Idx → α) (idx : IVec ⟨2, ![E, 1]⟩ w) (e : Fin E) :
    Host.gather (flatDims wfg) x idx (ix1 e) = x (ix1 ⟨clampRow N (idx (ix2 e 0)), clampRow_lt hN _⟩) := by
  unfold Host.gather
  refine congrArg x (funext fun a => Fin.ext ?_)
  match a with
  | ⟨0, _⟩ => exact flat_operandIdx0 wfg idx e
end FlatGather

/-! ## The accumulating scatter of rows -/

section RowScatter
variable (wfS : ScatterDims.WF ⟨2, ![N, C]⟩ ⟨2, ![E, 1]⟩ ⟨2, ![E, C]⟩ [1] [0] [0] 1)

/-- The row scatter's dimension numbers. -/
abbrev scatDims : ScatterDims ⟨2, ![N, C]⟩ ⟨2, ![E, 1]⟩ ⟨2, ![E, C]⟩ := ⟨[1], [0], [0], 1, wfS⟩

theorem scat_start0 (idx : IVec ⟨2, ![E, 1]⟩ w) (e : Fin E) (c : Fin C) :
    (scatDims wfS).start (ix2 e c) idx 0 = (idx (ix2 e 0)).toInt := by
  unfold ScatterDims.start
  rw [dif_pos (by simp)]
  congr 2
  funext b
  match b with
  | ⟨0, _⟩ => rfl
  | ⟨1, _⟩ => rfl

theorem scat_window0 (e : Fin E) (c : Fin C) : (scatDims wfS).window (ix2 e c) 0 = 0 := by
  unfold ScatterDims.window
  rw [dif_neg (by simp [ScatterDims.sKept, Shape.kept, List.finRange])]

/-- An update that lands on row i has a destination word that reads, signed, as i. -/
theorem lands_toInt (idx : IVec ⟨2, ![E, 1]⟩ w) (e : Fin E) (c : Fin C) (i : (⟨2, ![N, C]⟩ : Shape).Idx)
    (h : (scatDims wfS).resultIdx? (ix2 e c) idx = some i) : (idx (ix2 e 0)).toInt = ((i 0).val : Int) := by
  unfold ScatterDims.resultIdx? at h
  split at h
  · rename_i hin
    have hi := Option.some.inj h
    have h0 : ((scatDims wfS).start (ix2 e c) idx 0 + ((scatDims wfS).window (ix2 e c) 0 : Int)).toNat = (i 0).val := by
      rw [← hi]
    rw [scat_start0, scat_window0, Nat.cast_zero, add_zero] at h0
    have hnn := (hin 0).1
    rw [scat_start0, scat_window0, Nat.cast_zero, add_zero] at hnn
    rw [← h0, Int.toNat_of_nonneg hnn]
  · cases h

/-- So the clamped read of that same word is row i. -/
theorem lands_clampRow (idx : IVec ⟨2, ![E, 1]⟩ w) (e : Fin E) (c : Fin C) (i : (⟨2, ![N, C]⟩ : Shape).Idx)
    (h : (scatDims wfS).resultIdx? (ix2 e c) idx = some i) : clampRow N (idx (ix2 e 0)) = (i 0).val :=
  clampRow_of_toInt (i 0).isLt (lands_toInt wfS idx e c i h)
end RowScatter

end Cert.LibRows

end
-- ==== Proof.Graph.lean ====
/-
  The graph the two programs share, read off the two index arrays.

  Every edge carries two 32-bit words.  The gather reads an edge's source word as a signed integer and clamps it to
  the rows that exist; the accumulating scatter reads an edge's destination word as a signed integer and does NOT
  clamp it: a word that names no row delivers nowhere.  A node's degree counts the edges whose word reads as that
  node.  The normalising factor of a node is the inverse square root of its degree raised to at least one; the kernel
  spells it with the inverse square root, the reference with the power -1/2.
-/
import Idealize.ShloMosaic.PureOps.Ideal
import Idealize.ShloMosaic.Lib.ValueIdx
import proofs.«102259_j2284922601619_2_alg».proof.Proof.LibRows

noncomputable section

namespace Cert.Graph

open Idealize.ShloMosaic Idealize.ShloMosaic.ValueIdx

variable {N E : ℕ}

/-- The row edge `e` gathers: its word in the gather's index column, read signed and clamped to the last row. -/
def srcRow (hN : 0 < N) (gi : IVec ⟨2, ![E, 1]⟩ 32) (e : Fin E) : Fin N :=
  ⟨Cert.LibRows.clampRow N (gi (ix2 e 0)), Cert.LibRows.clampRow_lt hN _⟩

/-- Edge `e` delivers to node `v`: its word in the scatter's index column reads, signed, as `v`. -/
def hit (si : IVec ⟨2, ![E, 1]⟩ 32) (e : Fin E) (v : Fin N) : Prop :=
  (si (ix2 e 0)).toInt = (v.val : Int)

instance (si : IVec ⟨2, ![E, 1]⟩ 32) (e : Fin E) (v : Fin N) : Decidable (hit si e v) := by
  unfold hit; infer_instance

/-- The degree of node `v` under an index column: how many edges' words read as `v`, as an extended real. -/
def deg (si : IVec ⟨2, ![E, 1]⟩ 32) (v : Fin N) : EReal :=
  ∑ e : Fin E, if hit si e v then (1 : EReal) else 0

/-- The kernel's normalising factor: the inverse square root of the degree raised to at least one. -/
def scaleK (si : IVec ⟨2, ![E, 1]⟩ 32) (v : Fin N) : EReal :=
  Ideal.rsqrt (max (deg si v) 1)

/-- The reference's normalising factor: the degree raised to at least one, to the power -1/2. -/
def scaleR (si : IVec ⟨2, ![E, 1]⟩ 32) (v : Fin N) : EReal :=
  Ideal.pow (max 1 (deg si v)) ((-(1 / 2) : ℝ) : EReal)

end Cert.Graph

end
-- ==== Proof.LibDegree.lean ====
/-
  Counting edges per node, flat or as a column.

  An accumulating scatter adds, to each entry of its operand, the update values whose computed position is that entry;
  the position of an update is, on every operand axis, a start read off the index array plus the update's own window
  coordinate.  Two layouts of one count are compared: one value per edge scattered into a flat array with one entry
  per node, and the same values carried with a trailing axis of size one scattered into an array with one row of one
  entry per node.  In both the only start is the edge's destination index on the node axis and every window
  coordinate is zero, so an edge lands on node i exactly when its destination index is i (an index outside the array
  lands nowhere), and the two arrays agree entry by entry.
-/
import Idealize.ShloMosaic.PureOps.Ideal
import Idealize.ShloMosaic.Lib.ValueIdx

noncomputable section

namespace Cert.Sage

open Idealize.ShloMosaic Idealize.ShloMosaic.ValueIdx

/-- An update lands on the operand element i exactly when, on every axis, its start plus its window coordinate is
    i's coordinate. -/
theorem resultIdx?_eq_some_iff {s si u : Shape} (d : ScatterDims s si u) {w : ℕ} (j : u.Idx) (idx : IVec si w) (i : s.Idx) :
    d.resultIdx? j idx = some i ↔ ∀ a, d.start j idx a + (d.window j a : Int) = ((i a).val : Int) := by
  unfold ScatterDims.resultIdx?
  split
  · rename_i h
    rw [Option.some.injEq]
    constructor
    · rintro rfl a
      show _ = (((d.start j idx a + (d.window j a : Int)).toNat : ℕ) : Int)
      rw [Int.toNat_of_nonneg (h a).1]
    · intro hi
      funext a
      apply Fin.ext
      show (d.start j idx a + (d.window j a : Int)).toNat = (i a).val
      rw [hi a]; rfl
  · rename_i h
    constructor
    · intro h'; cases h'
    · intro hi
      exact absurd (fun a => by rw [hi a]; exact ⟨Int.natCast_nonneg _, by exact_mod_cast (i a).isLt⟩) h

variable {N E w : ℕ}

section Flat
variable (wf1 : ScatterDims.WF ⟨1, ![N]⟩ ⟨2, ![E, 1]⟩ ⟨1, ![E]⟩ [] [0] [0] 1)

theorem flat_start (idx : IVec ⟨2, ![E, 1]⟩ w) (e : Fin E) :
    (⟨[], [0], [0], 1, wf1⟩ : ScatterDims ⟨1, ![N]⟩ ⟨2, ![E, 1]⟩ ⟨1, ![E]⟩).start (ix1 e) idx 0 = (idx (ix2 e 0)).toInt := by
  unfold ScatterDims.start
  rw [dif_pos (by simp)]
  congr 2
  funext b
  match b with
  | ⟨0, _⟩ => rfl
  | ⟨1, _⟩ => rfl

theorem flat_window (e : Fin E) :
    (⟨[], [0], [0], 1, wf1⟩ : ScatterDims ⟨1, ![N]⟩ ⟨2, ![E, 1]⟩ ⟨1, ![E]⟩).window (ix1 e) 0 = 0 := by
  unfold ScatterDims.window
  rw [dif_neg (by simp [ScatterDims.sKept, Shape.kept, List.finRange])]

theorem flat_lands (idx : IVec ⟨2, ![E, 1]⟩ w) (e : Fin E) (i : Fin N) :
    (⟨[], [0], [0], 1, wf1⟩ : ScatterDims ⟨1, ![N]⟩ ⟨2, ![E, 1]⟩ ⟨1, ![E]⟩).resultIdx? (ix1 e) idx = some (ix1 i)
      ↔ (idx (ix2 e 0)).toInt = (i.val : Int) := by
  rw [resultIdx?_eq_some_iff]
  constructor
  · intro h
    have h0 := h 0
    rw [flat_start, flat_window, Nat.cast_zero, add_zero] at h0
    exact h0
  · intro h a
    match a with
    | ⟨0, _⟩ =>
      show ScatterDims.start _ (ix1 e) idx 0 + ((ScatterDims.window _ (ix1 e) 0 : ℕ) : Int) = _
      rw [flat_start, flat_window, h]; simp
end Flat

section Col
variable (wf2 : ScatterDims.WF ⟨2, ![N, 1]⟩ ⟨2, ![E, 1]⟩ ⟨2, ![E, 1]⟩ [1] [0] [0] 1)

theorem col_start0 (idx : IVec ⟨2, ![E, 1]⟩ w) (e : Fin E) :
    (⟨[1], [0], [0], 1, wf2⟩ : ScatterDims ⟨2, ![N, 1]⟩ ⟨2, ![E, 1]⟩ ⟨2, ![E, 1]⟩).start (ix2 e 0) idx 0 = (idx (ix2 e 0)).toInt := by
  unfold ScatterDims.start
  rw [dif_pos (by simp)]
  congr 2
  funext b
  match b with
  | ⟨0, _⟩ => rfl
  | ⟨1, _⟩ => rfl

theorem col_start1 (idx : IVec ⟨2, ![E, 1]⟩ w) (e : Fin E) :
    (⟨[1], [0], [0], 1, wf2⟩ : ScatterDims ⟨2, ![N, 1]⟩ ⟨2, ![E, 1]⟩ ⟨2, ![E, 1]⟩).start (ix2 e 0) idx 1 = 0 := by
  unfold ScatterDims.start
  rw [dif_neg (by simp)]

theorem col_window0 (e : Fin E) :
    (⟨[1], [0], [0], 1, wf2⟩ : ScatterDims ⟨2, ![N, 1]⟩ ⟨2, ![E, 1]⟩ ⟨2, ![E, 1]⟩).window (ix2 e 0) 0 = 0 := by
  unfold ScatterDims.window
  rw [dif_neg (by simp [ScatterDims.sKept, Shape.kept, List.finRange])]

theorem col_window1 (e : Fin E) :
    (⟨[1], [0], [0], 1, wf2⟩ : ScatterDims ⟨2, ![N, 1]⟩ ⟨2, ![E, 1]⟩ ⟨2, ![E, 1]⟩).window (ix2 e 0) 1 = 0 := by
  unfold ScatterDims.window
  split
  · rfl
  · rfl

theorem col_lands (idx : IVec ⟨2, ![E, 1]⟩ w) (e : Fin E) (i : Fin N) :
    (⟨[1], [0], [0], 1, wf2⟩ : ScatterDims ⟨2, ![N, 1]⟩ ⟨2, ![E, 1]⟩ ⟨2, ![E, 1]⟩).resultIdx? (ix2 e 0) idx = some (ix2 i 0)
      ↔ (idx (ix2 e 0)).toInt = (i.val : Int) := by
  rw [resultIdx?_eq_some_iff]
  constructor
  · intro h
    have h0 := h 0
    rw [col_start0, col_window0, Nat.cast_zero, add_zero] at h0
    exact h0
  · intro h a
    match a with
    | ⟨0, _⟩ =>
      show ScatterDims.start _ (ix2 e 0) idx 0 + ((ScatterDims.window _ (ix2 e 0) 0 : ℕ) : Int) = _
      rw [col_start0, col_window0, h]; simp
    | ⟨1, _⟩ =>
      show ScatterDims.start _ (ix2 e 0) idx 1 + ((ScatterDims.window _ (ix2 e 0) 1 : ℕ) : Int) = _
      rw [col_start1, col_window1]; rfl
end Col

/-- The flat edge indices are the edges. -/
def flatEquiv : (⟨1, ![E]⟩ : Shape).Idx ≃ Fin E where
  toFun j := j 0
  invFun e := ix1 e
  left_inv j := (eq_ix1 j).symm
  right_inv _ := rfl

/-- The edge indices carrying a trailing unit axis are the edges. -/
def colEquiv : (⟨2, ![E, 1]⟩ : Shape).Idx ≃ Fin E where
  toFun j := j 0
  invFun e := ix2 e 0
  left_inv j := by
    funext a
    match a with
    | ⟨0, _⟩ => rfl
    | ⟨1, _⟩ =>
      apply Fin.ext
      have h : (j 1).val < 1 := (j 1).isLt
      show 0 = (j 1).val
      omega
  right_inv _ := rfl

/-- THE DEGREE COUNT, flat or as a column: scattering one value per edge into a flat array of N entries, and
    scattering the same values carried with a trailing unit axis into an N by 1 array, give the same entry at every
    node: both add the values of the edges whose destination index is the node. -/
theorem scatterAdd_flat_eq_col
    (wf1 : ScatterDims.WF ⟨1, ![N]⟩ ⟨2, ![E, 1]⟩ ⟨1, ![E]⟩ [] [0] [0] 1)
    (wf2 : ScatterDims.WF ⟨2, ![N, 1]⟩ ⟨2, ![E, 1]⟩ ⟨2, ![E, 1]⟩ [1] [0] [0] 1)
    (x1 : (⟨1, ![N]⟩ : Shape).Idx → EReal) (x2 : (⟨2, ![N, 1]⟩ : Shape).Idx → EReal)
    (u1 : (⟨1, ![E]⟩ : Shape).Idx → EReal) (u2 : (⟨2, ![E, 1]⟩ : Shape).Idx → EReal)
    (idx : IVec ⟨2, ![E, 1]⟩ w) (i : Fin N)
    (hx : x1 (ix1 i) = x2 (ix2 i 0)) (hu : ∀ e : Fin E, u1 (ix1 e) = u2 (ix2 e 0)) :
    Ideal.hostScatterAdd (⟨[], [0], [0], 1, wf1⟩ : ScatterDims ⟨1, ![N]⟩ ⟨2, ![E, 1]⟩ ⟨1, ![E]⟩) x1 idx u1 (ix1 i)
      = Ideal.hostScatterAdd (⟨[1], [0], [0], 1, wf2⟩ : ScatterDims ⟨2, ![N, 1]⟩ ⟨2, ![E, 1]⟩ ⟨2, ![E, 1]⟩) x2 idx u2 (ix2 i 0) := by
  unfold Ideal.hostScatterAdd
  rw [hx]
  congr 1
  rw [Finset.sum_filter, Finset.sum_filter, ← flatEquiv.symm.sum_comp, ← colEquiv.symm.sum_comp]
  refine Finset.sum_congr rfl fun e _ => ?_
  show (if ScatterDims.resultIdx? _ (ix1 e) idx = some (ix1 i) then u1 (ix1 e) else 0)
     = (if ScatterDims.resultIdx? _ (ix2 e 0) idx = some (ix2 i 0) then u2 (ix2 e 0) else 0)
  rw [hu e]
  exact if_congr ((flat_lands wf1 idx e i).trans (col_lands wf2 idx e i).symm) rfl rfl

/-- The same comparison for any two records of scatter dimension numbers with those axis lists, stated for the host's
    accumulating scatter itself. -/
theorem scatterAdd_flat_eq_col'
    (d1 : ScatterDims ⟨1, ![N]⟩ ⟨2, ![E, 1]⟩ ⟨1, ![E]⟩) (d2 : ScatterDims ⟨2, ![N, 1]⟩ ⟨2, ![E, 1]⟩ ⟨2, ![E, 1]⟩)
    (h1u : d1.updateWindowDims = []) (h1i : d1.insertedWindowDims = [0]) (h1s : d1.scatterDimsToOperandDims = [0])
    (h1v : d1.indexVectorDim = 1)
    (h2u : d2.updateWindowDims = [1]) (h2i : d2.insertedWindowDims = [0]) (h2s : d2.scatterDimsToOperandDims = [0])
    (h2v : d2.indexVectorDim = 1)
    (x1 : (⟨1, ![N]⟩ : Shape).Idx → EReal) (x2 : (⟨2, ![N, 1]⟩ : Shape).Idx → EReal)
    (u1 : (⟨1, ![E]⟩ : Shape).Idx → EReal) (u2 : (⟨2, ![E, 1]⟩ : Shape).Idx → EReal)
    (idx : IVec ⟨2, ![E, 1]⟩ w) (i : Fin N)
    (hx : x1 (ix1 i) = x2 (ix2 i 0)) (hu : ∀ e : Fin E, u1 (ix1 e) = u2 (ix2 e 0)) :
    Host.scatterAdd (F := Ideal) (φ := .f32) d1 x1 idx u1 (ix1 i) = Host.scatterAdd (F := Ideal) (φ := .f32) d2 x2 idx u2 (ix2 i 0) := by
  obtain ⟨a1, b1, c1, v1, wf1⟩ := d1
  obtain ⟨a2, b2, c2, v2, wf2⟩ := d2
  dsimp only at h1u h1i h1s h1v h2u h2i h2s h2v
  subst h1u h1i h1s h1v h2u h2i h2s h2v
  exact scatterAdd_flat_eq_col wf1 wf2 x1 x2 u1 u2 idx i hx hu

end Cert.Sage
end
-- ==== Proof.LibSegment.lean ====
/-
  An accumulating scatter of rows, read at one entry as a plain sum over the edges, for any sizes.

  The operand has N rows of C entries, the index array has one word per edge (carried with a trailing unit axis), and
  the updates have one row of C entries per edge.  The position of the update (e, c') is, on the row axis, the edge's
  word read as a signed integer (not clamped) plus a zero window coordinate, and on the column axis a zero start plus
  the window coordinate c'.  So the update (e, c') lands on the operand's entry (h, c) exactly when the edge's word
  reads as h and c' = c; a word that reads as no row lands nowhere.  The scatter's sum over the updates that land on
  (h, c) is therefore a double sum over edges and columns in which, for every edge, only the column c survives:

      scatter(x, idx, U)(h, c) = x(h, c) + ∑ e, (if idx(e) reads as h then U(e, c) else 0).
-/
import proofs.«102259_j2284922601619_2_alg».proof.Proof.LibRows
import proofs.«102259_j2284922601619_2_alg».proof.Proof.LibDegree

noncomputable section

namespace Cert.LibSegment

open Idealize.ShloMosaic Idealize.ShloMosaic.ValueIdx

variable {N E C w : ℕ}

section RowScatter
variable (wfS : ScatterDims.WF ⟨2, ![N, C]⟩ ⟨2, ![E, 1]⟩ ⟨2, ![E, C]⟩ [1] [0] [0] 1)

/-- On the column axis the window starts at zero: no component of the index array names that axis. -/
theorem scat_start1 (idx : IVec ⟨2, ![E, 1]⟩ w) (e : Fin E) (c : Fin C) :
    (Cert.LibRows.scatDims wfS).start (ix2 e c) idx 1 = 0 := by
  unfold ScatterDims.start
  rw [dif_neg (by simp)]

/-- On the column axis the window coordinate of the update (e, c) is c. -/
theorem scat_window1 (e : Fin E) (c : Fin C) : (Cert.LibRows.scatDims wfS).window (ix2 e c) 1 = c.val := by
  unfold ScatterDims.window
  rw [dif_pos (by simp [ScatterDims.sKept, Shape.kept, List.finRange])]
  rfl

/-- The update (e, c') lands on the entry (h, c) exactly when the edge's word reads, signed, as h, and c' = c. -/
theorem row_lands (idx : IVec ⟨2, ![E, 1]⟩ w) (e : Fin E) (c' : Fin C) (h : Fin N) (c : Fin C) :
    (Cert.LibRows.scatDims wfS).resultIdx? (ix2 e c') idx = some (ix2 h c)
      ↔ (idx (ix2 e 0)).toInt = (h.val : Int) ∧ c' = c := by
  rw [Cert.Sage.resultIdx?_eq_some_iff]
  constructor
  · intro hh
    have h0 := hh 0
    have h1 := hh 1
    rw [Cert.LibRows.scat_start0, Cert.LibRows.scat_window0, Nat.cast_zero, add_zero] at h0
    rw [scat_start1, scat_window1, zero_add] at h1
    refine ⟨h0, Fin.ext ?_⟩
    have h1' : (c'.val : Int) = (c.val : Int) := h1
    exact_mod_cast h1'
  · rintro ⟨h0, rfl⟩ a
    match a with
    | ⟨0, _⟩ =>
      show ScatterDims.start _ (ix2 e c') idx 0 + ((ScatterDims.window _ (ix2 e c') 0 : ℕ) : Int) = _
      rw [Cert.LibRows.scat_start0, Cert.LibRows.scat_window0, h0]; simp
    | ⟨1, _⟩ =>
      show ScatterDims.start _ (ix2 e c') idx 1 + ((ScatterDims.window _ (ix2 e c') 1 : ℕ) : Int) = _
      rw [scat_start1, scat_window1]; simp

/-- THE ACCUMULATING SCATTER OF ROWS AT AN ENTRY: the operand's entry plus, over the edges whose word reads as the
    entry's row, the update's entry in the same column. -/
theorem rowScatter_apply (x : (⟨2, ![N, C]⟩ : Shape).Idx → EReal) (idx : IVec ⟨2, ![E, 1]⟩ w)
    (U : (⟨2, ![E, C]⟩ : Shape).Idx → EReal) (h : Fin N) (c : Fin C) :
    Ideal.hostScatterAdd (Cert.LibRows.scatDims wfS) x idx U (ix2 h c)
      = x (ix2 h c) + ∑ e : Fin E, if (idx (ix2 e 0)).toInt = (h.val : Int) then U (ix2 e c) else 0 := by
  unfold Ideal.hostScatterAdd
  congr 1
  rw [Finset.sum_filter, sum_idx2]
  refine Finset.sum_congr rfl fun e _ => ?_
  rw [Finset.sum_congr rfl (fun c' _ => if_congr (row_lands wfS idx e c' h c) rfl rfl)]
  by_cases hP : (idx (ix2 e 0)).toInt = (h.val : Int)
  · simp only [hP, true_and, if_true]
    exact Finset.sum_ite_eq' Finset.univ c (fun c' => U (ix2 e c')) |>.trans (by simp)
  · simp only [hP, false_and, if_false]
    exact Finset.sum_const_zero
end RowScatter

end Cert.LibSegment

end
-- ==== Proof.LibFlatScatter.lean ====
/-
  An accumulating scatter into a flat array, read at an entry as a plain sum over the edges, for any sizes.

  The operand has N entries, the index array one word per edge (carried with a trailing unit axis), the updates one
  value per edge.  An edge's update lands on entry i exactly when its word, read as a signed integer and not clamped,
  is i; a word that reads as no entry lands nowhere.  So

      scatter(x, idx, u)(i) = x(i) + ∑ e, (if idx(e) reads as i then u(e) else 0).
-/
import proofs.«102259_j2284922601619_2_alg».proof.Proof.LibDegree

noncomputable section

namespace Cert.LibFlatScatter

open Idealize.ShloMosaic Idealize.ShloMosaic.ValueIdx

variable {N E w : ℕ}

/-- THE FLAT ACCUMULATING SCATTER AT AN ENTRY. -/
theorem flatScatter_apply (wf1 : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (u : (⟨1, ![E]⟩ : Shape).Idx → EReal) (i : Fin N) :
    Ideal.hostScatterAdd (⟨[], [0], [0], 1, wf1⟩ : ScatterDims ⟨1, ![N]⟩ ⟨2, ![E, 1]⟩ ⟨1, ![E]⟩) x idx u (ix1 i)
      = x (ix1 i) + ∑ e : Fin E, if (idx (ix2 e 0)).toInt = (i.val : Int) then u (ix1 e) else 0 := by
  unfold Ideal.hostScatterAdd
  congr 1
  rw [Finset.sum_filter, ← Cert.Sage.flatEquiv.symm.sum_comp]
  refine Finset.sum_congr rfl fun e _ => ?_
  show (if ScatterDims.resultIdx? _ (ix1 e) idx = some (ix1 i) then u (ix1 e) else 0) = _
  exact if_congr (Cert.Sage.flat_lands wf1 idx e i) rfl rfl

end Cert.LibFlatScatter

end
-- ==== Proof.LibRealValued.lean ====
/-
  Extended reals that are real numbers.

  Over the extended reals the distributive law, and with it the exchange of two finite sums across a product, holds
  only away from the infinities.  An entry is called real when it is the coercion of a real number; sums, products,
  maxima and case distinctions of real entries are real, and so is every finite sum of real entries.  A family of real
  entries has a real-valued family behind it, which is how a law proved over the reals is carried to the extended
  reals.
-/
import Mathlib.Data.EReal.Operations
import Mathlib.Algebra.BigOperators.Group.Finset.Basic

noncomputable section

namespace Cert.RealValued

/-- The extended real `x` is (the coercion of) a real number. -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  rcases max_choice x y with h | h <;> rw [h] <;> assumption

theorem IsReal.ite {p : Prop} [Decidable p] {x y : EReal} (hx : IsReal x) (hy : IsReal y) :
    IsReal (if p then x else y) := by
  split <;> assumption

/-- A finite sum of real entries is real. -/
theorem isReal_sum {ι : Type} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real entry that is at least one is a nonzero real number. -/
theorem IsReal.coe_ne_zero_of_one_le {x : EReal} (hx : IsReal x) (h1 : 1 ≤ x) : ∃ r : ℝ, r ≠ 0 ∧ x = (r : EReal) := by
  obtain ⟨r, rfl⟩ := hx
  refine ⟨r, ?_, rfl⟩
  have : (1 : ℝ) ≤ r := by exact_mod_cast h1
  intro h0
  rw [h0] at this
  linarith

end Cert.RealValued

end
-- ==== Proof.GraphRead.lean ====
/-
  The host's gather of rows and its accumulating scatters, read in the graph's vocabulary, and the two normalising
  factors compared.

  A gather of rows by an index column reads, for edge e, the row the edge's word names when read signed and clamped
  to the rows that exist: the edge's source row.  An accumulating scatter of rows (or of one value per edge into a
  flat array) adds to node v's row (entry) the rows (values) of exactly the edges that deliver to v.  Both hold for
  every record of dimension numbers with the axis lists of a row gather or a row (flat) scatter, whatever proof of
  well-formedness the record carries.

  The degree of a node is a finite sum of zeros and ones, so it is a real number d with 0 ≤ d, and max d 1 is a real
  number m with 1 ≤ m.  For such m the inverse square root is (√m)⁻¹ and the power is m ^ (-1/2); the two agree since
  √m = m ^ (1/2) and m ^ (-y) = (m ^ y)⁻¹ for m ≥ 0.  So the two spellings of a node's normalising factor agree, and the
  factor is a real number.
-/
import Idealize.ShloMosaic.Lib.IdealHost
import Mathlib.Analysis.SpecialFunctions.Pow.Real
import proofs.«102259_j2284922601619_2_alg».proof.Proof.Graph
import proofs.«102259_j2284922601619_2_alg».proof.Proof.LibSegment
import proofs.«102259_j2284922601619_2_alg».proof.Proof.LibFlatScatter
import proofs.«102259_j2284922601619_2_alg».proof.Proof.LibRealValued

noncomputable section

namespace Cert.Graph

open Idealize.ShloMosaic Idealize.ShloMosaic.ValueIdx Cert.RealValued

variable {N E C : ℕ}

/-! ## The gather and the scatters -/

/-- THE GATHER OF ROWS AT AN ENTRY: edge e's row of the result is the operand's row at the edge's source row. -/
theorem gather_rows (hN : 0 < N) (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    {α : Type} (X : (⟨2, ![N, C]⟩ : Shape).Idx → α) (gi : IVec ⟨2, ![E, 1]⟩ 32) (e : Fin E) (k : Fin C) :
    Host.gather d X gi (ix2 e k) = X (ix2 (srcRow hN gi e) k) := by
  obtain ⟨a1, a2, a3, a4, a5, a6, a7, wf⟩ := d
  dsimp only at h1 h2 h3 h4 h5 h6 h7
  subst h1 h2 h3 h4 h5 h6 h7
  exact Cert.LibRows.row_gather_apply wf hN X gi e k

/-- THE ACCUMULATING SCATTER OF ROWS AT AN ENTRY: node v's entry k, plus the entries k of the rows of the edges that
    deliver to v. -/
theorem scatter_rows (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1)
    (x : (⟨2, ![N, C]⟩ : Shape).Idx → EReal) (si : IVec ⟨2, ![E, 1]⟩ 32) (U : (⟨2, ![E, C]⟩ : Shape).Idx → EReal)
    (v : Fin N) (k : Fin C) :
    Host.scatterAdd (F := Ideal) (φ := .f32) d x si U (ix2 v k)
      = x (ix2 v k) + ∑ e : Fin E, if hit si e v then U (ix2 e k) else 0 := by
  obtain ⟨a1, a2, a3, a4, wf⟩ := d
  dsimp only at h1 h2 h3 h4
  subst h1 h2 h3 h4
  exact Cert.LibSegment.rowScatter_apply wf x si U v k

/-- THE ACCUMULATING SCATTER INTO A FLAT ARRAY AT AN ENTRY: node v's entry, plus the values of the edges that deliver
    to v. -/
theorem scatter_flat (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
    (x : (⟨1, ![N]⟩ : Shape).Idx → EReal) (si : IVec ⟨2, ![E, 1]⟩ 32) (u : (⟨1, ![E]⟩ : Shape).Idx → EReal)
    (v : Fin N) :
    Host.scatterAdd (F := Ideal) (φ := .f32) d x si u (ix1 v)
      = x (ix1 v) + ∑ e : Fin E, if hit si e v then u (ix1 e) else 0 := by
  obtain ⟨a1, a2, a3, a4, wf⟩ := d
  dsimp only at h1 h2 h3 h4
  subst h1 h2 h3 h4
  exact Cert.LibFlatScatter.flatScatter_apply wf x si u v

/-! ## The constants -/

/-- The 32-bit pattern 0x3F800000 is the real one. -/
theorem one_bits : Ideal.ofBits .f32 0x3F800000#32 = 1 := Ideal.ofBits_one_f32

/-- The 32-bit pattern 0xBF000000 is the real minus one half. -/
theorem mhalf_bits : Ideal.ofBits .f32 0xBF000000#32 = ((-(1 / 2) : ℝ) : EReal) := by
  simp [Ideal.ofBits, Ideal.ieee, -EReal.coe_mul, -EReal.coe_neg]; norm_num

/-! ## The degree and the normalising factors -/

/-- The degree is the coercion of a real count. -/
theorem deg_eq_coe (si : IVec ⟨2, ![E, 1]⟩ 32) (v : Fin N) :
    deg si v = ((∑ e : Fin E, if hit si e v then (1 : ℝ) else 0 : ℝ) : EReal) := by
  unfold deg
  rw [coe_sum]
  refine Finset.sum_congr rfl fun e _ => ?_
  by_cases hh : hit si e v
  · rw [if_pos hh, if_pos hh]; rfl
  · rw [if_neg hh, if_neg hh]; rfl

/-- The real count is not negative. -/
theorem count_nonneg (si : IVec ⟨2, ![E, 1]⟩ 32) (v : Fin N) :
    (0 : ℝ) ≤ ∑ e : Fin E, if hit si e v then (1 : ℝ) else 0 :=
  Finset.sum_nonneg fun e _ => by split <;> norm_num

/-- The degree is a real number. -/
theorem deg_isReal (si : IVec ⟨2, ![E, 1]⟩ 32) (v : Fin N) : IsReal (deg si v) :=
  ⟨_, deg_eq_coe si v⟩

/-- For a real m ≥ 0 the inverse of the square root is the power -1/2. -/
theorem inv_sqrt_eq_rpow {m : ℝ} (hm : 0 ≤ m) : (Real.sqrt m)⁻¹ = Real.rpow m (-(1 / 2)) := by
  show _ = m ^ (-(1 / 2 : ℝ))
  rw [Real.rpow_neg hm, Real.sqrt_eq_rpow]

/-- The degree raised to at least one is the coercion of a real number that is at least one. -/
theorem max_deg_one (si : IVec ⟨2, ![E, 1]⟩ 32) (v : Fin N) :
    ∃ m : ℝ, 1 ≤ m ∧ max (deg si v) 1 = (m : EReal) := by
  refine ⟨max (∑ e : Fin E, if hit si e v then (1 : ℝ) else 0) 1, le_max_right _ _, ?_⟩
  rw [deg_eq_coe, EReal.coe_strictMono.monotone.map_max]
  rfl

/-- The kernel's factor at a real m ≥ 1. -/
theorem rsqrt_coe_of_one_le {m : ℝ} (hm : 1 ≤ m) : Ideal.rsqrt (m : EReal) = (((Real.sqrt m)⁻¹ : ℝ) : EReal) := by
  rw [Ideal.rsqrt_coe, if_neg (by linarith), if_neg (by linarith)]

/-- THE TWO SPELLINGS OF THE NORMALISING FACTOR AGREE. -/
theorem scaleK_eq_scaleR (si : IVec ⟨2, ![E, 1]⟩ 32) (v : Fin N) : scaleK si v = scaleR si v := by
  obtain ⟨m, hm, hmax⟩ := max_deg_one si v
  unfold scaleK scaleR
  rw [max_comm 1 (deg si v), hmax, rsqrt_coe_of_one_le hm, Ideal.pow_coe_coe, inv_sqrt_eq_rpow (by linarith)]

/-- The normalising factor is a real number. -/
theorem scaleK_isReal (si : IVec ⟨2, ![E, 1]⟩ 32) (v : Fin N) : IsReal (scaleK si v) := by
  obtain ⟨m, hm, hmax⟩ := max_deg_one si v
  unfold scaleK
  rw [hmax, rsqrt_coe_of_one_le hm]
  exact isReal_coe _

/-- So is the reference's spelling of it. -/
theorem scaleR_isReal (si : IVec ⟨2, ![E, 1]⟩ 32) (v : Fin N) : IsReal (scaleR si v) := by
  rw [← scaleK_eq_scaleR]
  exact scaleK_isReal si v

end Cert.Graph

end
-- ==== Proof.Conv.lean ====
/-
  A two-layer graph convolution with symmetric degree normalisation, in two arrangements.

  Nodes are a finite type, edges another; an edge e gathers the row of node (s e) and delivers it to every node v
  with (hit e v).  One layer scales each node's row by an out-factor (ro), sums over the edges that deliver to v the
  rows they gather, scales the sum by an in-factor (ri v), multiplies by a weight matrix and adds a bias.

  The reference arrangement does exactly that, twice, with a rectifier in between.  The kernel's arrangement
  multiplies by the weight matrix BEFORE the gather and the sum (the rows that travel along the edges are then
  narrower), and applies the second layer's out-factor right after the rectifier.  Both are stated over the extended
  reals, entry by entry; the order of every product and sum is the order in which the two programs compute it.
-/
import proofs.«102259_j2284922601619_2_alg».proof.Proof.LibRealValued
import Mathlib.Data.Fintype.BigOperators

noncomputable section

namespace Cert.Conv

variable {ν E : Type} [Fintype ν] [Fintype E] {a b c : ℕ}

/-- A row-by-matrix product: entry (u, k) of x · w. -/
def lin (x : ν → Fin a → EReal) (w : Fin a → Fin b → EReal) (u : ν) (k : Fin b) : EReal :=
  ∑ l : Fin a, x u l * w l k

/-- Gather along the edges, then sum per destination: entry (v, k) is the sum, over the edges that deliver to v, of
    the entry k of the row they gather. -/
def aggr (s : E → ν) (hit : E → ν → Prop) [∀ e v, Decidable (hit e v)] (x : ν → Fin a → EReal) (v : ν) (k : Fin a) :
    EReal :=
  ∑ e : E, if hit e v then x (s e) k else 0

/-- The first layer's rows as the kernel sends them along the edges: (f · ro) · w1. -/
def kerRows1 (ro : ν → EReal) (f : ν → Fin a → EReal) (w1 : Fin a → Fin b → EReal) : ν → Fin b → EReal :=
  lin (fun u l => f u l * ro u) w1

/-- The kernel's hidden rows: relu (agg · ri + b1) · ro, the second layer's out-factor already applied. -/
def kerHidden (s : E → ν) (hit : E → ν → Prop) [∀ e v, Decidable (hit e v)] (ro ri : ν → EReal)
    (f : ν → Fin a → EReal) (w1 : Fin a → Fin b → EReal) (b1 : Fin b → EReal) : ν → Fin b → EReal :=
  fun v k => max (aggr s hit (kerRows1 ro f w1) v k * ri v + b1 k) 0 * ro v

/-- The second layer's rows as the kernel sends them along the edges: hidden · w2. -/
def kerRows2 (s : E → ν) (hit : E → ν → Prop) [∀ e v, Decidable (hit e v)] (ro ri : ν → EReal)
    (f : ν → Fin a → EReal) (w1 : Fin a → Fin b → EReal) (b1 : Fin b → EReal) (w2 : Fin b → Fin c → EReal) :
    ν → Fin c → EReal :=
  lin (kerHidden s hit ro ri f w1 b1) w2

/-- THE KERNEL'S ARRANGEMENT: weights before the edges, in both layers. -/
def kernelOut (s : E → ν) (hit : E → ν → Prop) [∀ e v, Decidable (hit e v)] (ro ri : ν → EReal)
    (f : ν → Fin a → EReal) (w1 : Fin a → Fin b → EReal) (b1 : Fin b → EReal) (w2 : Fin b → Fin c → EReal)
    (b2 : Fin c → EReal) : ν → Fin c → EReal :=
  fun v j => aggr s hit (kerRows2 s hit ro ri f w1 b1 w2) v j * ri v + b2 j

/-- One layer of the reference: ((x · ro) gathered and summed, · ri) · w + b. -/
def refLayer (s : E → ν) (hit : E → ν → Prop) [∀ e v, Decidable (hit e v)] (ro ri : ν → EReal)
    (x : ν → Fin a → EReal) (w : Fin a → Fin b → EReal) (bias : Fin b → EReal) : ν → Fin b → EReal :=
  fun v k => lin (fun v' l => aggr s hit (fun u l' => x u l' * ro u) v' l * ri v') w v k + bias k

/-- THE REFERENCE'S ARRANGEMENT: two layers with a rectifier in between. -/
def refOut (s : E → ν) (hit : E → ν → Prop) [∀ e v, Decidable (hit e v)] (ro ri : ν → EReal)
    (f : ν → Fin a → EReal) (w1 : Fin a → Fin b → EReal) (b1 : Fin b → EReal) (w2 : Fin b → Fin c → EReal)
    (b2 : Fin c → EReal) : ν → Fin c → EReal :=
  refLayer s hit ro ri (fun v k => max (refLayer s hit ro ri f w1 b1 v k) 0) w2 b2

end Cert.Conv

end
-- ==== Proof.LibProduct.lean ====
/-
  A matrix product read at an entry, for any sizes.

  For an M by K left factor and a K by N right factor contracted along the left factor's columns and the right
  factor's rows (no batch axis), the operand indices at the output entry (a, b) and the contraction index c are
  (a, c) and (c, b).  So the entry (a, b) of the product is ∑ c, l (a, c) · r (c, b): for the matrix unit's product
  into a zero accumulator and for the host's general product alike.  Row a of the product depends on row a of the
  left factor only.
-/
import Idealize.ShloMosaic.PureOps.Ideal
import Idealize.ShloMosaic.PureOps.Ideal.Laws
import Idealize.ShloMosaic.Lib.ValueIdx

noncomputable section

namespace Cert.LibProduct

open Idealize.ShloMosaic Idealize.ShloMosaic.ValueIdx

variable {M K N : ℕ}

/-- The row-by-column dimension numbers: the left factor's columns against the right factor's rows, no batch axis. -/
abbrev rowCol (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

/-- The left operand's row coordinate at the output entry (a, b) is a, whatever the contraction index. -/
theorem lhs_row (wf : DotDims.WF ⟨2, ![M, K]⟩ ⟨2, ![K, N]⟩ ⟨2, ![M, N]⟩ [1] [0] [0] [1] [] [])
    (i : (⟨2, ![M, N]⟩ : Shape).Idx) (q : (rowCol wf).contr.Idx) : ((rowCol wf).lhsIdx i q 0).val = (i 0).val := by
  unfold DotDims.lhsIdx
  rw [dif_neg (by simp), dif_pos (by simp)]
  rfl

/-- The right operand's column coordinate at the output entry (a, b) is b, whatever the contraction index. -/
theorem rhs_col (wf : DotDims.WF ⟨2, ![M, K]⟩ ⟨2, ![K, N]⟩ ⟨2, ![M, N]⟩ [1] [0] [0] [1] [] [])
    (i : (⟨2, ![M, N]⟩ : Shape).Idx) (q : (rowCol wf).contr.Idx) : ((rowCol wf).rhsIdx i q 1).val = (i 1).val := by
  unfold DotDims.rhsIdx
  rw [dif_neg (by simp), dif_pos (by simp)]
  rfl

/-- The sum over the contraction index of the products of the operands' entries is the sum over the shared
    coordinate c of l (a, c) · r (c, b). -/
theorem sum_products (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (a : Fin M) (b : Fin N) :
    ∑ k : (rowCol wf).contr.Idx, l ((rowCol wf).lhsIdx (ix2 a b) k) * r ((rowCol wf).rhsIdx (ix2 a b) k)
      = ∑ c : Fin K, l (ix2 a c) * r (ix2 c b) := by
  rw [← Equiv.sum_comp (contrEquiv1 (rowCol wf) K rfl rfl).symm]
  refine Finset.sum_congr rfl fun c _ => ?_
  have hk := contrEquiv1_symm_val (rowCol wf) K rfl rfl c
  have el : (rowCol wf).lhsIdx (ix2 a b) ((contrEquiv1 (rowCol wf) K rfl rfl).symm c) = ix2 a c := funext fun ax => Fin.ext (by
    match ax with
    | ⟨0, _⟩ => exact lhs_row wf _ _
    | ⟨1, _⟩ => exact ((rowCol wf).lhsIdx_val_of_single rfl (ix2 a b) _).trans hk)
  have er : (rowCol wf).rhsIdx (ix2 a b) ((contrEquiv1 (rowCol wf) K rfl rfl).symm c) = ix2 c b := funext fun ax => Fin.ext (by
    match ax with
    | ⟨0, _⟩ => exact ((rowCol wf).rhsIdx_val_of_single rfl (ix2 a b) _).trans hk
    | ⟨1, _⟩ => exact rhs_col wf _ _)
  rw [el, er]

/-- THE MATRIX UNIT'S PRODUCT INTO A ZERO ACCUMULATOR AT AN ENTRY, for any record of dimension numbers with the
    row-by-column axis lists. -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ c : Fin K, l (ix2 a c) * r (ix2 c b) := by
  obtain ⟨lc, rc, ln, rn, lb, rb, wf⟩ := d
  dsimp only at h1 h2 h3 h4 h5 h6
  subst h1 h2 h3 h4 h5 h6
  rw [Ideal.matmul_constant_zero_apply]
  exact sum_products wf l r a b

/-- THE HOST'S GENERAL PRODUCT AT AN ENTRY, for any such record. -/
theorem dotGeneral_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![M, K]⟩ φ₁) (r : FVec Ideal ⟨2, ![K, N]⟩ φ₂) (a : Fin M) (b : Fin N) :
    Host.dotGeneral d prec l r (ix2 a b) = ∑ c : Fin K, l (ix2 a c) * r (ix2 c b) := by
  obtain ⟨lc, rc, ln, rn, lb, rb, wf⟩ := d
  dsimp only at h1 h2 h3 h4 h5 h6
  subst h1 h2 h3 h4 h5 h6
  simp only [Host.dotGeneral]
  rw [Ideal.dotGeneral_apply]
  exact sum_products wf l r a b

end Cert.LibProduct

end
-- ==== Proof.RefValue.lean ====
/-
  The reference program's result, entry by entry, is the reference arrangement of the two-layer graph convolution.

  The program counts, for every node, the edges whose source word (destination word) reads as that node: a flat
  accumulating scatter of ones into zeros, so the count is the node's degree under that index column.  It raises the
  degree to at least one and takes the power -1/2: the reference's normalising factor.  A layer scales each node's row
  by the factor of its out-degree, gathers the scaled row of every edge's source row, sums per destination the rows of
  the edges that deliver there (an accumulating scatter of rows into zeros), scales the sum by the factor of the
  in-degree, multiplies by the weight matrix and adds the bias.  Two such layers with a rectifier in between.  The
  program recomputes the index columns and the factors for the second layer; the repeated stages are the first ones
  word for word.
-/
import proofs.«102259_j2284922601619_2_alg».proof.Proof.Gen.ReferenceIdeal.Read
import proofs.«102259_j2284922601619_2_alg».proof.Proof.GraphRead
import proofs.«102259_j2284922601619_2_alg».proof.Proof.Conv
import proofs.«102259_j2284922601619_2_alg».proof.Proof.LibProduct

noncomputable section

namespace Cert.ReferenceIdeal.RefValue

open Cert.ReferenceIdeal Cert.ReferenceIdeal.Gen Cert.ReferenceIdeal.Read Idealize.ShloMosaic Idealize.ShloMosaic.ValueIdx
  Cert.Graph

variable (x0 : (⟨S50000x128, .f32⟩ : BufTy).Contents (Elt Ideal)) (x1 x2 : (⟨S1600000, .i32⟩ : BufTy).Contents (Elt Ideal))
  (x3 : (⟨S128x64, .f32⟩ : BufTy).Contents (Elt Ideal)) (x4 : (⟨S64, .f32⟩ : BufTy).Contents (Elt Ideal))
  (x5 : (⟨S64x16, .f32⟩ : BufTy).Contents (Elt Ideal)) (x6 : (⟨S16, .f32⟩ : BufTy).Contents (Elt Ideal))

/-! ## The repeated stages are the first ones -/

/-- The second layer's source column is the first layer's. -/
theorem srcCol_again : val_main_v36 (F := Ideal) x1 = val_main_v2 (F := Ideal) x1 := rfl
/-- The second layer's gather column is the first layer's. -/
theorem gatherCol_again : val_main_v53 (F := Ideal) x1 = val_main_v19 (F := Ideal) x1 := rfl
/-- The scatter's destination column is the degree count's. -/
theorem dstCol_scatter : val_main_v22 (F := Ideal) x2 = val_main_v6 (F := Ideal) x2 := rfl
/-- The second layer's destination columns are the first layer's. -/
theorem dstCol_again : val_main_v56 (F := Ideal) x2 = val_main_v22 (F := Ideal) x2 := rfl
theorem dstCol_again' : val_main_v40 (F := Ideal) x2 = val_main_v6 (F := Ideal) x2 := rfl
/-- The second layer's out-factor is the first layer's. -/
theorem outScale_again : val_main_v44 (F := Ideal) x1 = val_main_v10 (F := Ideal) x1 := rfl
/-- The second layer's in-factor is the first layer's. -/
theorem inScale_again : val_main_v59 (F := Ideal) x2 = val_main_v25 (F := Ideal) x2 := rfl

/-! ## Degrees and factors at a node -/

/-- The count of source words at node u is the degree under the source column. -/
theorem outCount_apply (u : Fin 50000) :
    val_main_v3 (F := Ideal) x1 (ix1 u) = deg (val_main_v2 (F := Ideal) x1) u := by
  unfold val_main_v3
  rw [scatter_flat scatter_S50000_S1600000x1_S1600000_n_0_0_1 rfl rfl rfl rfl]
  rw [val_main_v1_apply, val_main_cst_0_apply, Ideal.ofBits_def, Ideal.ofBits_zero_f32, zero_add]
  unfold deg
  refine Finset.sum_congr rfl fun e _ => ?_
  rw [val_main_v0_apply, val_main_cst_apply, Ideal.ofBits_def, one_bits]

/-- The count of destination words at node v is the degree under the destination column. -/
theorem inCount_apply (v : Fin 50000) :
    val_main_v7 (F := Ideal) x2 (ix1 v) = deg (val_main_v6 (F := Ideal) x2) v := by
  unfold val_main_v7
  rw [scatter_flat scatter_S50000_S1600000x1_S1600000_n_0_0_1 rfl rfl rfl rfl]
  rw [val_main_v5_apply, val_main_cst_2_apply, Ideal.ofBits_def, Ideal.ofBits_zero_f32, zero_add]
  unfold deg
  refine Finset.sum_congr rfl fun e _ => ?_
  rw [val_main_v0_apply, val_main_cst_apply, Ideal.ofBits_def, one_bits]

/-- The out-factor at node u: the out-degree raised to at least one, to the power -1/2. -/
theorem outScale_apply (u : Fin 50000) :
    val_main_v10 (F := Ideal) x1 (ix1 u) = scaleR (val_main_v2 (F := Ideal) x1) u := by
  rw [val_main_v10_apply, val_main_v4_apply, val_main_call0_v1_apply, val_main_call0_v0_apply, val_main_cst_1_apply,
    val_main_v9_apply, val_main_cst_4_apply, outCount_apply, Ideal.hostPowf_def, Ideal.maximumf_def, Ideal.ofBits_def,
    Ideal.ofBits_def, one_bits, mhalf_bits]
  rfl

/-- The in-factor at node v: the in-degree raised to at least one, to the power -1/2. -/
theorem inScale_apply (v : Fin 50000) :
    val_main_v25 (F := Ideal) x2 (ix1 v) = scaleR (val_main_v6 (F := Ideal) x2) v := by
  rw [val_main_v25_apply, val_main_v8_apply, val_main_call1_v1_apply, val_main_call1_v0_apply, val_main_cst_3_apply,
    val_main_v24_apply, val_main_cst_7_apply, inCount_apply, Ideal.hostPowf_def, Ideal.maximumf_def, Ideal.ofBits_def,
    Ideal.ofBits_def, one_bits, mhalf_bits]
  rfl

/-! ## The two arrangements' layers, opened once -/

section Conv
variable {ν E : Type} [Fintype ν] [Fintype E] {a b c : ℕ}

/-- One layer at an entry. -/
theorem refLayer_apply (s : E → ν) (hit : E → ν → Prop) [∀ e v, Decidable (hit e v)] (ro ri : ν → EReal)
    (x : ν → Fin a → EReal) (w : Fin a → Fin b → EReal) (bias : Fin b → EReal) (v : ν) (k : Fin b) :
    Cert.Conv.refLayer s hit ro ri x w bias v k
      = (∑ l : Fin a, Cert.Conv.aggr s hit (fun u l' => x u l' * ro u) v l * ri v * w l k) + bias k := rfl

/-- The two layers at an entry: the second layer reads the rectified first. -/
theorem refOut_apply (s : E → ν) (hit : E → ν → Prop) [∀ e v, Decidable (hit e v)] (ro ri : ν → EReal)
    (f : ν → Fin a → EReal) (w1 : Fin a → Fin b → EReal) (b1 : Fin b → EReal) (w2 : Fin b → Fin c → EReal)
    (b2 : Fin c → EReal) (v : ν) (j : Fin c) :
    Cert.Conv.refOut s hit ro ri f w1 b1 w2 b2 v j
      = (∑ k : Fin b, Cert.Conv.aggr s hit (fun u k' => max (Cert.Conv.refLayer s hit ro ri f w1 b1 u k') 0 * ro u) v k
          * ri v * w2 k j) + b2 j := rfl
end Conv

/-! ## The first layer -/

/-- The first layer's scaled rows: node u's row times its out-factor. -/
theorem rows1_apply (u : Fin 50000) (l : Fin 128) :
    val_main_v13 (F := Ideal) x0 x1 (ix2 u l) = x0 (ix2 u l) * scaleR (val_main_v2 (F := Ideal) x1) u := by
  rw [val_main_v13_apply, val_main_v12_apply, val_main_v11_apply, Ideal.mulf_def,
    (show idx_main_v11 (idx_main_v12 (ix2 u l)) = ix1 u from funext fun a => Fin.ext (by match a with | ⟨0, _⟩ => rfl)), outScale_apply]

/-- The first layer's aggregate at (v, l): over the edges that deliver to v, entry l of their source row, scaled. -/
theorem agg1_apply (v : Fin 50000) (l : Fin 128) :
    val_main_v23 (F := Ideal) x0 x1 x2 (ix2 v l)
      = Cert.Conv.aggr (srcRow (N := 50000) (by norm_num) (val_main_v19 (F := Ideal) x1)) (hit (val_main_v22 (F := Ideal) x2))
          (fun u l' => x0 (ix2 u l') * scaleR (val_main_v2 (F := Ideal) x1) u) v l := by
  unfold val_main_v23
  rw [scatter_rows scatter_S50000x128_S1600000x1_S1600000x128_1_0_0_1 rfl rfl rfl rfl,
    val_main_v21_apply, val_main_cst_6_apply, Ideal.ofBits_def, Ideal.ofBits_zero_f32, zero_add]
  unfold Cert.Conv.aggr
  refine Finset.sum_congr rfl fun e _ => ?_
  unfold val_main_v20
  rw [gather_rows (by norm_num) gather_S50000x128_S1600000x1_S1600000x128_1_0_n_n_0_1_1128 rfl rfl rfl rfl rfl rfl rfl,
    rows1_apply]

/-- The aggregate scaled by the in-factor of its node. -/
theorem scaled1_apply (v : Fin 50000) (l : Fin 128) :
    val_main_v28 (F := Ideal) x0 x1 x2 (ix2 v l)
      = Cert.Conv.aggr (srcRow (N := 50000) (by norm_num) (val_main_v19 (F := Ideal) x1)) (hit (val_main_v22 (F := Ideal) x2))
          (fun u l' => x0 (ix2 u l') * scaleR (val_main_v2 (F := Ideal) x1) u) v l * scaleR (val_main_v6 (F := Ideal) x2) v := by
  rw [val_main_v28_apply, val_main_v27_apply, val_main_v26_apply, Ideal.mulf_def, agg1_apply,
    (show idx_main_v26 (idx_main_v27 (ix2 v l)) = ix1 v from funext fun a => Fin.ext (by match a with | ⟨0, _⟩ => rfl)), inScale_apply]

/-- The first layer's output at (v, k). -/
theorem layer1_apply (v : Fin 50000) (k : Fin 64) :
    val_main_v32 (F := Ideal) x0 x1 x2 x3 x4 (ix2 v k)
      = Cert.Conv.refLayer (srcRow (N := 50000) (by norm_num) (val_main_v19 (F := Ideal) x1)) (hit (val_main_v22 (F := Ideal) x2))
          (scaleR (val_main_v2 (F := Ideal) x1)) (scaleR (val_main_v6 (F := Ideal) x2))
          (fun u l => x0 (ix2 u l)) (fun l k => x3 (ix2 l k)) (fun k => x4 (ix1 k)) v k := by
  rw [val_main_v32_apply, val_main_v29_apply, val_main_v31_apply, val_main_v30_apply, Ideal.addf_def, refLayer_apply]
  refine congrArg₂ (· + ·) (Finset.sum_congr rfl fun l _ => ?_)
    (congrArg x4 (funext fun a => Fin.ext (by match a with | ⟨0, _⟩ => rfl)))
  rw [(show lidx_main_v29 (ix2 v k) l = ix2 v l from funext fun a => Fin.ext (by match a with | ⟨0, _⟩ => rfl | ⟨1, _⟩ => rfl)),
    (show ridx_main_v29 (ix2 v k) l = ix2 l k from funext fun a => Fin.ext (by match a with | ⟨0, _⟩ => rfl | ⟨1, _⟩ => rfl)), scaled1_apply]

/-- The rectified first layer at (v, k). -/
theorem hidden_apply (v : Fin 50000) (k : Fin 64) :
    val_main_v33 (F := Ideal) x0 x1 x2 x3 x4 (ix2 v k)
      = max (Cert.Conv.refLayer (srcRow (N := 50000) (by norm_num) (val_main_v19 (F := Ideal) x1)) (hit (val_main_v22 (F := Ideal) x2))
          (scaleR (val_main_v2 (F := Ideal) x1)) (scaleR (val_main_v6 (F := Ideal) x2))
          (fun u l => x0 (ix2 u l)) (fun l k => x3 (ix2 l k)) (fun k => x4 (ix1 k)) v k) 0 := by
  rw [val_main_v33_apply, val_main_call2_v0_apply, val_main_call2_cst_apply, Ideal.maximumf_def, Ideal.ofBits_def,
    Ideal.ofBits_zero_f32, layer1_apply]

/-! ## The second layer -/

/-- The second layer's scaled rows: the rectified first layer's row of node u times its out-factor. -/
theorem rows2_apply (u : Fin 50000) (k : Fin 64) :
    val_main_v47 (F := Ideal) x0 x1 x2 x3 x4 (ix2 u k)
      = max (Cert.Conv.refLayer (srcRow (N := 50000) (by norm_num) (val_main_v19 (F := Ideal) x1)) (hit (val_main_v22 (F := Ideal) x2))
          (scaleR (val_main_v2 (F := Ideal) x1)) (scaleR (val_main_v6 (F := Ideal) x2))
          (fun u l => x0 (ix2 u l)) (fun l k => x3 (ix2 l k)) (fun k => x4 (ix1 k)) u k) 0
          * scaleR (val_main_v2 (F := Ideal) x1) u := by
  rw [val_main_v47_apply, val_main_v46_apply, val_main_v45_apply, Ideal.mulf_def, hidden_apply,
    (show idx_main_v45 (idx_main_v46 (ix2 u k)) = ix1 u from funext fun a => Fin.ext (by match a with | ⟨0, _⟩ => rfl)), outScale_again, outScale_apply]

/-- The second layer's aggregate at (v, k). -/
theorem agg2_apply (v : Fin 50000) (k : Fin 64) :
    val_main_v57 (F := Ideal) x0 x1 x2 x3 x4 (ix2 v k)
      = Cert.Conv.aggr (srcRow (N := 50000) (by norm_num) (val_main_v19 (F := Ideal) x1)) (hit (val_main_v22 (F := Ideal) x2))
          (fun u k' => max (Cert.Conv.refLayer (srcRow (N := 50000) (by norm_num) (val_main_v19 (F := Ideal) x1)) (hit (val_main_v22 (F := Ideal) x2))
          (scaleR (val_main_v2 (F := Ideal) x1)) (scaleR (val_main_v6 (F := Ideal) x2))
          (fun u l => x0 (ix2 u l)) (fun l k => x3 (ix2 l k)) (fun k => x4 (ix1 k)) u k') 0
            * scaleR (val_main_v2 (F := Ideal) x1) u) v k := by
  unfold val_main_v57
  rw [scatter_rows scatter_S50000x64_S1600000x1_S1600000x64_1_0_0_1 rfl rfl rfl rfl,
    val_main_v55_apply, val_main_cst_16_apply, Ideal.ofBits_def, Ideal.ofBits_zero_f32, zero_add, dstCol_again]
  unfold Cert.Conv.aggr
  refine Finset.sum_congr rfl fun e _ => ?_
  unfold val_main_v54
  rw [gather_rows (by norm_num) gather_S50000x64_S1600000x1_S1600000x64_1_0_n_n_0_1_164 rfl rfl rfl rfl rfl rfl rfl,
    rows2_apply, gatherCol_again]

/-- The second aggregate scaled by the in-factor of its node. -/
theorem scaled2_apply (v : Fin 50000) (k : Fin 64) :
    val_main_v62 (F := Ideal) x0 x1 x2 x3 x4 (ix2 v k)
      = Cert.Conv.aggr (srcRow (N := 50000) (by norm_num) (val_main_v19 (F := Ideal) x1)) (hit (val_main_v22 (F := Ideal) x2))
          (fun u k' => max (Cert.Conv.refLayer (srcRow (N := 50000) (by norm_num) (val_main_v19 (F := Ideal) x1)) (hit (val_main_v22 (F := Ideal) x2))
          (scaleR (val_main_v2 (F := Ideal) x1)) (scaleR (val_main_v6 (F := Ideal) x2))
          (fun u l => x0 (ix2 u l)) (fun l k => x3 (ix2 l k)) (fun k => x4 (ix1 k)) u k') 0
            * scaleR (val_main_v2 (F := Ideal) x1) u) v k
          * scaleR (val_main_v6 (F := Ideal) x2) v := by
  rw [val_main_v62_apply, val_main_v61_apply, val_main_v60_apply, Ideal.mulf_def, agg2_apply,
    (show idx_main_v60 (idx_main_v61 (ix2 v k)) = ix1 v from funext fun a => Fin.ext (by match a with | ⟨0, _⟩ => rfl)), inScale_again, inScale_apply]

/-! ## The result -/

/-- THE REFERENCE'S RESULT AT (v, j) is the reference arrangement of the two-layer convolution over the graph read off
    the two index arrays, with the power -1/2 of the clipped degrees as the two factors. -/
theorem ref_value (v : Fin 50000) (j : Fin 16) :
    val_main_v66 (F := Ideal) x0 x1 x2 x3 x4 x5 x6 (ix2 v j)
      = Cert.Conv.refOut (srcRow (N := 50000) (by norm_num) (val_main_v19 (F := Ideal) x1)) (hit (val_main_v22 (F := Ideal) x2))
          (scaleR (val_main_v2 (F := Ideal) x1)) (scaleR (val_main_v6 (F := Ideal) x2))
          (fun u l => x0 (ix2 u l)) (fun l k => x3 (ix2 l k)) (fun k => x4 (ix1 k)) (fun k j => x5 (ix2 k j)) (fun j => x6 (ix1 j)) v j := by
  rw [val_main_v66_apply, val_main_v63_apply, val_main_v65_apply, val_main_v64_apply, Ideal.addf_def, refOut_apply]
  refine congrArg₂ (· + ·) (Finset.sum_congr rfl fun k _ => ?_)
    (congrArg x6 (funext fun a => Fin.ext (by match a with | ⟨0, _⟩ => rfl)))
  rw [(show lidx_main_v63 (ix2 v j) k = ix2 v k from funext fun a => Fin.ext (by match a with | ⟨0, _⟩ => rfl | ⟨1, _⟩ => rfl)),
    (show ridx_main_v63 (ix2 v j) k = ix2 k j from funext fun a => Fin.ext (by match a with | ⟨0, _⟩ => rfl | ⟨1, _⟩ => rfl)), scaled2_apply]

end Cert.ReferenceIdeal.RefValue

end
-- ==== Proof.RefRun.lean ====
/-
  The reference program's run, with its result named by the stage functions.

  Every weakly fair execution of the reference terminates with the result buffer holding the last stage's value of the
  seven argument arrays as they were at launch, and with the argument arrays unchanged.
-/
import proofs.«102259_j2284922601619_2_alg».proof.Proof.Gen.ReferenceIdeal.Read

noncomputable section

namespace Cert.ReferenceIdeal.RefValue

open Cert.ReferenceIdeal Cert.ReferenceIdeal.Gen Idealize.ShloMosaic Idealize.ShloMosaic.TcCoe Idealize.SL.Sem
  Idealize.ShloMosaic.StableHlo

/-- THE REFERENCE'S RUN: from any memory with zero counters, on every device the result buffer ends at the last stage
    of the arguments' launch contents, and the seven arguments are unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v66)
          = Read.val_main_v66 (F := Ideal) (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (Read.val_main_v66_eq m c), (h c).2⟩)
    (Cert.ReferenceIdeal.Value.run (F := Ideal) m ρ)

end Cert.ReferenceIdeal.RefValue

end
-- ==== Proof.ConvLaw.lean ====
/-
  The two arrangements of the two-layer graph convolution agree on real-valued data.

  The one fact, used once per layer: a matrix product commutes with "gather along the edges, sum per destination,
  scale the row by a real factor".  Over the extended reals the distributive law fails at the infinities, so the
  identity is proved over the reals and carried over to families of real entries.  Layer one then says that the
  kernel's hidden rows are the reference's rectified first layer with the second out-factor applied; layer two is
  the same exchange applied to those hidden rows.
-/
import Mathlib.Algebra.BigOperators.Ring.Finset
import Mathlib.Tactic.Ring
import proofs.«102259_j2284922601619_2_alg».proof.Proof.Conv

noncomputable section

namespace Cert.Conv

open Cert.RealValued

variable {ν E : Type} [Fintype ν] [Fintype E] {a b c : ℕ}

/-- Over the reals: summing, over the edges that deliver to v, the products (row · w), and scaling by r, is the
    product with w of the scaled sums of the rows. -/
theorem real_aggr_lin_mul (s : E → ν) (hit : E → ν → Prop) [∀ e v, Decidable (hit e v)] (x : ν → Fin a → ℝ)
    (w : Fin a → Fin b → ℝ) (r : ℝ) (v : ν) (k : Fin b) :
    (∑ e : E, if hit e v then (∑ l : Fin a, x (s e) l * w l k) else 0) * r
      = ∑ l : Fin a, ((∑ e : E, if hit e v then x (s e) l else 0) * r) * w l k := by
  simp only [Finset.sum_mul]
  rw [Finset.sum_comm]
  refine Finset.sum_congr rfl fun e _ => ?_
  by_cases h : hit e v
  · simp only [h, if_true]
    rw [Finset.sum_mul]
    exact Finset.sum_congr rfl fun l _ => by ring
  · simp [h]

/-- The coercion of a case distinction between a real and zero. -/
theorem coe_ite_zero (p : Prop) [Decidable p] (t : ℝ) :
    ((if p then t else 0 : ℝ) : EReal) = if p then (t : EReal) else 0 := by
  split <;> simp

/-- A row-by-matrix product of real entries is real. -/
theorem lin_isReal (x : ν → Fin a → EReal) (w : Fin a → Fin b → EReal) (hx : ∀ u l, IsReal (x u l))
    (hw : ∀ l k, IsReal (w l k)) (u : ν) (k : Fin b) : IsReal (lin x w u k) := by
  unfold lin
  exact isReal_sum _ _ fun l _ => (hx u l).mul (hw l k)

/-- Gathering and summing real entries gives a real entry. -/
theorem aggr_isReal (s : E → ν) (hit : E → ν → Prop) [∀ e v, Decidable (hit e v)] (x : ν → Fin a → EReal)
    (hx : ∀ u l, IsReal (x u l)) (v : ν) (k : Fin a) : IsReal (aggr s hit x v k) := by
  unfold aggr
  exact isReal_sum _ _ fun e _ => (hx (s e) k).ite isReal_zero

/-- THE EXCHANGE, over the extended reals, for real entries: (gather and sum the rows of x · w) · r is the product
    with w of (gather and sum the rows of x) · r. -/
theorem aggr_lin_mul (s : E → ν) (hit : E → ν → Prop) [∀ e v, Decidable (hit e v)] (x : ν → Fin a → EReal)
    (w : Fin a → Fin b → EReal) (r : ν → EReal) (hx : ∀ u l, IsReal (x u l)) (hw : ∀ l k, IsReal (w l k))
    (hr : ∀ v, IsReal (r v)) (v : ν) (k : Fin b) :
    aggr s hit (lin x w) v k * r v = lin (fun v' l => aggr s hit x v' l * r v') w v k := by
  choose x' hx' using hx
  choose w' hw' using hw
  choose r' hr' using hr
  obtain rfl : x = fun u l => ((x' u l : ℝ) : EReal) := funext fun u => funext fun l => hx' u l
  obtain rfl : w = fun l k => ((w' l k : ℝ) : EReal) := funext fun l => funext fun k => hw' l k
  obtain rfl : r = fun v => ((r' v : ℝ) : EReal) := funext fun v => hr' v
  have h := congrArg (fun t : ℝ => (t : EReal)) (real_aggr_lin_mul s hit x' w' (r' v) v k)
  simp only [EReal.coe_mul, coe_sum, coe_ite_zero] at h
  simp only [aggr, lin]
  exact h

/-- The kernel's hidden rows are real. -/
theorem kerHidden_isReal (s : E → ν) (hit : E → ν → Prop) [∀ e v, Decidable (hit e v)] (ro ri : ν → EReal)
    (f : ν → Fin a → EReal) (w1 : Fin a → Fin b → EReal) (b1 : Fin b → EReal) (hro : ∀ v, IsReal (ro v))
    (hri : ∀ v, IsReal (ri v)) (hf : ∀ u l, IsReal (f u l)) (hw1 : ∀ l k, IsReal (w1 l k))
    (hb1 : ∀ k, IsReal (b1 k)) (u : ν) (k : Fin b) : IsReal (kerHidden s hit ro ri f w1 b1 u k) := by
  unfold kerHidden kerRows1
  exact ((((aggr_isReal s hit _ (lin_isReal _ _ (fun u l => (hf u l).mul (hro u)) hw1) u k).mul (hri u)).add
    (hb1 k)).max isReal_zero).mul (hro u)

/-- LAYER ONE: the kernel's hidden rows are the reference's first layer, rectified, times the out-factor. -/
theorem kerHidden_eq (s : E → ν) (hit : E → ν → Prop) [∀ e v, Decidable (hit e v)] (ro ri : ν → EReal)
    (f : ν → Fin a → EReal) (w1 : Fin a → Fin b → EReal) (b1 : Fin b → EReal) (hro : ∀ v, IsReal (ro v))
    (hri : ∀ v, IsReal (ri v)) (hf : ∀ u l, IsReal (f u l)) (hw1 : ∀ l k, IsReal (w1 l k)) :
    kerHidden s hit ro ri f w1 b1 = fun v k => max (refLayer s hit ro ri f w1 b1 v k) 0 * ro v := by
  funext v k
  unfold kerHidden kerRows1 refLayer
  rw [aggr_lin_mul s hit (fun u l => f u l * ro u) w1 ri (fun u l => (hf u l).mul (hro u)) hw1 hri v k]

/-- THE LAW: on real-valued data the kernel's arrangement and the reference's arrangement give the same output. -/
theorem kernelOut_eq_refOut (s : E → ν) (hit : E → ν → Prop) [∀ e v, Decidable (hit e v)] (ro ri : ν → EReal)
    (f : ν → Fin a → EReal) (w1 : Fin a → Fin b → EReal) (b1 : Fin b → EReal) (w2 : Fin b → Fin c → EReal)
    (b2 : Fin c → EReal) (hro : ∀ v, IsReal (ro v)) (hri : ∀ v, IsReal (ri v)) (hf : ∀ u l, IsReal (f u l))
    (hw1 : ∀ l k, IsReal (w1 l k)) (hb1 : ∀ k, IsReal (b1 k)) (hw2 : ∀ k j, IsReal (w2 k j))
    (hb2 : ∀ j, IsReal (b2 j)) :
    kernelOut s hit ro ri f w1 b1 w2 b2 = refOut s hit ro ri f w1 b1 w2 b2 := by
  have _hb2 := hb2
  funext v j
  unfold kernelOut kerRows2
  rw [aggr_lin_mul s hit (kerHidden s hit ro ri f w1 b1) w2 ri
    (kerHidden_isReal s hit ro ri f w1 b1 hro hri hf hw1 hb1) hw2 hri v j]
  rw [kerHidden_eq s hit ro ri f w1 b1 hro hri hf hw1]
  rfl

end Cert.Conv

end
-- ==== Proof.Finite.lean ====
/-
  The precondition "every float input is finite", read back entry by entry.

  The precondition is the conjunction of five tests, one per float array: every entry x of the array has |x| < +∞.
  Over the extended reals |x| is max x (-x), which is below +∞ exactly when x is neither infinity, that is, when x
  is a real number.  Each test is a reduction by "and" over all axes starting from 1, so its value 1 says that the
  comparison holds at every index.  The two integer arrays are not constrained.
-/
import proofs.«102259_j2284922601619_2_alg».proof.Defs
import Idealize.ShloMosaic.Lib.ReduceAll
import proofs.«102259_j2284922601619_2_alg».proof.Proof.LibRealValued

noncomputable section

namespace Cert.Finite

open Idealize.ShloMosaic Cert.RealValued

/-- The shape of rank zero: one entry. -/
abbrev S0 : Shape := ⟨0, ![]⟩

/-- The shape of rank zero has exactly one index. -/
instance : Subsingleton S0.Idx := ⟨fun _ _ => funext fun d => d.elim0⟩

/-- The f32 pattern 0x7F800000 denotes +∞. -/
theorem ofBits_inf : Ideal.ofBits .f32 0x7F800000#32 = ⊤ := by simp [Ideal.ofBits, Ideal.ieee]

/-- One entry: when the test |x| < +∞ gives 1, x is a real number. -/
theorem isReal_of_abs_lt_inf (x : Ideal .f32)
    (h : FloatOps.cmpf .olt (FloatOps.hostAbsf x) (FloatOps.ofBits (F := Ideal) .f32 0x7F800000#32) = 1#1) :
    IsReal x := by
  have h' : Ideal.cmp .olt (max (x : EReal) (-(x : EReal))) (Ideal.ofBits .f32 0x7F800000#32) = 1#1 := h
  rw [ofBits_inf] at h'
  unfold Ideal.cmp at h'
  induction x using EReal.rec with
  | bot => simp at h'
  | coe r => exact ⟨r, rfl⟩
  | top => simp at h'

/-- One array of any shape: when "all entries have |x| < +∞" gives 1, every entry of the array is real. -/
theorem array_real {s : Shape} {axes : List (Fin s.rank)} (x : FVec Ideal s .f32)
    (hb : S0.BroadcastsInDim s (![] : Fin 0 → Fin s.rank)) (hr : s.ReducesTo axes S0) (hu : 0 < S0.numel)
    (j : S0.Idx)
    (h : Host.reduce IntOp.andi (cmpf .olt (Host.absf x) (broadcastInDim s ![] hb (constant S0 .f32 0x7F800000#32)))
      (constantI S0 1 1#1) hr hu j = 1#1) (i : s.Idx) : IsReal (x i) :=
  isReal_of_abs_lt_inf (x i) (Host.reduce_andi_all _ _ hr hu j h i)

/-- THE PRECONDITION DECODED: under it the features, both weight matrices and both biases are real at every index. -/
theorem all_real [Cert.Pre_finite_inputs.Facts] (x0 : FVec Ideal ⟨2, ![50000, 128]⟩ .f32)
    (x1 x2 : IVec ⟨1, ![1600000]⟩ 32) (x3 : FVec Ideal ⟨2, ![128, 64]⟩ .f32) (x4 : FVec Ideal ⟨1, ![64]⟩ .f32)
    (x5 : FVec Ideal ⟨2, ![64, 16]⟩ .f32) (x6 : FVec Ideal ⟨1, ![16]⟩ .f32)
    (h : Cert.Pre_finite_inputs.fn (F := Ideal) x0 x1 x2 x3 x4 x5 x6 = (fun _ => 1#1)) :
    (∀ i, IsReal (x0 i)) ∧ (∀ i, IsReal (x3 i)) ∧ (∀ i, IsReal (x4 i)) ∧ (∀ i, IsReal (x5 i))
      ∧ (∀ i, IsReal (x6 i)) := by
  have e := congrFun h (fun d => d.elim0)
  dsimp only [Cert.Pre_finite_inputs.fn, Cert.Pre_finite_inputs.fn_part1] at e
  simp only [andi, IntOp.andi_eq_one] at e
  obtain ⟨⟨⟨⟨h0, h3⟩, h4⟩, h5⟩, h6⟩ := e
  exact ⟨array_real x0 _ _ _ _ h0, array_real x3 _ _ _ _ h3, array_real x4 _ _ _ _ h4, array_real x5 _ _ _ _ h5,
    array_real x6 _ _ _ _ h6⟩

end Cert.Finite

end
-- ==== Proof.Assembly.lean ====
/-
  The certificate's claims assembled: the idealized kernel and the idealized reference end with equal results.

  The idealized kernel's run ends with its result buffer at the last boundary's contents; the reference's run ends with
  its result buffer at the last stage of its arguments.  The reference's last stage is, entry by entry, the reference
  arrangement of the two-layer graph convolution over the graph read off the two index arrays, with the power -1/2 of
  the clipped degrees as normalising factors.  The kernel's value theorem (taken here as a hypothesis) says that the
  kernel's last boundary is, entry by entry, the kernel's arrangement of the same convolution over the same graph, with
  the inverse square root of the clipped degrees as factors.  The two spellings of the factors agree and are real
  numbers; under the precondition every entry of the five float arrays is a real number; and on real-valued data the
  two arrangements agree.  The index columns of the two programs are the same arrays: both programs carry a word array
  as a column, and wrap a negative source word once, by the same operations.
-/
import proofs.«102259_j2284922601619_2_alg».proof.Defs
import proofs.«102259_j2284922601619_2_alg».proof.Proof.Gen.Kernel.Frame
import proofs.«102259_j2284922601619_2_alg».proof.Proof.Gen.KernelIdeal.Frame
import proofs.«102259_j2284922601619_2_alg».proof.Proof.KRun
import proofs.«102259_j2284922601619_2_alg».proof.Proof.RefValue
import proofs.«102259_j2284922601619_2_alg».proof.Proof.RefRun
import proofs.«102259_j2284922601619_2_alg».proof.Proof.ConvLaw
import proofs.«102259_j2284922601619_2_alg».proof.Proof.Finite
import proofs.«102259_j2284922601619_2_alg».proof.Proof.GraphRead

noncomputable section

namespace Cert.Proof.Assembly

open Idealize.ShloMosaic Idealize.ShloMosaic.TcCoe Idealize.SL.Sem Idealize.ShloMosaic.ValueIdx Cert.Graph

/-! ## The kernel's index columns and its value theorem's statement -/

section KernelSide

/-- A word array carried as a column, by the kernel program's own operation. -/
abbrev colK (x : IVec Cert.KernelIdeal.S1600000 32) : IVec Cert.KernelIdeal.S1600000x1 32 :=
  broadcastInDim Cert.KernelIdeal.S1600000x1 ![0] Cert.KernelIdeal.Facts₀.bcast_S1600000_S1600000x1_0 x

/-- The kernel's gather column: every negative source word wrapped once by the number of nodes, then carried as a
    column. -/
abbrev gatherColK (x : IVec Cert.KernelIdeal.S1600000 32) : IVec Cert.KernelIdeal.S1600000x1 32 :=
  broadcastInDim Cert.KernelIdeal.S1600000x1 ![0] Cert.KernelIdeal.Facts₀.bcast_S1600000_S1600000x1_0
    (select (cmpi .slt x (broadcastInDim Cert.KernelIdeal.S1600000 ![] Cert.KernelIdeal.Facts₀.bcast_S_S1600000 (constantI Cert.KernelIdeal.S_ 32 0#32)))
      (addi x (broadcastInDim Cert.KernelIdeal.S1600000 ![] Cert.KernelIdeal.Facts₀.bcast_S_S1600000 (constantI Cert.KernelIdeal.S_ 32 50000#32))) x)

/-- THE KERNEL'S VALUE THEOREM, AS A STATEMENT: on every device the last boundary's contents of the result buffer are,
    entry by entry, the kernel's arrangement of the two-layer graph convolution over the graph read off the two index
    arrays as launched, with the inverse square root of the clipped degrees as the two factors. -/
def KV : Prop :=
  ∀ (m : (ℓ : Loc Cert.KernelIdeal.nD Cert.KernelIdeal.τ Cert.KernelIdeal.sig) → Buf (Elt Ideal) ℓ) (ρ : Dev Cert.KernelIdeal.nD → PrngReg)
    (c : Dev Cert.KernelIdeal.nD) (v : Fin 50000) (j : Fin 16),
    (Cert.KernelIdeal.Gen.W7 m ρ c (Proc.devRef .tc Cert.KernelIdeal.main_v0)) (ix2 v j)
      = Cert.Conv.kernelOut (srcRow (N := 50000) (by norm_num) (gatherColK (m ((c.tc : Thread Cert.KernelIdeal.nD Cert.KernelIdeal.τ).loc Cert.KernelIdeal.main_arg1))))
          (hit (colK (m ((c.tc : Thread Cert.KernelIdeal.nD Cert.KernelIdeal.τ).loc Cert.KernelIdeal.main_arg2))))
          (scaleK (colK (m ((c.tc : Thread Cert.KernelIdeal.nD Cert.KernelIdeal.τ).loc Cert.KernelIdeal.main_arg1))))
          (scaleK (colK (m ((c.tc : Thread Cert.KernelIdeal.nD Cert.KernelIdeal.τ).loc Cert.KernelIdeal.main_arg2))))
          (fun u l => (m ((c.tc : Thread Cert.KernelIdeal.nD Cert.KernelIdeal.τ).loc Cert.KernelIdeal.main_arg0)) (ix2 u l))
          (fun l k => (m ((c.tc : Thread Cert.KernelIdeal.nD Cert.KernelIdeal.τ).loc Cert.KernelIdeal.main_arg3)) (ix2 l k))
          (fun k => (m ((c.tc : Thread Cert.KernelIdeal.nD Cert.KernelIdeal.τ).loc Cert.KernelIdeal.main_arg4)) (ix1 k))
          (fun k j => (m ((c.tc : Thread Cert.KernelIdeal.nD Cert.KernelIdeal.τ).loc Cert.KernelIdeal.main_arg5)) (ix2 k j))
          (fun j => (m ((c.tc : Thread Cert.KernelIdeal.nD Cert.KernelIdeal.τ).loc Cert.KernelIdeal.main_arg6)) (ix1 j)) v j

end KernelSide

/-! ## The two results are equal -/

/-- The reference's last stage of the kernel's launch arguments is the kernel's last boundary at the result. -/
theorem result_eq [hKernelIdeal : Cert.KernelIdeal.Facts] [hReferenceIdeal : Cert.ReferenceIdeal.Facts]
    [hPre : Cert.Pre_finite_inputs.Facts] (hk : KV)
    (m : (ℓ : Loc Cert.KernelIdeal.nD Cert.KernelIdeal.τ Cert.KernelIdeal.sig) → Buf (Elt Ideal) ℓ) (ρ : Dev Cert.KernelIdeal.nD → PrngReg) (c : Dev Cert.KernelIdeal.nD)
    (hfin : Cert.Pre_finite_inputs.fn (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) = (fun _ => 1#1)) :
    Cert.ReferenceIdeal.Read.val_main_v66 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      = Cert.KernelIdeal.Gen.W7 m ρ c (Proc.devRef .tc Cert.KernelIdeal.main_v0) := by
  obtain ⟨h0, h3, h4, h5, h6⟩ := Cert.Finite.all_real _ _ _ _ _ _ _ hfin
  refine funext fun i => ?_
  obtain ⟨v, j, rfl⟩ : ∃ v j, i = ix2 v j := ⟨i 0, i 1, eq_ix2 i⟩
  refine (Cert.ReferenceIdeal.RefValue.ref_value _ _ _ _ _ _ _ v j).trans (Eq.trans ?_ (hk m ρ c v j).symm)
  have hcol1 : Cert.ReferenceIdeal.Read.val_main_v2 (F := Ideal) (m ((c.tc : Thread Cert.KernelIdeal.nD Cert.KernelIdeal.τ).loc Cert.KernelIdeal.main_arg1)) = colK (m ((c.tc : Thread Cert.KernelIdeal.nD Cert.KernelIdeal.τ).loc Cert.KernelIdeal.main_arg1)) := rfl
  have hcol2 : Cert.ReferenceIdeal.Read.val_main_v6 (F := Ideal) (m ((c.tc : Thread Cert.KernelIdeal.nD Cert.KernelIdeal.τ).loc Cert.KernelIdeal.main_arg2)) = colK (m ((c.tc : Thread Cert.KernelIdeal.nD Cert.KernelIdeal.τ).loc Cert.KernelIdeal.main_arg2)) := rfl
  have hcol2' : Cert.ReferenceIdeal.Read.val_main_v22 (F := Ideal) (m ((c.tc : Thread Cert.KernelIdeal.nD Cert.KernelIdeal.τ).loc Cert.KernelIdeal.main_arg2)) = colK (m ((c.tc : Thread Cert.KernelIdeal.nD Cert.KernelIdeal.τ).loc Cert.KernelIdeal.main_arg2)) := rfl
  have hgat : Cert.ReferenceIdeal.Read.val_main_v19 (F := Ideal) (m ((c.tc : Thread Cert.KernelIdeal.nD Cert.KernelIdeal.τ).loc Cert.KernelIdeal.main_arg1)) = gatherColK (m ((c.tc : Thread Cert.KernelIdeal.nD Cert.KernelIdeal.τ).loc Cert.KernelIdeal.main_arg1)) := rfl
  rw [hcol1, hcol2, hcol2', hgat]
  have hs1 : scaleR (colK (m ((c.tc : Thread Cert.KernelIdeal.nD Cert.KernelIdeal.τ).loc Cert.KernelIdeal.main_arg1))) = scaleK (N := 50000) (colK (m ((c.tc : Thread Cert.KernelIdeal.nD Cert.KernelIdeal.τ).loc Cert.KernelIdeal.main_arg1))) :=
    funext fun u => (scaleK_eq_scaleR _ u).symm
  have hs2 : scaleR (colK (m ((c.tc : Thread Cert.KernelIdeal.nD Cert.KernelIdeal.τ).loc Cert.KernelIdeal.main_arg2))) = scaleK (N := 50000) (colK (m ((c.tc : Thread Cert.KernelIdeal.nD Cert.KernelIdeal.τ).loc Cert.KernelIdeal.main_arg2))) :=
    funext fun u => (scaleK_eq_scaleR _ u).symm
  rw [hs1, hs2]
  exact (congrFun (congrFun (Cert.Conv.kernelOut_eq_refOut _ _ _ _ _ _ _ _ _ (fun u => scaleK_isReal _ u)
    (fun u => scaleK_isReal _ u) (fun u l => h0 (ix2 u l)) (fun l k => h3 (ix2 l k)) (fun k => h4 (ix1 k))
    (fun k j => h5 (ix2 k j)) (fun j => h6 (ix1 j))) v) j).symm

/-! ## The claims -/

/-- THE FIFTH CLAIM, from the kernel's value theorem: from memories that agree on the arguments both programs run, end
    with equal results and leave their arguments unchanged. -/
theorem algebraic_of [hKernelIdeal : Cert.KernelIdeal.Facts] [hReferenceIdeal : Cert.ReferenceIdeal.Facts]
    [hPre : Cert.Pre_finite_inputs.Facts] (hk : KV) : Cert.algebraic_KernelIdeal_ReferenceIdeal := by
  intro m ρ m' ρ' hpre hagree
  refine ⟨fun c => Cert.KernelIdeal.Gen.W7 m ρ c (Proc.devRef .tc Cert.KernelIdeal.main_v0), Cert.KernelIdeal.KRun.run (F := Ideal) m ρ, ?_⟩
  refine (θ_run Cert.ReferenceIdeal.defs _ _).mono (fun _ h c => ⟨(h c).1.trans ?_, (h c).2⟩)
    (Cert.ReferenceIdeal.RefValue.ref_run m' ρ')
  obtain ⟨e0, e1, e2, e3, e4, e5, e6⟩ := hagree c
  rw [e0, e1, e2, e3, e4, e5, e6]
  exact result_eq hk m ρ c (hpre c)

/-- The kernel as printed runs and leaves its arguments unchanged. -/
theorem frame_p [hKernel : Cert.Kernel.Facts] [hPre : Cert.Pre_finite_inputs.Facts] : Cert.frame_Kernel :=
  fun m ρ _ => Cert.Kernel.Gen.frame m ρ

/-- The idealized kernel runs and leaves its arguments unchanged. -/
theorem frame_pi [hKernelIdeal : Cert.KernelIdeal.Facts] [hPre : Cert.Pre_finite_inputs.Facts] : Cert.frame_KernelIdeal :=
  fun m ρ _ => Cert.KernelIdeal.Gen.frame m ρ

/-- The idealized reference runs and leaves its arguments unchanged. -/
theorem frame_ri [hReferenceIdeal : Cert.ReferenceIdeal.Facts] [hPre : Cert.Pre_finite_inputs.Facts] :
    Cert.frame_ReferenceIdeal :=
  fun m ρ _ => (θ_run Cert.ReferenceIdeal.defs _ _).mono (fun _ h c => (h c).2)
    (Cert.ReferenceIdeal.RefValue.ref_run m ρ)

/-- The idealization rewrote no operation. -/
theorem preserves : Cert.preserves_Kernel_KernelIdeal := trivial

end Cert.Proof.Assembly

end
-- ==== Proof.LibColumn.lean ====
/-
  Two layout operations read at an index, for a column kept as a trailing unit axis (a row statistic `[a]` carried as
  `[a, 1]` and spread over the `b` entries of each row), in the style of the library's `shapeCast_a_1a_apply` and
  `broadcastTo_1b_ab_apply`.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Region0.lean ====
/-
  The first tiled region: every node's feature row scaled by the node's out-factor, times the first weight matrix.

  The region walks the 50000 rows in 25 blocks of 2000.  At a block the body reads the block's 2000 feature rows,
  the block's 2000 out-degrees (a column) and the whole 128 x 64 weight matrix, and stores, for row p and column q,
  the sum over l of (feature (p, l) · rsqrt (max (degree p) 1)) · weight (l, q).  Row p of block t is row
  2000 t + p of the arrays, the blocks tile the rows, so after the region the output array holds that sum at every
  (row, column), as one function of the three arrays the region found.
-/
import proofs.«102259_j2284922601619_2_alg».proof.Proof.Gen.KernelIdeal.Frame
import proofs.«102259_j2284922601619_2_alg».proof.Proof.LibProduct
import proofs.«102259_j2284922601619_2_alg».proof.Proof.LibColumn
import Idealize.ShloMosaic.Lib.Pipeline.Value
import Idealize.ShloMosaic.Lib.ValueIdx

set_option maxRecDepth 16384

noncomputable section

namespace Cert.KernelIdeal.Region0

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-- The scaled-and-multiplied row entry: ∑ l, (feature (r, l) · rsqrt (max (degree r) 1)) · weight (l, q). -/
def entry (feat : S50000x128.Idx → EReal) (dcol : S50000x1.Idx → EReal) (w : S128x64.Idx → EReal) (r : Fin 50000) (q : Fin 64) : EReal :=
  ∑ l : Fin 128, (feat (ix2 r l) * Ideal.rsqrt (max (dcol (ix2 r 0)) (Ideal.ofBits .f32 0x3F800000#32))) * w (ix2 l q)

/-- The region's output array as one function of the arrays it reads. -/
def rows (feat : S50000x128.Idx → EReal) (dcol : S50000x1.Idx → EReal) (w : S128x64.Idx → EReal) : S50000x64.Idx → EReal :=
  fun i => entry feat dcol w (i 0) (i 1)

/-- The body's stored value at row p, column q of a block, from the block's loads. -/
theorem pay_apply (v0 : Vec Ideal S2000x1 .f32) (v4 : Vec Ideal S2000x128 .f32) (v9 : Vec Ideal S128x64 .f32) (p : Fin 2000) (q : Fin 64) :
    k0_pay1 v0 v4 v9 (ix2 p q)
      = ∑ l : Fin 128, (v4 (ix2 p l) * Ideal.rsqrt (max (v0 (ix2 p 0)) (Ideal.ofBits .f32 0x3F800000#32))) * v9 (ix2 l q) := by
  unfold k0_pay1
  refine (Cert.LibProduct.matmul_zero_apply dot_S2000x128_S128x64_S2000x64_1_0_0_1_n_n rfl rfl rfl rfl rfl rfl none _ _ p q).trans ?_
  refine Finset.sum_congr rfl fun l _ => ?_
  show (v4 (ix2 p l) * broadcastTo S2000x128 (rsqrt (F := Ideal) (maximumf (F := Ideal) (shapeCast S2000x1 v0 shapeCasts_S2000x1_S2000x1) (broadcast S2000x1 (Scalar.ofBits (F := Ideal) .f32 0x3F800000#32)))) broadcasts_S2000x1_S2000x128 (ix2 p l)) * v9 (ix2 l q) = _
  rw [Cert.LibColumn.broadcastTo_a1_ab_apply, shapeCast_self]
  rfl

theorem hz : (![0, 0] : Fin 2 → Nat) = fun _ => 0 := funext fun a => by fin_cases a <;> rfl

/-- The printed index maps over the grid: the three row-blocked windows sit at block row t, the weight's one block
    at the origin; there are 25 points. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 ∧ t.val < 25 :=
  (by decide +kernel : ∀ t : Fin grid0.N, _)

/-- Every one of the 25 block rows is some point's. -/
theorem idx_onto : ∀ q0 : Fin 25, ∃ t : Fin cfg0.N, t.val = q0.val :=
  (by decide +kernel : ∀ q0 : Fin 25, ∃ t : Fin grid0.N, t.val = q0.val)

/-- Row p, column q of block t, computed from the blocks of three arrays at point t, is the whole-array function
    at the block's place in the output array: a block's row p is the arrays' row 2000 t + p. -/
theorem block_entry (A : S50000x128.Idx → EReal) (D : S50000x1.Idx → EReal) (W : S128x64.Idx → EReal)
    (t : Fin cfg0.N) (p : Fin 2000) (q : Fin 64) :
    ∑ l : Fin 128, (A (((cfg0.win 0).blk t).view.emb (ix2 p l)) * Ideal.rsqrt (max (D (((cfg0.win 1).blk t).view.emb (ix2 p (0 : Fin 1)))) (Ideal.ofBits .f32 0x3F800000#32))) * W (((cfg0.win 2).blk t).view.emb (ix2 l q))
      = rows A D W (((cfg0.win 3).blk t).view.emb (ix2 p q)) := by
  obtain ⟨e00, e01, e10, e11, e20, e21, e30, e31, ht⟩ := idx_facts t
  have hp := p.isLt
  have hq := q.isLt
  have hr : t.val * 2000 + p.val < 50000 := by omega
  have h3 : ((cfg0.win 3).blk t).view.emb (ix2 p q) = ix2 (⟨t.val * 2000 + p.val, hr⟩ : Fin 50000) q := by
    funext a; apply Fin.ext
    match a with
    | ⟨0, _⟩ => show win0_3.index t (0 : Fin 2) * 2000 + 1 * p.val = t.val * 2000 + p.val; omega
    | ⟨1, _⟩ => show win0_3.index t (1 : Fin 2) * 64 + 1 * q.val = q.val; omega
  have h0 : ∀ l : Fin 128, ((cfg0.win 0).blk t).view.emb (ix2 p l) = ix2 (⟨t.val * 2000 + p.val, hr⟩ : Fin 50000) l := by
    intro l; funext a; apply Fin.ext
    match a with
    | ⟨0, _⟩ => show win0_0.index t (0 : Fin 2) * 2000 + 1 * p.val = t.val * 2000 + p.val; omega
    | ⟨1, _⟩ => show win0_0.index t (1 : Fin 2) * 128 + 1 * l.val = l.val; omega
  have h1 : ((cfg0.win 1).blk t).view.emb (ix2 p (0 : Fin 1)) = ix2 (⟨t.val * 2000 + p.val, hr⟩ : Fin 50000) (0 : Fin 1) := by
    funext a; apply Fin.ext
    match a with
    | ⟨0, _⟩ => show win0_1.index t (0 : Fin 2) * 2000 + 1 * p.val = t.val * 2000 + p.val; omega
    | ⟨1, _⟩ => show win0_1.index t (1 : Fin 2) * 1 + 1 * 0 = 0; omega
  have h2 : ∀ l : Fin 128, ((cfg0.win 2).blk t).view.emb (ix2 l q) = ix2 l q := by
    intro l; funext a; apply Fin.ext
    match a with
    | ⟨0, _⟩ => show win0_2.index t (0 : Fin 2) * 128 + 1 * l.val = l.val; omega
    | ⟨1, _⟩ => show win0_2.index t (1 : Fin 2) * 64 + 1 * q.val = q.val; omega
  rw [h3, h1]
  show _ = entry A D W ⟨t.val * 2000 + p.val, hr⟩ q
  unfold entry
  refine Finset.sum_congr rfl fun l _ => ?_
  rw [h0 l, h2 l]

section
variable (V : (c : Dev nD) → (b : Ref sig .tc) → Buf (Elt Ideal) ((c : Thread nD τ).loc b))

/-- What point t writes back is block t of `rows` of the arrays the region finds. -/
theorem flushed (c : Dev nD) (t : Fin cfg0.N) :
    (dat0 V c).flushed 3 t = ((cfg0.win 3).blk t).view.read (Elt Ideal) (rows (V c main_arg0) (V c main_call0_v4) (V c main_arg3)) := by
  show (cfg0.win 3).cut (grid0.coords t) ((dat0 V c).after 3 t) = _
  rw [after0_3]
  unfold out0_3
  rw [View.canon_unit_zero hz]
  simp only [View.ld_unit_zero (S := S2000x1) hz, View.ld_unit_zero (S := S2000x128) hz, View.ld_unit_zero (S := S128x64) hz]
  funext j
  obtain ⟨p, q, rfl⟩ : ∃ (p : Fin 2000) (q : Fin 64), j = ix2 p q := ⟨j 0, j 1, eq_ix2 j⟩
  refine (pay_apply (iblk0 V c 1 t) (iblk0 V c 0 t) (iblk0 V c 2 t) p q).trans ?_
  exact block_entry (V c main_arg0) (V c main_call0_v4) (V c main_arg3) t p q

/-- An index of the output array is in point t's block iff each coordinate is in the block's range on its axis. -/
theorem mem_blk (t : Fin cfg0.N) (i : S50000x64.Idx) :
    i ∈ ((cfg0.win 3).blk t).view.set ↔ ∀ a : Fin 2, win0_3.index t a * S2000x64.size a ≤ (i a).val ∧ (i a).val < win0_3.index t a * S2000x64.size a + S2000x64.size a := by
  show i ∈ ((View.whole main_call0_v11).slice (win0_3.rect t)).set ↔ _
  rw [View.set_slice_whole, Rect.mem_set_unit]
  exact Iff.rfl

/-- The 25 blocks of 2000 rows cover the 50000 rows: row r is in block r / 2000. -/
theorem cover (i : S50000x64.Idx) : ∃ t : Fin cfg0.N, (cfg0.win 3).flush t = true ∧ i ∈ ((cfg0.win 3).blk t).view.set := by
  have hi0 : (i 0).val < 50000 := (i 0).isLt
  have hi1 : (i 1).val < 64 := (i 1).isLt
  obtain ⟨t, ht⟩ := idx_onto ⟨(i 0).val / 2000, by omega⟩
  have ht' : t.val = (i 0).val / 2000 := ht
  obtain ⟨-, -, -, -, -, -, e30, e31, -⟩ := idx_facts t
  refine ⟨t, flush0_3 t, ?_⟩
  rw [mem_blk]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 64 ≤ (i 1).val ∧ (i 1).val < win0_3.index t (1 : Fin 2) * 64 + 64; omega

/-- THE OUTPUT ARRAY after the region: `rows` of the three arrays the region found. -/
theorem final (c : Dev nD) : (dat0 V c).arrAt 3 cfg0.N = rows (V c main_arg0) (V c main_call0_v4) (V c main_arg3) :=
  (dat0 V c).arrAt_eq_of_cover 3 _ (fun t _ => flushed V c t) cover

end

end Cert.KernelIdeal.Region0

end
-- ==== Proof.Region1.lean ====
/-
  The second tiled region: from the first layer's aggregate to the hidden rows.

  The region walks the 50000 rows in 25 blocks of 2000.  At a block the body reads the block's 2000 aggregate rows
  (64 wide), the block's 2000 in-degrees and 2000 out-degrees (two columns) and the one-row bias, and stores, for
  row p and column q,  max (aggregate (p, q) · rsqrt (max (in-degree p) 1) + bias q) 0 · rsqrt (max (out-degree p) 1).
  Row p of block t is row 2000 t + p of the arrays, the blocks tile the rows, so after the region the output array
  holds that value at every (row, column), as one function of the four arrays the region found.
-/
import proofs.«102259_j2284922601619_2_alg».proof.Proof.Gen.KernelIdeal.Frame
import proofs.«102259_j2284922601619_2_alg».proof.Proof.LibColumn
import Idealize.ShloMosaic.Lib.Pipeline.Value
import Idealize.ShloMosaic.Lib.ValueIdx
import Idealize.ShloMosaic.Lib.ValueLayout

set_option maxRecDepth 16384

noncomputable section

namespace Cert.KernelIdeal.Region1

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-- The hidden entry: max (aggregate (r, q) · rsqrt (max (in-degree r) 1) + bias q) 0 · rsqrt (max (out-degree r) 1). -/
def entry (agg : S50000x64.Idx → EReal) (din dout : S50000x1.Idx → EReal) (bias : S1x64.Idx → EReal) (r : Fin 50000) (q : Fin 64) : EReal :=
  max (agg (ix2 r q) * Ideal.rsqrt (max (din (ix2 r 0)) (Ideal.ofBits .f32 0x3F800000#32)) + bias (ix2 0 q)) (Ideal.ofBits .f32 0x00000000#32)
    * Ideal.rsqrt (max (dout (ix2 r 0)) (Ideal.ofBits .f32 0x3F800000#32))

/-- The region's output array as one function of the arrays it reads. -/
def rows (agg : S50000x64.Idx → EReal) (din dout : S50000x1.Idx → EReal) (bias : S1x64.Idx → EReal) : S50000x64.Idx → EReal :=
  fun i => entry agg din dout bias (i 0) (i 1)

/-- The inverse square root of a vector, read at an index. -/
theorem rsqrt_at {s : Shape} {φ : FTy} (v : FVec Ideal s φ) (i : s.Idx) : rsqrt v i = Ideal.rsqrt (v i) := rfl

/-- The body's stored value at row p, column q of a block, from the block's loads. -/
theorem pay_apply (v0 : Vec Ideal S2000x1 .f32) (v4 : Vec Ideal S2000x64 .f32) (v9 : Vec Ideal S1x64 .f32) (v15 : Vec Ideal S2000x1 .f32)
    (p : Fin 2000) (q : Fin 64) :
    k1_pay1 v0 v4 v9 v15 (ix2 p q)
      = max (v4 (ix2 p q) * Ideal.rsqrt (max (v0 (ix2 p 0)) (Ideal.ofBits .f32 0x3F800000#32)) + v9 (ix2 0 q)) (Ideal.ofBits .f32 0x00000000#32)
          * Ideal.rsqrt (max (v15 (ix2 p 0)) (Ideal.ofBits .f32 0x3F800000#32)) := by
  unfold k1_pay1
  simp only [mulf_apply, maximumf_apply, addf_apply, broadcast_apply, shapeCast_self, rsqrt_at,
    Cert.LibColumn.broadcastTo_a1_ab_apply, broadcastTo_1b_ab_apply]
  rfl

theorem hz : (![0, 0] : Fin 2 → Nat) = fun _ => 0 := funext fun a => by fin_cases a <;> rfl

/-- The printed index maps over the grid: the output and the three row-blocked inputs sit at block row t, the bias's
    one block at the origin; there are 25 points. -/
theorem idx_facts : ∀ t : Fin cfg1.N, win1_4.index t (0 : Fin 2) = t.val ∧ win1_4.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0 ∧ t.val < 25 :=
  (by decide +kernel : ∀ t : Fin grid1.N, _)

/-- Every one of the 25 block rows is some point's. -/
theorem idx_onto : ∀ q0 : Fin 25, ∃ t : Fin cfg1.N, t.val = q0.val :=
  (by decide +kernel : ∀ q0 : Fin 25, ∃ t : Fin grid1.N, t.val = q0.val)

/-- Row p, column q of block t, computed from the blocks of the four arrays at point t, is the whole-array function
    at the block's place in the output array. -/
theorem block_entry (A : S50000x64.Idx → EReal) (DI DO : S50000x1.Idx → EReal) (B : S1x64.Idx → EReal)
    (t : Fin cfg1.N) (p : Fin 2000) (q : Fin 64) :
    max (A (((cfg1.win 0).blk t).view.emb (ix2 p q)) * Ideal.rsqrt (max (DI (((cfg1.win 1).blk t).view.emb (ix2 p (0 : Fin 1)))) (Ideal.ofBits .f32 0x3F800000#32))
          + B (((cfg1.win 3).blk t).view.emb (ix2 (0 : Fin 1) q))) (Ideal.ofBits .f32 0x00000000#32)
        * Ideal.rsqrt (max (DO (((cfg1.win 2).blk t).view.emb (ix2 p (0 : Fin 1)))) (Ideal.ofBits .f32 0x3F800000#32))
      = rows A DI DO B (((cfg1.win 4).blk t).view.emb (ix2 p q)) := by
  obtain ⟨e40, e41, e00, e01, e10, e11, e20, e21, e30, e31, ht⟩ := idx_facts t
  have hp := p.isLt
  have hq := q.isLt
  have hr : t.val * 2000 + p.val < 50000 := by omega
  have h4 : ((cfg1.win 4).blk t).view.emb (ix2 p q) = ix2 (⟨t.val * 2000 + p.val, hr⟩ : Fin 50000) q := by
    funext a; apply Fin.ext
    match a with
    | ⟨0, _⟩ => show win1_4.index t (0 : Fin 2) * 2000 + 1 * p.val = t.val * 2000 + p.val; omega
    | ⟨1, _⟩ => show win1_4.index t (1 : Fin 2) * 64 + 1 * q.val = q.val; omega
  have h0 : ((cfg1.win 0).blk t).view.emb (ix2 p q) = ix2 (⟨t.val * 2000 + p.val, hr⟩ : Fin 50000) q := by
    funext a; apply Fin.ext
    match a with
    | ⟨0, _⟩ => show win1_0.index t (0 : Fin 2) * 2000 + 1 * p.val = t.val * 2000 + p.val; omega
    | ⟨1, _⟩ => show win1_0.index t (1 : Fin 2) * 64 + 1 * q.val = q.val; omega
  have h1 : ((cfg1.win 1).blk t).view.emb (ix2 p (0 : Fin 1)) = ix2 (⟨t.val * 2000 + p.val, hr⟩ : Fin 50000) (0 : Fin 1) := by
    funext a; apply Fin.ext
    match a with
    | ⟨0, _⟩ => show win1_1.index t (0 : Fin 2) * 2000 + 1 * p.val = t.val * 2000 + p.val; omega
    | ⟨1, _⟩ => show win1_1.index t (1 : Fin 2) * 1 + 1 * 0 = 0; omega
  have h2 : ((cfg1.win 2).blk t).view.emb (ix2 p (0 : Fin 1)) = ix2 (⟨t.val * 2000 + p.val, hr⟩ : Fin 50000) (0 : Fin 1) := by
    funext a; apply Fin.ext
    match a with
    | ⟨0, _⟩ => show win1_2.index t (0 : Fin 2) * 2000 + 1 * p.val = t.val * 2000 + p.val; omega
    | ⟨1, _⟩ => show win1_2.index t (1 : Fin 2) * 1 + 1 * 0 = 0; omega
  have h3 : ((cfg1.win 3).blk t).view.emb (ix2 (0 : Fin 1) q) = ix2 (0 : Fin 1) q := by
    funext a; apply Fin.ext
    match a with
    | ⟨0, _⟩ => show win1_3.index t (0 : Fin 2) * 1 + 1 * 0 = 0; omega
    | ⟨1, _⟩ => show win1_3.index t (1 : Fin 2) * 64 + 1 * q.val = q.val; omega
  rw [h4, h0, h1, h2, h3]
  rfl

section
variable (V : (c : Dev nD) → (b : Ref sig .tc) → Buf (Elt Ideal) ((c : Thread nD τ).loc b))

/-- What point t writes back is block t of `rows` of the arrays the region finds. -/
theorem flushed (c : Dev nD) (t : Fin cfg1.N) :
    (dat1 V c).flushed 4 t = ((cfg1.win 4).blk t).view.read (Elt Ideal) (rows (V c main_call0_v22) (V c main_call0_v8) (V c main_call0_v4) (V c main_call0_v9)) := by
  show (cfg1.win 4).cut (grid1.coords t) ((dat1 V c).after 4 t) = _
  rw [after1_4]
  unfold out1_4
  rw [View.canon_unit_zero hz]
  simp only [View.ld_unit_zero (S := S2000x1) hz, View.ld_unit_zero (S := S2000x64) hz, View.ld_unit_zero (S := S1x64) hz]
  funext j
  obtain ⟨p, q, rfl⟩ : ∃ (p : Fin 2000) (q : Fin 64), j = ix2 p q := ⟨j 0, j 1, eq_ix2 j⟩
  refine (pay_apply (iblk1 V c 1 t) (iblk1 V c 0 t) (iblk1 V c 3 t) (iblk1 V c 2 t) p q).trans ?_
  exact block_entry (V c main_call0_v22) (V c main_call0_v8) (V c main_call0_v4) (V c main_call0_v9) t p q

/-- An index of the output array is in point t's block iff each coordinate is in the block's range on its axis. -/
theorem mem_blk (t : Fin cfg1.N) (i : S50000x64.Idx) :
    i ∈ ((cfg1.win 4).blk t).view.set ↔ ∀ a : Fin 2, win1_4.index t a * S2000x64.size a ≤ (i a).val ∧ (i a).val < win1_4.index t a * S2000x64.size a + S2000x64.size a := by
  show i ∈ ((View.whole main_call0_v23).slice (win1_4.rect t)).set ↔ _
  rw [View.set_slice_whole, Rect.mem_set_unit]
  exact Iff.rfl

/-- The 25 blocks of 2000 rows cover the 50000 rows: row r is in block r / 2000. -/
theorem cover (i : S50000x64.Idx) : ∃ t : Fin cfg1.N, (cfg1.win 4).flush t = true ∧ i ∈ ((cfg1.win 4).blk t).view.set := by
  have hi0 : (i 0).val < 50000 := (i 0).isLt
  have hi1 : (i 1).val < 64 := (i 1).isLt
  obtain ⟨t, ht⟩ := idx_onto ⟨(i 0).val / 2000, by omega⟩
  have ht' : t.val = (i 0).val / 2000 := ht
  have eo := (idx_facts t).1
  have eo1 := (idx_facts t).2.1
  refine ⟨t, flush1_4 t, ?_⟩
  rw [mem_blk]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 64 ≤ (i 1).val ∧ (i 1).val < win1_4.index t (1 : Fin 2) * 64 + 64; omega

/-- THE OUTPUT ARRAY after the region: `rows` of the arrays the region found. -/
theorem final (c : Dev nD) : (dat1 V c).arrAt 4 cfg1.N = rows (V c main_call0_v22) (V c main_call0_v8) (V c main_call0_v4) (V c main_call0_v9) :=
  (dat1 V c).arrAt_eq_of_cover 4 _ (fun t _ => flushed V c t) cover

end

end Cert.KernelIdeal.Region1

end
-- ==== Proof.Region2.lean ====
/-
  The third tiled region: the hidden rows times the second weight matrix.

  The region walks the 50000 rows in 25 blocks of 2000.  At a block the body reads the block's 2000 hidden rows
  (64 wide) and the whole 64 x 16 weight matrix, and stores, for row p and column q, the sum over k of
  hidden (p, k) · weight (k, q).  Row p of block t is row 2000 t + p of the arrays, the blocks tile the rows, so
  after the region the output array holds that sum at every (row, column), as one function of the two arrays the
  region found.
-/
import proofs.«102259_j2284922601619_2_alg».proof.Proof.Gen.KernelIdeal.Frame
import proofs.«102259_j2284922601619_2_alg».proof.Proof.LibProduct
import Idealize.ShloMosaic.Lib.Pipeline.Value
import Idealize.ShloMosaic.Lib.ValueIdx

set_option maxRecDepth 16384

noncomputable section

namespace Cert.KernelIdeal.Region2

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-- The product's entry: ∑ k, hidden (r, k) · weight (k, q). -/
def entry (hid : S50000x64.Idx → EReal) (w : S64x16.Idx → EReal) (r : Fin 50000) (q : Fin 16) : EReal :=
  ∑ k : Fin 64, hid (ix2 r k) * w (ix2 k q)

/-- The region's output array as one function of the arrays it reads. -/
def rows (hid : S50000x64.Idx → EReal) (w : S64x16.Idx → EReal) : S50000x16.Idx → EReal :=
  fun i => entry hid w (i 0) (i 1)

/-- The body's stored value at row p, column q of a block, from the block's loads. -/
theorem pay_apply (v0 : Vec Ideal S2000x64 .f32) (v3 : Vec Ideal S64x16 .f32) (p : Fin 2000) (q : Fin 16) :
    k2_pay1 v0 v3 (ix2 p q) = ∑ k : Fin 64, v0 (ix2 p k) * v3 (ix2 k q) := by
  unfold k2_pay1
  refine (Cert.LibProduct.matmul_zero_apply dot_S2000x64_S64x16_S2000x16_1_0_0_1_n_n rfl rfl rfl rfl rfl rfl none _ _ p q).trans ?_
  refine Finset.sum_congr rfl fun k _ => ?_
  show shapeCast S2000x64 v0 shapeCasts_S2000x64_S2000x64 (ix2 p k) * v3 (ix2 k q) = _
  rw [shapeCast_self]

theorem hz : (![0, 0] : Fin 2 → Nat) = fun _ => 0 := funext fun a => by fin_cases a <;> rfl

/-- The printed index maps over the grid: the output and the hidden rows sit at block row t, the weight's one block
    at the origin; there are 25 points. -/
theorem idx_facts : ∀ t : Fin cfg2.N, win2_2.index t (0 : Fin 2) = t.val ∧ win2_2.index t (1 : Fin 2) = 0
    ∧ win2_0.index t (0 : Fin 2) = t.val ∧ win2_0.index t (1 : Fin 2) = 0
    ∧ win2_1.index t (0 : Fin 2) = 0 ∧ win2_1.index t (1 : Fin 2) = 0 ∧ t.val < 25 :=
  (by decide +kernel : ∀ t : Fin grid2.N, _)

/-- Every one of the 25 block rows is some point's. -/
theorem idx_onto : ∀ q0 : Fin 25, ∃ t : Fin cfg2.N, t.val = q0.val :=
  (by decide +kernel : ∀ q0 : Fin 25, ∃ t : Fin grid2.N, t.val = q0.val)

/-- Row p, column q of block t, computed from the blocks of the two arrays at point t, is the whole-array function
    at the block's place in the output array. -/
theorem block_entry (H : S50000x64.Idx → EReal) (W : S64x16.Idx → EReal) (t : Fin cfg2.N) (p : Fin 2000) (q : Fin 16) :
    ∑ k : Fin 64, H (((cfg2.win 0).blk t).view.emb (ix2 p k)) * W (((cfg2.win 1).blk t).view.emb (ix2 k q))
      = rows H W (((cfg2.win 2).blk t).view.emb (ix2 p q)) := by
  obtain ⟨e20, e21, e00, e01, e10, e11, ht⟩ := idx_facts t
  have hp := p.isLt
  have hq := q.isLt
  have hr : t.val * 2000 + p.val < 50000 := by omega
  have h2 : ((cfg2.win 2).blk t).view.emb (ix2 p q) = ix2 (⟨t.val * 2000 + p.val, hr⟩ : Fin 50000) q := by
    funext a; apply Fin.ext
    match a with
    | ⟨0, _⟩ => show win2_2.index t (0 : Fin 2) * 2000 + 1 * p.val = t.val * 2000 + p.val; omega
    | ⟨1, _⟩ => show win2_2.index t (1 : Fin 2) * 16 + 1 * q.val = q.val; omega
  have h0 : ∀ k : Fin 64, ((cfg2.win 0).blk t).view.emb (ix2 p k) = ix2 (⟨t.val * 2000 + p.val, hr⟩ : Fin 50000) k := by
    intro k
    funext a; apply Fin.ext
    match a with
    | ⟨0, _⟩ => show win2_0.index t (0 : Fin 2) * 2000 + 1 * p.val = t.val * 2000 + p.val; omega
    | ⟨1, _⟩ => show win2_0.index t (1 : Fin 2) * 64 + 1 * k.val = k.val; omega
  have h1 : ∀ k : Fin 64, ((cfg2.win 1).blk t).view.emb (ix2 k q) = ix2 k q := by
    intro k
    funext a; apply Fin.ext
    match a with
    | ⟨0, _⟩ => show win2_1.index t (0 : Fin 2) * 64 + 1 * k.val = k.val; omega
    | ⟨1, _⟩ => show win2_1.index t (1 : Fin 2) * 16 + 1 * q.val = q.val; omega
  rw [h2]
  show _ = entry H W ⟨t.val * 2000 + p.val, hr⟩ q
  unfold entry
  refine Finset.sum_congr rfl fun k _ => ?_
  rw [h0 k, h1 k]

section
variable (V : (c : Dev nD) → (b : Ref sig .tc) → Buf (Elt Ideal) ((c : Thread nD τ).loc b))

/-- What point t writes back is block t of `rows` of the arrays the region finds. -/
theorem flushed (c : Dev nD) (t : Fin cfg2.N) :
    (dat2 V c).flushed 2 t = ((cfg2.win 2).blk t).view.read (Elt Ideal) (rows (V c main_call0_v23) (V c main_arg5)) := by
  show (cfg2.win 2).cut (grid2.coords t) ((dat2 V c).after 2 t) = _
  rw [after2_2]
  unfold out2_2
  rw [View.canon_unit_zero hz]
  simp only [View.ld_unit_zero (S := S2000x64) hz, View.ld_unit_zero (S := S64x16) hz]
  funext j
  obtain ⟨p, q, rfl⟩ : ∃ (p : Fin 2000) (q : Fin 16), j = ix2 p q := ⟨j 0, j 1, eq_ix2 j⟩
  refine (pay_apply (iblk2 V c 0 t) (iblk2 V c 1 t) p q).trans ?_
  exact block_entry (V c main_call0_v23) (V c main_arg5) t p q

/-- An index of the output array is in point t's block iff each coordinate is in the block's range on its axis. -/
theorem mem_blk (t : Fin cfg2.N) (i : S50000x16.Idx) :
    i ∈ ((cfg2.win 2).blk t).view.set ↔ ∀ a : Fin 2, win2_2.index t a * S2000x16.size a ≤ (i a).val ∧ (i a).val < win2_2.index t a * S2000x16.size a + S2000x16.size a := by
  show i ∈ ((View.whole main_call0_v24).slice (win2_2.rect t)).set ↔ _
  rw [View.set_slice_whole, Rect.mem_set_unit]
  exact Iff.rfl

/-- The 25 blocks of 2000 rows cover the 50000 rows: row r is in block r / 2000. -/
theorem cover (i : S50000x16.Idx) : ∃ t : Fin cfg2.N, (cfg2.win 2).flush t = true ∧ i ∈ ((cfg2.win 2).blk t).view.set := by
  have hi0 : (i 0).val < 50000 := (i 0).isLt
  have hi1 : (i 1).val < 16 := (i 1).isLt
  obtain ⟨t, ht⟩ := idx_onto ⟨(i 0).val / 2000, by omega⟩
  have ht' : t.val = (i 0).val / 2000 := ht
  have eo := (idx_facts t).1
  have eo1 := (idx_facts t).2.1
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 16 ≤ (i 1).val ∧ (i 1).val < win2_2.index t (1 : Fin 2) * 16 + 16; omega

/-- THE OUTPUT ARRAY after the region: `rows` of the arrays the region found. -/
theorem final (c : Dev nD) : (dat2 V c).arrAt 2 cfg2.N = rows (V c main_call0_v23) (V c main_arg5) :=
  (dat2 V c).arrAt_eq_of_cover 2 _ (fun t _ => flushed V c t) cover

end

end Cert.KernelIdeal.Region2

end
-- ==== Proof.Region3.lean ====
/-
  The fourth tiled region: from the second layer's aggregate to the result.

  The region walks the 50000 rows in 25 blocks of 2000.  At a block the body reads the block's 2000 aggregate rows
  (16 wide), the block's 2000 in-degrees (a column) and the one-row bias, and stores, for row p and column q,
  aggregate (p, q) · rsqrt (max (in-degree p) 1) + bias q.  Row p of block t is row 2000 t + p of the arrays, the
  blocks tile the rows, so after the region the result array holds that value at every (row, column), as one
  function of the three arrays the region found.
-/
import proofs.«102259_j2284922601619_2_alg».proof.Proof.Gen.KernelIdeal.Frame
import proofs.«102259_j2284922601619_2_alg».proof.Proof.LibColumn
import Idealize.ShloMosaic.Lib.Pipeline.Value
import Idealize.ShloMosaic.Lib.ValueIdx
import Idealize.ShloMosaic.Lib.ValueLayout

set_option maxRecDepth 16384

noncomputable section

namespace Cert.KernelIdeal.Region3

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-- The result entry: aggregate (r, q) · rsqrt (max (in-degree r) 1) + bias q. -/
def entry (agg : S50000x16.Idx → EReal) (din : S50000x1.Idx → EReal) (bias : S1x16.Idx → EReal) (r : Fin 50000) (q : Fin 16) : EReal :=
  agg (ix2 r q) * Ideal.rsqrt (max (din (ix2 r 0)) (Ideal.ofBits .f32 0x3F800000#32)) + bias (ix2 0 q)

/-- The region's output array as one function of the arrays it reads. -/
def rows (agg : S50000x16.Idx → EReal) (din : S50000x1.Idx → EReal) (bias : S1x16.Idx → EReal) : S50000x16.Idx → EReal :=
  fun i => entry agg din bias (i 0) (i 1)

/-- The inverse square root of a vector, read at an index. -/
theorem rsqrt_at {s : Shape} {φ : FTy} (v : FVec Ideal s φ) (i : s.Idx) : rsqrt v i = Ideal.rsqrt (v i) := rfl

/-- The body's stored value at row p, column q of a block, from the block's loads. -/
theorem pay_apply (v0 : Vec Ideal S2000x1 .f32) (v4 : Vec Ideal S2000x16 .f32) (v9 : Vec Ideal S1x16 .f32) (p : Fin 2000) (q : Fin 16) :
    k3_pay1 v0 v4 v9 (ix2 p q) = v4 (ix2 p q) * Ideal.rsqrt (max (v0 (ix2 p 0)) (Ideal.ofBits .f32 0x3F800000#32)) + v9 (ix2 0 q) := by
  unfold k3_pay1
  simp only [mulf_apply, maximumf_apply, addf_apply, broadcast_apply, shapeCast_self, rsqrt_at,
    Cert.LibColumn.broadcastTo_a1_ab_apply, broadcastTo_1b_ab_apply]
  rfl

theorem hz : (![0, 0] : Fin 2 → Nat) = fun _ => 0 := funext fun a => by fin_cases a <;> rfl

/-- The printed index maps over the grid: the output and the two row-blocked inputs sit at block row t, the bias's
    one block at the origin; there are 25 points. -/
theorem idx_facts : ∀ t : Fin cfg3.N, win3_3.index t (0 : Fin 2) = t.val ∧ win3_3.index t (1 : Fin 2) = 0
    ∧ win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0 ∧ t.val < 25 :=
  (by decide +kernel : ∀ t : Fin grid3.N, _)

/-- Every one of the 25 block rows is some point's. -/
theorem idx_onto : ∀ q0 : Fin 25, ∃ t : Fin cfg3.N, t.val = q0.val :=
  (by decide +kernel : ∀ q0 : Fin 25, ∃ t : Fin grid3.N, t.val = q0.val)

/-- Row p, column q of block t, computed from the blocks of the three arrays at point t, is the whole-array function
    at the block's place in the output array. -/
theorem block_entry (A : S50000x16.Idx → EReal) (DI : S50000x1.Idx → EReal) (B : S1x16.Idx → EReal)
    (t : Fin cfg3.N) (p : Fin 2000) (q : Fin 16) :
    A (((cfg3.win 0).blk t).view.emb (ix2 p q)) * Ideal.rsqrt (max (DI (((cfg3.win 1).blk t).view.emb (ix2 p (0 : Fin 1)))) (Ideal.ofBits .f32 0x3F800000#32))
          + B (((cfg3.win 2).blk t).view.emb (ix2 (0 : Fin 1) q))
      = rows A DI B (((cfg3.win 3).blk t).view.emb (ix2 p q)) := by
  obtain ⟨e30, e31, e00, e01, e10, e11, e20, e21, ht⟩ := idx_facts t
  have hp := p.isLt
  have hq := q.isLt
  have hr : t.val * 2000 + p.val < 50000 := by omega
  have h3 : ((cfg3.win 3).blk t).view.emb (ix2 p q) = ix2 (⟨t.val * 2000 + p.val, hr⟩ : Fin 50000) q := by
    funext a; apply Fin.ext
    match a with
    | ⟨0, _⟩ => show win3_3.index t (0 : Fin 2) * 2000 + 1 * p.val = t.val * 2000 + p.val; omega
    | ⟨1, _⟩ => show win3_3.index t (1 : Fin 2) * 16 + 1 * q.val = q.val; omega
  have h0 : ((cfg3.win 0).blk t).view.emb (ix2 p q) = ix2 (⟨t.val * 2000 + p.val, hr⟩ : Fin 50000) q := by
    funext a; apply Fin.ext
    match a with
    | ⟨0, _⟩ => show win3_0.index t (0 : Fin 2) * 2000 + 1 * p.val = t.val * 2000 + p.val; omega
    | ⟨1, _⟩ => show win3_0.index t (1 : Fin 2) * 16 + 1 * q.val = q.val; omega
  have h1 : ((cfg3.win 1).blk t).view.emb (ix2 p (0 : Fin 1)) = ix2 (⟨t.val * 2000 + p.val, hr⟩ : Fin 50000) (0 : Fin 1) := by
    funext a; apply Fin.ext
    match a with
    | ⟨0, _⟩ => show win3_1.index t (0 : Fin 2) * 2000 + 1 * p.val = t.val * 2000 + p.val; omega
    | ⟨1, _⟩ => show win3_1.index t (1 : Fin 2) * 1 + 1 * 0 = 0; omega
  have h2 : ((cfg3.win 2).blk t).view.emb (ix2 (0 : Fin 1) q) = ix2 (0 : Fin 1) q := by
    funext a; apply Fin.ext
    match a with
    | ⟨0, _⟩ => show win3_2.index t (0 : Fin 2) * 1 + 1 * 0 = 0; omega
    | ⟨1, _⟩ => show win3_2.index t (1 : Fin 2) * 16 + 1 * q.val = q.val; omega
  rw [h3, h0, h1, h2]
  rfl

section
variable (V : (c : Dev nD) → (b : Ref sig .tc) → Buf (Elt Ideal) ((c : Thread nD τ).loc b))

/-- What point t writes back is block t of `rows` of the arrays the region finds. -/
theorem flushed (c : Dev nD) (t : Fin cfg3.N) :
    (dat3 V c).flushed 3 t = ((cfg3.win 3).blk t).view.read (Elt Ideal) (rows (V c main_call0_v35) (V c main_call0_v8) (V c main_call0_v10)) := by
  show (cfg3.win 3).cut (grid3.coords t) ((dat3 V c).after 3 t) = _
  rw [after3_3]
  unfold out3_3
  rw [View.canon_unit_zero hz]
  simp only [View.ld_unit_zero (S := S2000x1) hz, View.ld_unit_zero (S := S2000x16) hz, View.ld_unit_zero (S := S1x16) hz]
  funext j
  obtain ⟨p, q, rfl⟩ : ∃ (p : Fin 2000) (q : Fin 16), j = ix2 p q := ⟨j 0, j 1, eq_ix2 j⟩
  refine (pay_apply (iblk3 V c 1 t) (iblk3 V c 0 t) (iblk3 V c 2 t) p q).trans ?_
  exact block_entry (V c main_call0_v35) (V c main_call0_v8) (V c main_call0_v10) t p q

/-- An index of the output array is in point t's block iff each coordinate is in the block's range on its axis. -/
theorem mem_blk (t : Fin cfg3.N) (i : S50000x16.Idx) :
    i ∈ ((cfg3.win 3).blk t).view.set ↔ ∀ a : Fin 2, win3_3.index t a * S2000x16.size a ≤ (i a).val ∧ (i a).val < win3_3.index t a * S2000x16.size a + S2000x16.size a := by
  show i ∈ ((View.whole main_v0).slice (win3_3.rect t)).set ↔ _
  rw [View.set_slice_whole, Rect.mem_set_unit]
  exact Iff.rfl

/-- The 25 blocks of 2000 rows cover the 50000 rows: row r is in block r / 2000. -/
theorem cover (i : S50000x16.Idx) : ∃ t : Fin cfg3.N, (cfg3.win 3).flush t = true ∧ i ∈ ((cfg3.win 3).blk t).view.set := by
  have hi0 : (i 0).val < 50000 := (i 0).isLt
  have hi1 : (i 1).val < 16 := (i 1).isLt
  obtain ⟨t, ht⟩ := idx_onto ⟨(i 0).val / 2000, by omega⟩
  have ht' : t.val = (i 0).val / 2000 := ht
  have eo := (idx_facts t).1
  have eo1 := (idx_facts t).2.1
  refine ⟨t, flush3_3 t, ?_⟩
  rw [mem_blk]
  intro a
  match a with
  | ⟨0, _⟩ => show win3_3.index t (0 : Fin 2) * 2000 ≤ (i 0).val ∧ (i 0).val < win3_3.index t (0 : Fin 2) * 2000 + 2000; omega
  | ⟨1, _⟩ => show win3_3.index t (1 : Fin 2) * 16 ≤ (i 1).val ∧ (i 1).val < win3_3.index t (1 : Fin 2) * 16 + 16; omega

/-- THE OUTPUT ARRAY after the region: `rows` of the arrays the region found. -/
theorem final (c : Dev nD) : (dat3 V c).arrAt 3 cfg3.N = rows (V c main_call0_v35) (V c main_call0_v8) (V c main_call0_v10) :=
  (dat3 V c).arrAt_eq_of_cover 3 _ (fun t _ => flushed V c t) cover

end

end Cert.KernelIdeal.Region3

end
-- ==== Proof.Chain.lean ====
/-
  The four regions' outputs along the run.

  The buffer contents at the boundaries between @main's segments form a fold from the launch memory.  At each
  region's exit its output array holds the region's whole-array function of the arrays the region found at its
  entry: the scaled-and-multiplied feature rows after the first region, the hidden rows after the second, their
  product with the second weight matrix after the third, the result after the fourth.
-/
import proofs.«102259_j2284922601619_2_alg».proof.Proof.Gen.KernelIdeal.Frame
import proofs.«102259_j2284922601619_2_alg».proof.Proof.Region0
import proofs.«102259_j2284922601619_2_alg».proof.Proof.Region1
import proofs.«102259_j2284922601619_2_alg».proof.Proof.Region2
import proofs.«102259_j2284922601619_2_alg».proof.Proof.Region3

set_option maxRecDepth 16384

noncomputable section

namespace Cert.KernelIdeal.Chain

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg) (c : Dev nD)

/-- After the first region: the first layer's rows as they travel along the edges. -/
theorem out0 : W2 m ρ c (Proc.devRef .tc main_call0_v11)
    = Region0.rows (V1 m ρ c main_arg0) (V1 m ρ c main_call0_v4) (V1 m ρ c main_arg3) :=
  (W2_arr m ρ c 3).trans (Region0.final (V1 m ρ) c)

/-- After the second region: the hidden rows. -/
theorem out1 : W4 m ρ c (Proc.devRef .tc main_call0_v23)
    = Region1.rows (V3 m ρ c main_call0_v22) (V3 m ρ c main_call0_v8) (V3 m ρ c main_call0_v4) (V3 m ρ c main_call0_v9) :=
  (W4_arr m ρ c 4).trans (Region1.final (V3 m ρ) c)

/-- After the third region: the second layer's rows as they travel along the edges. -/
theorem out2 : W5 m ρ c (Proc.devRef .tc main_call0_v24)
    = Region2.rows (V4 m ρ c main_call0_v23) (V4 m ρ c main_arg5) :=
  (W5_arr m ρ c 2).trans (Region2.final (V4 m ρ) c)

/-- After the fourth region: the result. -/
theorem out3 : W7 m ρ c (Proc.devRef .tc main_v0)
    = Region3.rows (V6 m ρ c main_call0_v35) (V6 m ρ c main_call0_v8) (V6 m ρ c main_call0_v10) :=
  (W7_arr m ρ c 3).trans (Region3.final (V6 m ρ) c)

end Cert.KernelIdeal.Chain

end
-- ==== Proof.KernelLayers.lean ====
/-
  The four regions' whole-array functions in the vocabulary of the two-layer convolution.

  Given the index columns of the graph, each region's output entry is one step of the kernel's arrangement: the first
  region's rows are the scaled features times the first weight matrix; the second region's are the rectified,
  biased, rescaled aggregate; the third's their product with the second weight matrix; the fourth's the biased,
  rescaled second aggregate.  The degrees enter as columns whose entry at a node is the node's degree, and the
  constant words 1.0 and 0.0 denote the numbers one and zero.
-/
import proofs.«102259_j2284922601619_2_alg».proof.Proof.Region0
import proofs.«102259_j2284922601619_2_alg».proof.Proof.Region1
import proofs.«102259_j2284922601619_2_alg».proof.Proof.Region2
import proofs.«102259_j2284922601619_2_alg».proof.Proof.Region3
import proofs.«102259_j2284922601619_2_alg».proof.Proof.Conv
import proofs.«102259_j2284922601619_2_alg».proof.Proof.GraphRead

noncomputable section

namespace Cert.KernelIdeal.Layers

open Idealize.ShloMosaic Idealize.ShloMosaic.ValueIdx
open Cert.KernelIdeal Cert.Graph

variable (so si : IVec ⟨2, ![1600000, 1]⟩ 32)

/-- The first region's entry is the first layer's travelling row: ∑ l, (f (u, l) · scale u) · w1 (l, k). -/
theorem rows0_apply (F : S50000x128.Idx → EReal) (D : S50000x1.Idx → EReal) (W : S128x64.Idx → EReal)
    (f : Fin 50000 → Fin 128 → EReal) (w1 : Fin 128 → Fin 64 → EReal)
    (hF : ∀ (u : Fin 50000) (l : Fin 128), F (ix2 u l) = f u l)
    (hD : ∀ u : Fin 50000, D (ix2 u 0) = deg so u)
    (hW : ∀ (l : Fin 128) (k : Fin 64), W (ix2 l k) = w1 l k) (u : Fin 50000) (k : Fin 64) :
    Region0.rows F D W (ix2 u k) = Cert.Conv.kerRows1 (scaleK so) f w1 u k := by
  show Region0.entry F D W u k = _
  unfold Region0.entry Cert.Conv.kerRows1 Cert.Conv.lin scaleK
  rw [hD u, one_bits]
  refine Finset.sum_congr rfl fun l _ => ?_
  rw [hF u l, hW l k]

/-- The second region's entry is the hidden row: max (aggregate · in-scale + bias) 0 · out-scale. -/
theorem rows1_apply (A : S50000x64.Idx → EReal) (DI DO : S50000x1.Idx → EReal) (B : S1x64.Idx → EReal)
    (a : Fin 50000 → Fin 64 → EReal) (b1 : Fin 64 → EReal)
    (hA : ∀ (v : Fin 50000) (k : Fin 64), A (ix2 v k) = a v k)
    (hDI : ∀ v : Fin 50000, DI (ix2 v 0) = deg si v) (hDO : ∀ v : Fin 50000, DO (ix2 v 0) = deg so v)
    (hB : ∀ k : Fin 64, B (ix2 0 k) = b1 k) (v : Fin 50000) (k : Fin 64) :
    Region1.rows A DI DO B (ix2 v k) = max (a v k * scaleK si v + b1 k) 0 * scaleK so v := by
  show Region1.entry A DI DO B v k = _
  unfold Region1.entry scaleK
  rw [hA v k, hDI v, hDO v, hB k, one_bits, Ideal.ofBits_zero_f32]

/-- The third region's entry is a row-by-matrix product. -/
theorem rows2_apply (H : S50000x64.Idx → EReal) (W : S64x16.Idx → EReal)
    (h : Fin 50000 → Fin 64 → EReal) (w2 : Fin 64 → Fin 16 → EReal)
    (hH : ∀ (u : Fin 50000) (k : Fin 64), H (ix2 u k) = h u k)
    (hW : ∀ (k : Fin 64) (j : Fin 16), W (ix2 k j) = w2 k j) (u : Fin 50000) (j : Fin 16) :
    Region2.rows H W (ix2 u j) = Cert.Conv.lin h w2 u j := by
  show Region2.entry H W u j = _
  unfold Region2.entry Cert.Conv.lin
  refine Finset.sum_congr rfl fun k _ => ?_
  rw [hH u k, hW k j]

/-- The fourth region's entry is the result: aggregate · in-scale + bias. -/
theorem rows3_apply (A : S50000x16.Idx → EReal) (DI : S50000x1.Idx → EReal) (B : S1x16.Idx → EReal)
    (a : Fin 50000 → Fin 16 → EReal) (b2 : Fin 16 → EReal)
    (hA : ∀ (v : Fin 50000) (j : Fin 16), A (ix2 v j) = a v j)
    (hDI : ∀ v : Fin 50000, DI (ix2 v 0) = deg si v)
    (hB : ∀ j : Fin 16, B (ix2 0 j) = b2 j) (v : Fin 50000) (j : Fin 16) :
    Region3.rows A DI B (ix2 v j) = a v j * scaleK si v + b2 j := by
  show Region3.entry A DI B v j = _
  unfold Region3.entry scaleK
  rw [hA v j, hDI v, hB j, one_bits]

end Cert.KernelIdeal.Layers

end
-- ==== Proof.HostWalk.lean ====
/-
  Buffers that nothing writes between two boundaries of the run keep their contents.

  The run alternates stretches of host operations with regions.  A stretch changes only the buffers its operations
  write; a region changes only its output windows' arrays (an input window's array comes out as it went in, every
  other buffer is untouched).  Walking a buffer back boundary by boundary therefore identifies what a later region
  reads with what an earlier stretch computed, or with the launch memory.
-/
import Idealize.ShloMosaic.PureOps.Ideal
import proofs.«102259_j2284922601619_2_alg».proof.Proof.Gen.KernelIdeal.Frame

set_option maxRecDepth 16384

noncomputable section

namespace Cert.KernelIdeal.HostRead

open Cert.KernelIdeal Cert.KernelIdeal.Gen
open Idealize.ShloMosaic Idealize.ShloMosaic.TcCoe
open Idealize.SL Idealize.SL.Sem

variable (m : (ℓ : Loc nD τ sig) → Buf (Elt Ideal) ℓ) (ρ : Dev nD → PrngReg) (c : Dev nD)

/-- A stretch leaves a buffer that none of its operations writes as it was: each operation writes one buffer, and the
    buffer in question is a different reference from every one of them. -/
macro "stretch_keeps " ops:ident : term =>
  `(StableHlo.after_of_forall_not_mem _ _ (List.forall_iff_forall_mem.mp (by
      simp only [$ops:ident, List.flatten_cons, List.flatten_nil, List.append_nil, List.cons_append, List.nil_append,
        List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-- The out-degree column, written before region 0, is still there at region 1's entry: stretch 1 does not write it and region 0 only reads it. -/
theorem W3_v4 : W3 m ρ c (Proc.devRef .tc main_call0_v4) = W1 m ρ c (Proc.devRef .tc main_call0_v4) :=
  calc W3 m ρ c (Proc.devRef .tc main_call0_v4)
    _ = W2 m ρ c (Proc.devRef .tc main_call0_v4) := stretch_keeps hostOps1
    _ = W1 m ρ c (Proc.devRef .tc main_call0_v4) := (W2_arr m ρ c 1).trans (((dat0 (V1 m ρ) c).arrAt_in 1 rfl _).trans (A_eq0 (V1 m ρ) c 1))

/-- The in-degree column is still there at region 1's entry. -/
theorem W3_v8 : W3 m ρ c (Proc.devRef .tc main_call0_v8) = W1 m ρ c (Proc.devRef .tc main_call0_v8) :=
  calc W3 m ρ c (Proc.devRef .tc main_call0_v8)
    _ = W2 m ρ c (Proc.devRef .tc main_call0_v8) := stretch_keeps hostOps1
    _ = W1 m ρ c (Proc.devRef .tc main_call0_v8) := W2_of_ne m ρ c main_call0_v8 (by decide)

/-- The first bias row is still there at region 1's entry. -/
theorem W3_v9 : W3 m ρ c (Proc.devRef .tc main_call0_v9) = W1 m ρ c (Proc.devRef .tc main_call0_v9) :=
  calc W3 m ρ c (Proc.devRef .tc main_call0_v9)
    _ = W2 m ρ c (Proc.devRef .tc main_call0_v9) := stretch_keeps hostOps1
    _ = W1 m ρ c (Proc.devRef .tc main_call0_v9) := W2_of_ne m ρ c main_call0_v9 (by decide)

/-- The in-degree column is still there at region 3's entry: region 1 only reads it, region 2 and the stretches do not touch it. -/
theorem W6_v8 : W6 m ρ c (Proc.devRef .tc main_call0_v8) = W1 m ρ c (Proc.devRef .tc main_call0_v8) :=
  calc W6 m ρ c (Proc.devRef .tc main_call0_v8)
    _ = W5 m ρ c (Proc.devRef .tc main_call0_v8) := stretch_keeps hostOps3
    _ = W4 m ρ c (Proc.devRef .tc main_call0_v8) := W5_of_ne m ρ c main_call0_v8 (by decide)
    _ = W3 m ρ c (Proc.devRef .tc main_call0_v8) := (W4_arr m ρ c 1).trans (((dat1 (V3 m ρ) c).arrAt_in 1 rfl _).trans (A_eq1 (V3 m ρ) c 1))
    _ = W2 m ρ c (Proc.devRef .tc main_call0_v8) := stretch_keeps hostOps1
    _ = W1 m ρ c (Proc.devRef .tc main_call0_v8) := W2_of_ne m ρ c main_call0_v8 (by decide)

/-- The second bias row is still there at region 3's entry. -/
theorem W6_v10 : W6 m ρ c (Proc.devRef .tc main_call0_v10) = W1 m ρ c (Proc.devRef .tc main_call0_v10) :=
  calc W6 m ρ c (Proc.devRef .tc main_call0_v10)
    _ = W5 m ρ c (Proc.devRef .tc main_call0_v10) := stretch_keeps hostOps3
    _ = W4 m ρ c (Proc.devRef .tc main_call0_v10) := W5_of_ne m ρ c main_call0_v10 (by decide)
    _ = W3 m ρ c (Proc.devRef .tc main_call0_v10) := W4_of_ne m ρ c main_call0_v10 (by decide)
    _ = W2 m ρ c (Proc.devRef .tc main_call0_v10) := stretch_keeps hostOps1
    _ = W1 m ρ c (Proc.devRef .tc main_call0_v10) := W2_of_ne m ρ c main_call0_v10 (by decide)

/-- The features at region 0's entry are the launch's. -/
theorem W1_arg0 : W1 m ρ c (Proc.devRef .tc main_arg0) = m ((c : Thread nD τ).loc main_arg0) :=
  calc W1 m ρ c (Proc.devRef .tc main_arg0)
    _ = W0 m ρ c (Proc.devRef .tc main_arg0) := stretch_keeps hostOps0
    _ = m ((c : Thread nD τ).loc main_arg0) := rfl

/-- The first weight matrix at region 0's entry is the launch's. -/
theorem W1_arg3 : W1 m ρ c (Proc.devRef .tc main_arg3) = m ((c : Thread nD τ).loc main_arg3) :=
  calc W1 m ρ c (Proc.devRef .tc main_arg3)
    _ = W0 m ρ c (Proc.devRef .tc main_arg3) := stretch_keeps hostOps0
    _ = m ((c : Thread nD τ).loc main_arg3) := rfl

/-- The edge sources at stretch 1's entry are the launch's. -/
theorem W2_arg1 : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := stretch_keeps hostOps0
    _ = m ((c : Thread nD τ).loc main_arg1) := rfl

/-- The edge destinations at stretch 1's entry are the launch's. -/
theorem W2_arg2 : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := stretch_keeps hostOps0
    _ = m ((c : Thread nD τ).loc main_arg2) := rfl

/-- The second weight matrix at region 2's entry is the launch's. -/
theorem W4_arg5 : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := stretch_keeps hostOps1
    _ = W1 m ρ c (Proc.devRef .tc main_arg5) := W2_of_ne m ρ c main_arg5 (by decide)
    _ = W0 m ρ c (Proc.devRef .tc main_arg5) := stretch_keeps hostOps0
    _ = m ((c : Thread nD τ).loc main_arg5) := rfl

/-- The edge sources at stretch 3's entry are the launch's. -/
theorem W5_arg1 : W5 m ρ c (Proc.devRef .tc main_arg1) = m ((c : Thread nD τ).loc main_arg1) :=
  calc W5 m ρ c (Proc.devRef .tc main_arg1)
    _ = W4 m ρ c (Proc.devRef .tc main_arg1) := W5_of_ne m ρ c main_arg1 (by decide)
    _ = W3 m ρ c (Proc.devRef .tc main_arg1) := W4_of_ne m ρ c main_arg1 (by decide)
    _ = W2 m ρ c (Proc.devRef .tc main_arg1) := stretch_keeps hostOps1
    _ = m ((c : Thread nD τ).loc main_arg1) := W2_arg1 m ρ c

/-- The edge destinations at stretch 3's entry are the launch's. -/
theorem W5_arg2 : W5 m ρ c (Proc.devRef .tc main_arg2) = m ((c : Thread nD τ).loc main_arg2) :=
  calc W5 m ρ c (Proc.devRef .tc main_arg2)
    _ = W4 m ρ c (Proc.devRef .tc main_arg2) := W5_of_ne m ρ c main_arg2 (by decide)
    _ = W3 m ρ c (Proc.devRef .tc main_arg2) := W4_of_ne m ρ c main_arg2 (by decide)
    _ = W2 m ρ c (Proc.devRef .tc main_arg2) := stretch_keeps hostOps1
    _ = m ((c : Thread nD τ).loc main_arg2) := W2_arg2 m ρ c

end Cert.KernelIdeal.HostRead

end
-- ==== Proof.LibTypedRef.lean ====
/-
  Typed references to buffers: contents carried to the buffer's own type and back.

  A helper function's values are named by references that carry the value's type; an operation over such
  references converts its operands from their buffers' types and its result to its buffer's type.  Both
  conversions are transports along the equation "the buffer's type is the value's type", so a value written
  through one reference and read back through the same reference is unchanged.
-/
import Idealize.ShloMosaic.Lib.StableHlo

namespace Cert.LibTypedRef

open Idealize.ShloMosaic

/-- Contents carried to a typed reference's buffer and back are unchanged. -/
theorem ofBuf_toBuf {sig : RefSig} {Val : EltTy → Type} {T : BufTy} (x : StableHlo.TRef sig T) (v : T.Contents Val) :
    x.ofBuf (x.toBuf v) = v := by
  obtain ⟨r, h, hd, hu⟩ := x
  subst h
  rfl

end Cert.LibTypedRef
-- ==== Proof.HostRead0.lean ====
/-
  The first stretch of host operations, read at the entries the regions use.

  The stretch computes two degree columns and recasts the two bias vectors as rows.  A degree column is an
  accumulating scatter of the constant one, one per edge, into an array of zeros, by an edge array carried as an index
  column, then recast from [n] to [n, 1]: its entry at node v is 0 + ∑ over the edges that deliver to v of 1, the
  degree of v under that column.  A bias row is the bias vector recast from [b] to [1, b]: same entries.

  The index columns themselves are named here, as functions of the two edge arrays, for the later stretches.
-/
import proofs.«102259_j2284922601619_2_alg».proof.Proof.HostWalk
import proofs.«102259_j2284922601619_2_alg».proof.Proof.GraphRead
import proofs.«102259_j2284922601619_2_alg».proof.Proof.LibColumn
import proofs.«102259_j2284922601619_2_alg».proof.Proof.LibTypedRef
import Idealize.ShloMosaic.Lib.StableHlo.Run
import Idealize.ShloMosaic.Lib.ValueLayout
import Idealize.ShloMosaic.Lib.ValueIdx

set_option maxRecDepth 16384

noncomputable section

namespace Cert.KernelIdeal.HostRead

open Cert.KernelIdeal Cert.KernelIdeal.Gen
open Idealize.ShloMosaic Idealize.ShloMosaic.TcCoe Idealize.ShloMosaic.ValueIdx
open Idealize.ShloMosaic.StableHlo (after_cons after_nil)
open Idealize.SL Idealize.SL.Sem

variable (m : (ℓ : Loc nD τ sig) → Buf (Elt Ideal) ℓ) (ρ : Dev nD → PrngReg) (c : Dev nD)

/-- An edge array as an index column: the same words, with a trailing unit axis. -/
abbrev col (x : IVec S1600000 32) : IVec S1600000x1 32 :=
  broadcastInDim S1600000x1 ![0] bcast_S1600000_S1600000x1_0 x

/-- The gather's words: a source word that reads negative has the number of rows added to it. -/
abbrev wrapped (src : IVec S1600000 32) : IVec S1600000 32 :=
  select (cmpi .slt src (broadcastInDim S1600000 ![] bcast_S_S1600000 (constantI S_ 32 0#32)))
    (addi src (broadcastInDim S1600000 ![] bcast_S_S1600000 (constantI S_ 32 50000#32))) src

/-- The index column of the out-degree scatter: the edge sources. -/
abbrev SO (src : IVec S1600000 32) : IVec S1600000x1 32 := col src
/-- The index column of the in-degree scatter and of both aggregating scatters: the edge destinations. -/
abbrev SI (dst : IVec S1600000 32) : IVec S1600000x1 32 := col dst
/-- The index column of both gathers: the wrapped edge sources. -/
abbrev GI (src : IVec S1600000 32) : IVec S1600000x1 32 := col (wrapped src)

/-- A degree column as the stretch computes it from an index column. -/
abbrev degCol (si : IVec S1600000x1 32) : S50000x1.Idx → EReal :=
  shapeCast S50000x1
    (Host.scatterAdd (F := Ideal) (φ := .f32) scatter_S50000_S1600000x1_S1600000_n_0_0_1
      (broadcastInDim S50000 ![] bcast_S_S50000 (constant (F := Ideal) S_ .f32 0x00000000#32)) si
      (broadcastInDim S1600000 ![] bcast_S_S1600000 (constant (F := Ideal) S_ .f32 0x3F800000#32)))
    shapeCasts_S50000_S50000x1

/-- A degree column's entry at node v is the degree of v under the index column. -/
theorem degCol_apply (si : IVec S1600000x1 32) (v : Fin 50000) : degCol si (ix2 v 0) = Cert.Graph.deg si v := by
  unfold degCol
  rw [Cert.LibColumn.shapeCast_a_a1_apply, Cert.Graph.scatter_flat _ rfl rfl rfl rfl]
  show Ideal.ofBits .f32 0x00000000#32 + (∑ e : Fin 1600000, if Cert.Graph.hit si e v then Ideal.ofBits .f32 0x3F800000#32 else 0)
    = Cert.Graph.deg si v
  rw [Ideal.ofBits_zero_f32, zero_add, Cert.Graph.one_bits]
  rfl

/-- The out-degree column after the first stretch is the stretch's operations applied to the edge sources. -/
theorem W1_v4_eq :
    (W1 m ρ c (Proc.devRef .tc main_call0_v4) : S50000x1.Idx → EReal) = degCol (SO (m ((c : Thread nD τ).loc main_arg1))) := by
  dsimp only [W1, hostOps0]
  after_results
  simp only [Cert.LibTypedRef.ofBuf_toBuf]
  have hs : (StableHlo.TRef.of main_arg1 : StableHlo.TRef sig ⟨S1600000, .i32⟩).ofBuf
      (W0 m ρ c (Proc.devRef .tc main_arg1)) = m ((c : Thread nD τ).loc main_arg1) := rfl
  have h3 : ∀ v : (⟨S50000, .f32⟩ : BufTy).Contents (Elt Ideal),
      (StableHlo.TRef.of main_call0_v3 : StableHlo.TRef sig ⟨S50000, .f32⟩).toBuf v = v := fun _ => rfl
  simp only [hs, h3]
  rfl

/-- The in-degree column after the first stretch is the stretch's operations applied to the edge destinations. -/
theorem W1_v8_eq :
    (W1 m ρ c (Proc.devRef .tc main_call0_v8) : S50000x1.Idx → EReal) = degCol (SI (m ((c : Thread nD τ).loc main_arg2))) := by
  dsimp only [W1, hostOps0]
  after_results
  simp only [Cert.LibTypedRef.ofBuf_toBuf]
  have hs : (StableHlo.TRef.of main_arg2 : StableHlo.TRef sig ⟨S1600000, .i32⟩).ofBuf
      (W0 m ρ c (Proc.devRef .tc main_arg2)) = m ((c : Thread nD τ).loc main_arg2) := rfl
  have h3 : ∀ v : (⟨S50000, .f32⟩ : BufTy).Contents (Elt Ideal),
      (StableHlo.TRef.of main_call0_v7 : StableHlo.TRef sig ⟨S50000, .f32⟩).toBuf v = v := fun _ => rfl
  simp only [hs, h3]
  rfl

/-- STRETCH 0, the out-degrees: entry v of the column is the number of edges whose source word reads as v. -/
theorem W1_v4_apply (v : Fin 50000) :
    (W1 m ρ c (Proc.devRef .tc main_call0_v4) : S50000x1.Idx → EReal) (ix2 v 0)
      = Cert.Graph.deg (SO (m ((c : Thread nD τ).loc main_arg1))) v := by
  rw [W1_v4_eq, degCol_apply]

/-- STRETCH 0, the in-degrees: entry v of the column is the number of edges whose destination word reads as v. -/
theorem W1_v8_apply (v : Fin 50000) :
    (W1 m ρ c (Proc.devRef .tc main_call0_v8) : S50000x1.Idx → EReal) (ix2 v 0)
      = Cert.Graph.deg (SI (m ((c : Thread nD τ).loc main_arg2))) v := by
  rw [W1_v8_eq, degCol_apply]

/-- The first bias row after the first stretch is the first bias vector recast. -/
theorem W1_v9_eq :
    (W1 m ρ c (Proc.devRef .tc main_call0_v9) : S1x64.Idx → EReal)
      = shapeCast S1x64 (m ((c : Thread nD τ).loc main_arg4) : S64.Idx → EReal) shapeCasts_S64_S1x64 := by
  dsimp only [W1, hostOps0]; after_results; rfl

/-- The second bias row after the first stretch is the second bias vector recast. -/
theorem W1_v10_eq :
    (W1 m ρ c (Proc.devRef .tc main_call0_v10) : S1x16.Idx → EReal)
      = shapeCast S1x16 (m ((c : Thread nD τ).loc main_arg6) : S16.Idx → EReal) shapeCasts_S16_S1x16 := by
  dsimp only [W1, hostOps0]; after_results; rfl

/-- STRETCH 0, the first bias: entry k of the row is entry k of the vector. -/
theorem W1_v9_apply (k : Fin 64) :
    (W1 m ρ c (Proc.devRef .tc main_call0_v9) : S1x64.Idx → EReal) (ix2 (0 : Fin 1) k)
      = (m ((c : Thread nD τ).loc main_arg4) : S64.Idx → EReal) (ix1 k) := by
  rw [W1_v9_eq, shapeCast_a_1a_apply]

/-- STRETCH 0, the second bias: entry j of the row is entry j of the vector. -/
theorem W1_v10_apply (j : Fin 16) :
    (W1 m ρ c (Proc.devRef .tc main_call0_v10) : S1x16.Idx → EReal) (ix2 (0 : Fin 1) j)
      = (m ((c : Thread nD τ).loc main_arg6) : S16.Idx → EReal) (ix1 j) := by
  rw [W1_v10_eq, shapeCast_a_1a_apply]

end Cert.KernelIdeal.HostRead

end
-- ==== Proof.HostRead1.lean ====
/-
  The second stretch of host operations: the first layer's aggregate, read at an entry.

  The stretch gathers, for every edge, the row of the region's output that the edge's wrapped source word names,
  widens it (the identity on extended reals), and scatters the rows with accumulation into an array of zeros by the
  edges' destination words.  Entry (v, k) of the result is therefore 0 + the sum, over the edges that deliver to v, of
  entry k of the row the edge gathers.  The reading is proved once for any row width, for every record of dimension
  numbers with the axis lists of a row gather and a row scatter.
-/
import proofs.«102259_j2284922601619_2_alg».proof.Proof.HostRead0
import proofs.«102259_j2284922601619_2_alg».proof.Proof.Conv

set_option maxRecDepth 16384

noncomputable section

namespace Cert.KernelIdeal.HostRead

open Cert.KernelIdeal Cert.KernelIdeal.Gen
open Idealize.ShloMosaic Idealize.ShloMosaic.TcCoe Idealize.ShloMosaic.ValueIdx
open Idealize.ShloMosaic.StableHlo (after_cons after_nil)
open Idealize.SL Idealize.SL.Sem

/-- GATHER, WIDEN, SCATTER INTO ZEROS, AT AN ENTRY, for rows of any width C: entry (v, k) is the sum, over the edges
    that deliver to v under the column si, of entry k of the row the edge gathers under the column gi. -/
theorem agg_apply {C : ℕ} (ds : ScatterDims ⟨2, ![50000, C]⟩ ⟨2, ![1600000, 1]⟩ ⟨2, ![1600000, C]⟩)
    (hs1 : ds.updateWindowDims = [1]) (hs2 : ds.insertedWindowDims = [0]) (hs3 : ds.scatterDimsToOperandDims = [0])
    (hs4 : ds.indexVectorDim = 1)
    (dg : GatherDims ⟨2, ![50000, C]⟩ ⟨2, ![1600000, 1]⟩ ⟨2, ![1600000, C]⟩)
    (hg1 : dg.offsetDims = [1]) (hg2 : dg.collapsedSliceDims = [0]) (hg3 : dg.operandBatchingDims = [])
    (hg4 : dg.startIndicesBatchingDims = []) (hg5 : dg.startIndexMap = [0]) (hg6 : dg.indexVectorDim = 1)
    (hg7 : dg.sliceSizes = ![1, C])
    (hb : (⟨0, ![]⟩ : Shape).BroadcastsInDim ⟨2, ![50000, C]⟩ (![] : Fin 0 → Fin 2))
    (hw : FTy.bf16.bits < FTy.f32.bits)
    (X : (⟨2, ![50000, C]⟩ : Shape).Idx → EReal) (si gi : IVec ⟨2, ![1600000, 1]⟩ 32) (v : Fin 50000) (k : Fin C) :
    Host.scatterAdd (F := Ideal) (φ := .f32) ds
        (broadcastInDim ⟨2, ![50000, C]⟩ ![] hb (constant (F := Ideal) ⟨0, ![]⟩ .f32 0x00000000#32)) si
        (extf .f32 (Host.gather dg (X : FVec Ideal ⟨2, ![50000, C]⟩ .bf16) gi) hw) (ix2 v k)
      = ∑ e : Fin 1600000,
          if Cert.Graph.hit si e v then X (ix2 (Cert.Graph.srcRow (by norm_num : 0 < 50000) gi e) k) else 0 := by
  rw [Cert.Graph.scatter_rows ds hs1 hs2 hs3 hs4]
  show Ideal.ofBits .f32 0x00000000#32
      + (∑ e : Fin 1600000, if Cert.Graph.hit si e v then Host.gather dg X gi (ix2 e k) else 0) = _
  rw [Ideal.ofBits_zero_f32, zero_add]
  refine Finset.sum_congr rfl fun e _ => ?_
  rw [Cert.Graph.gather_rows (by norm_num : 0 < 50000) dg hg1 hg2 hg3 hg4 hg5 hg6 hg7]

variable (m : (ℓ : Loc nD τ sig) → Buf (Elt Ideal) ℓ) (ρ : Dev nD → PrngReg) (c : Dev nD)

/-- Region 0's output rows, as the second stretch finds them: an array of extended reals. -/
abbrev rows0 : S50000x64.Idx → EReal := W2 m ρ c (Proc.devRef .tc main_call0_v11)

/-- The aggregate of 64-wide rows as the second stretch computes it from the rows X and two index columns. -/
abbrev agg64 (X : S50000x64.Idx → EReal) (si gi : IVec S1600000x1 32) : S50000x64.Idx → EReal :=
  Host.scatterAdd (F := Ideal) (φ := .f32) scatter_S50000x64_S1600000x1_S1600000x64_1_0_0_1
    (broadcastInDim S50000x64 ![] bcast_S_S50000x64 (constant (F := Ideal) S_ .f32 0x00000000#32)) si
    (extf .f32 (Host.gather gather_S50000x64_S1600000x1_S1600000x64_1_0_n_n_0_1_164 (X : FVec Ideal S50000x64 .bf16) gi)
      bitsLt_bf16_f32)

/-- The first aggregate after the second stretch is the stretch's operations applied to region 0's output rows, the
    edge destinations as the scatter's column and the wrapped edge sources as the gather's column. -/
theorem W3_v22_eq :
    (W3 m ρ c (Proc.devRef .tc main_call0_v22) : S50000x64.Idx → EReal)
      = agg64 (rows0 m ρ c)
          (SI (m ((c : Thread nD τ).loc main_arg2))) (GI (m ((c : Thread nD τ).loc main_arg1))) := by
  dsimp only [W3, hostOps1]
  after_results
  simp only [Cert.LibTypedRef.ofBuf_toBuf]
  have hs1 : (StableHlo.TRef.of main_arg1 : StableHlo.TRef sig ⟨S1600000, .i32⟩).ofBuf
      (W2 m ρ c (Proc.devRef .tc main_arg1)) = m ((c : Thread nD τ).loc main_arg1) := W2_arg1 m ρ c
  have hs2 : (StableHlo.TRef.of main_arg2 : StableHlo.TRef sig ⟨S1600000, .i32⟩).ofBuf
      (W2 m ρ c (Proc.devRef .tc main_arg2)) = m ((c : Thread nD τ).loc main_arg2) := W2_arg2 m ρ c
  have hx : (StableHlo.TRef.of main_call0_v11 : StableHlo.TRef sig ⟨S50000x64, .bf16⟩).ofBuf
      (W2 m ρ c (Proc.devRef .tc main_call0_v11))
        = (rows0 m ρ c) := rfl
  have hy : ∀ v : (⟨S50000x64, .f32⟩ : BufTy).Contents (Elt Ideal),
      (StableHlo.TRef.of main_call0_v22 : StableHlo.TRef sig ⟨S50000x64, .f32⟩).toBuf v = v := fun _ => rfl
  simp only [hs1, hs2, hx, hy]

/-- STRETCH 1, the first aggregate at an entry: the sum, over the edges whose destination word reads as v, of entry k of
    region 0's output row at the edge's source row. -/
theorem W3_v22_apply (v : Fin 50000) (k : Fin 64) :
    (W3 m ρ c (Proc.devRef .tc main_call0_v22) : S50000x64.Idx → EReal) (ix2 v k)
      = ∑ e : Fin 1600000,
          if Cert.Graph.hit (SI (m ((c : Thread nD τ).loc main_arg2))) e v then
            (rows0 m ρ c)
              (ix2 (Cert.Graph.srcRow (by norm_num : 0 < 50000) (GI (m ((c : Thread nD τ).loc main_arg1))) e) k)
          else 0 := by
  rw [W3_v22_eq]
  exact agg_apply _ rfl rfl rfl rfl _ rfl rfl rfl rfl rfl rfl rfl _ _ _ _ _ v k

/-- The same, as the specification's gather-and-sum over the graph of the two index columns. -/
theorem W3_v22_aggr (v : Fin 50000) (k : Fin 64) :
    (W3 m ρ c (Proc.devRef .tc main_call0_v22) : S50000x64.Idx → EReal) (ix2 v k)
      = Cert.Conv.aggr (Cert.Graph.srcRow (by norm_num : 0 < 50000) (GI (m ((c : Thread nD τ).loc main_arg1))))
          (Cert.Graph.hit (SI (m ((c : Thread nD τ).loc main_arg2))))
          (fun u l => (rows0 m ρ c) (ix2 u l)) v k := by
  rw [W3_v22_apply]
  rfl

end Cert.KernelIdeal.HostRead

end
-- ==== Proof.HostRead3.lean ====
/-
  The last stretch of host operations: the second layer's aggregate, read at an entry.

  The stretch does to region 2's 16-wide output rows what the second stretch did to region 0's 64-wide rows: gather by
  the wrapped edge sources, widen, scatter with accumulation into zeros by the edge destinations.  It recomputes the
  two index columns from the two edge arrays, which nothing has written since the launch, so the columns are the
  same terms as before and the graph is the same graph.
-/
import proofs.«102259_j2284922601619_2_alg».proof.Proof.HostRead1

set_option maxRecDepth 16384

noncomputable section

namespace Cert.KernelIdeal.HostRead

open Cert.KernelIdeal Cert.KernelIdeal.Gen
open Idealize.ShloMosaic Idealize.ShloMosaic.TcCoe Idealize.ShloMosaic.ValueIdx
open Idealize.ShloMosaic.StableHlo (after_cons after_nil)
open Idealize.SL Idealize.SL.Sem

variable (m : (ℓ : Loc nD τ sig) → Buf (Elt Ideal) ℓ) (ρ : Dev nD → PrngReg) (c : Dev nD)

/-- Region 2's output rows, as the last stretch finds them: an array of extended reals. -/
abbrev rows2 : S50000x16.Idx → EReal := W5 m ρ c (Proc.devRef .tc main_call0_v24)

/-- The aggregate of 16-wide rows as the last stretch computes it from the rows Y and two index columns. -/
abbrev agg16 (Y : S50000x16.Idx → EReal) (si gi : IVec S1600000x1 32) : S50000x16.Idx → EReal :=
  Host.scatterAdd (F := Ideal) (φ := .f32) scatter_S50000x16_S1600000x1_S1600000x16_1_0_0_1
    (broadcastInDim S50000x16 ![] bcast_S_S50000x16 (constant (F := Ideal) S_ .f32 0x00000000#32)) si
    (extf .f32 (Host.gather gather_S50000x16_S1600000x1_S1600000x16_1_0_n_n_0_1_116 (Y : FVec Ideal S50000x16 .bf16) gi)
      bitsLt_bf16_f32)

/-- The second aggregate after the last stretch is the stretch's operations applied to region 2's output rows, with
    the same two index columns as in the second stretch. -/
theorem W6_v35_eq :
    (W6 m ρ c (Proc.devRef .tc main_call0_v35) : S50000x16.Idx → EReal)
      = agg16 (rows2 m ρ c)
          (SI (m ((c : Thread nD τ).loc main_arg2))) (GI (m ((c : Thread nD τ).loc main_arg1))) := by
  dsimp only [W6, hostOps3]
  after_results
  simp only [Cert.LibTypedRef.ofBuf_toBuf]
  have hs1 : (StableHlo.TRef.of main_arg1 : StableHlo.TRef sig ⟨S1600000, .i32⟩).ofBuf
      (W5 m ρ c (Proc.devRef .tc main_arg1)) = m ((c : Thread nD τ).loc main_arg1) := W5_arg1 m ρ c
  have hs2 : (StableHlo.TRef.of main_arg2 : StableHlo.TRef sig ⟨S1600000, .i32⟩).ofBuf
      (W5 m ρ c (Proc.devRef .tc main_arg2)) = m ((c : Thread nD τ).loc main_arg2) := W5_arg2 m ρ c
  have hx : (StableHlo.TRef.of main_call0_v24 : StableHlo.TRef sig ⟨S50000x16, .bf16⟩).ofBuf
      (W5 m ρ c (Proc.devRef .tc main_call0_v24))
        = (rows2 m ρ c) := rfl
  have hy : ∀ v : (⟨S50000x16, .f32⟩ : BufTy).Contents (Elt Ideal),
      (StableHlo.TRef.of main_call0_v35 : StableHlo.TRef sig ⟨S50000x16, .f32⟩).toBuf v = v := fun _ => rfl
  simp only [hs1, hs2, hx, hy]

/-- STRETCH 3, the second aggregate at an entry: the sum, over the edges whose destination word reads as v, of entry j
    of region 2's output row at the edge's source row. -/
theorem W6_v35_apply (v : Fin 50000) (j : Fin 16) :
    (W6 m ρ c (Proc.devRef .tc main_call0_v35) : S50000x16.Idx → EReal) (ix2 v j)
      = ∑ e : Fin 1600000,
          if Cert.Graph.hit (SI (m ((c : Thread nD τ).loc main_arg2))) e v then
            (rows2 m ρ c)
              (ix2 (Cert.Graph.srcRow (by norm_num : 0 < 50000) (GI (m ((c : Thread nD τ).loc main_arg1))) e) j)
          else 0 := by
  rw [W6_v35_eq]
  exact agg_apply _ rfl rfl rfl rfl _ rfl rfl rfl rfl rfl rfl rfl _ _ _ _ _ v j

/-- The same, as the specification's gather-and-sum over the graph of the two index columns. -/
theorem W6_v35_aggr (v : Fin 50000) (j : Fin 16) :
    (W6 m ρ c (Proc.devRef .tc main_call0_v35) : S50000x16.Idx → EReal) (ix2 v j)
      = Cert.Conv.aggr (Cert.Graph.srcRow (by norm_num : 0 < 50000) (GI (m ((c : Thread nD τ).loc main_arg1))))
          (Cert.Graph.hit (SI (m ((c : Thread nD τ).loc main_arg2))))
          (fun u l => (rows2 m ρ c) (ix2 u l)) v j := by
  rw [W6_v35_apply]
  rfl

end Cert.KernelIdeal.HostRead

end
-- ==== Proof.KernelValue.lean ====
/-
  The idealized kernel's result, entry by entry, as the kernel's arrangement of the two-layer graph convolution.

  Along the run the result buffer is reached through four regions and three stretches of host operations.  Reading
  the boundary contents backwards: the result is the fourth region's function of the second aggregate, the in-degree
  column and the second bias row; the second aggregate gathers and sums the third region's rows, which are the hidden
  rows times the second weight matrix; the hidden rows are the second region's function of the first aggregate, the
  two degree columns and the first bias row; the first aggregate gathers and sums the first region's rows, which are
  the scaled features times the first weight matrix.  The degree columns and bias rows are computed once, by the
  first stretch, and no later segment writes them; the argument arrays are never written.
-/
import proofs.«102259_j2284922601619_2_alg».proof.Proof.Chain
import proofs.«102259_j2284922601619_2_alg».proof.Proof.KernelLayers
import proofs.«102259_j2284922601619_2_alg».proof.Proof.HostWalk
import proofs.«102259_j2284922601619_2_alg».proof.Proof.HostRead0
import proofs.«102259_j2284922601619_2_alg».proof.Proof.HostRead1
import proofs.«102259_j2284922601619_2_alg».proof.Proof.HostRead3
import proofs.«102259_j2284922601619_2_alg».proof.Proof.Assembly

set_option maxRecDepth 16384

noncomputable section

namespace Cert.KernelIdeal.KernelValue

open Idealize.ShloMosaic Idealize.ShloMosaic.TcCoe Idealize.ShloMosaic.ValueIdx
open Idealize.SL Idealize.SL.Sem
open Cert.KernelIdeal Cert.KernelIdeal.Gen Cert.KernelIdeal.HostRead Cert.Graph

variable (m : (ℓ : Loc nD τ sig) → Buf (Elt Ideal) ℓ) (ρ : Dev nD → PrngReg) (c : Dev nD)

/-- The edge sources and destinations as launched. -/
abbrev srcW : IVec S1600000 32 := m ((c : Thread nD τ).loc main_arg1)
abbrev dstW : IVec S1600000 32 := m ((c : Thread nD τ).loc main_arg2)
/-- The five float arrays as launched, by coordinates. -/
abbrev feat : Fin 50000 → Fin 128 → EReal := fun u l => (m ((c : Thread nD τ).loc main_arg0) : S50000x128.Idx → EReal) (ix2 u l)
abbrev wt1 : Fin 128 → Fin 64 → EReal := fun l k => (m ((c : Thread nD τ).loc main_arg3) : S128x64.Idx → EReal) (ix2 l k)
abbrev bs1 : Fin 64 → EReal := fun k => (m ((c : Thread nD τ).loc main_arg4) : S64.Idx → EReal) (ix1 k)
abbrev wt2 : Fin 64 → Fin 16 → EReal := fun k j => (m ((c : Thread nD τ).loc main_arg5) : S64x16.Idx → EReal) (ix2 k j)
abbrev bs2 : Fin 16 → EReal := fun j => (m ((c : Thread nD τ).loc main_arg6) : S16.Idx → EReal) (ix1 j)
/-- The graph: which row an edge gathers, which node it delivers to, the two scales. -/
abbrev gRow : Fin 1600000 → Fin 50000 := srcRow (N := 50000) (by norm_num) (GI (srcW m c))
abbrev gHit : Fin 1600000 → Fin 50000 → Prop := hit (SI (dstW m c))
abbrev outScale : Fin 50000 → EReal := scaleK (SO (srcW m c))
abbrev inScale : Fin 50000 → EReal := scaleK (SI (dstW m c))

/-- After the first region the travelling rows are the scaled features times the first weight matrix. -/
theorem travel1 (u : Fin 50000) (k : Fin 64) :
    (W2 m ρ c (Proc.devRef .tc main_call0_v11) : S50000x64.Idx → EReal) (ix2 u k)
      = Cert.Conv.kerRows1 (outScale m c) (feat m c) (wt1 m c) u k := by
  rw [Chain.out0]
  exact Layers.rows0_apply (SO (srcW m c)) _ _ _ (feat m c) (wt1 m c)
    (fun u l => congrFun (W1_arg0 m ρ c) (ix2 u l)) (fun u => W1_v4_apply m ρ c u)
    (fun l k => congrFun (W1_arg3 m ρ c) (ix2 l k)) u k

/-- After the second region the hidden rows are the kernel's: relu (aggregate · in-scale + bias) · out-scale. -/
theorem hiddenRows (u : Fin 50000) (k : Fin 64) :
    (W4 m ρ c (Proc.devRef .tc main_call0_v23) : S50000x64.Idx → EReal) (ix2 u k)
      = Cert.Conv.kerHidden (gRow m c) (gHit m c) (outScale m c) (inScale m c) (feat m c) (wt1 m c) (bs1 m c) u k := by
  rw [Chain.out1]
  refine (Layers.rows1_apply (SO (srcW m c)) (SI (dstW m c)) _ _ _ _
    (fun v k => Cert.Conv.aggr (gRow m c) (gHit m c) (Cert.Conv.kerRows1 (outScale m c) (feat m c) (wt1 m c)) v k) (bs1 m c)
    ?_ (fun v => (congrFun (W3_v8 m ρ c) (ix2 v 0)).trans (W1_v8_apply m ρ c v))
    (fun v => (congrFun (W3_v4 m ρ c) (ix2 v 0)).trans (W1_v4_apply m ρ c v))
    (fun k => (congrFun (W3_v9 m ρ c) (ix2 0 k)).trans (W1_v9_apply m ρ c k)) u k).trans rfl
  intro v k
  exact (W3_v22_aggr m ρ c v k).trans
    (congrArg (fun x => Cert.Conv.aggr (gRow m c) (gHit m c) x v k) (funext fun u => funext fun k => travel1 m ρ c u k))

/-- After the third region the travelling rows are the hidden rows times the second weight matrix. -/
theorem travel2 (u : Fin 50000) (j : Fin 16) :
    (W5 m ρ c (Proc.devRef .tc main_call0_v24) : S50000x16.Idx → EReal) (ix2 u j)
      = Cert.Conv.kerRows2 (gRow m c) (gHit m c) (outScale m c) (inScale m c) (feat m c) (wt1 m c) (bs1 m c) (wt2 m c) u j := by
  rw [Chain.out2]
  exact Layers.rows2_apply _ _
    (Cert.Conv.kerHidden (gRow m c) (gHit m c) (outScale m c) (inScale m c) (feat m c) (wt1 m c) (bs1 m c)) (wt2 m c)
    (fun u k => hiddenRows m ρ c u k) (fun k j => congrFun (W4_arg5 m ρ c) (ix2 k j)) u j

/-- THE RESULT, entry by entry. -/
theorem result_apply (v : Fin 50000) (j : Fin 16) :
    (W7 m ρ c (Proc.devRef .tc main_v0) : S50000x16.Idx → EReal) (ix2 v j)
      = Cert.Conv.kernelOut (gRow m c) (gHit m c) (outScale m c) (inScale m c) (feat m c) (wt1 m c) (bs1 m c) (wt2 m c) (bs2 m c) v j := by
  rw [Chain.out3]
  refine (Layers.rows3_apply (SI (dstW m c)) _ _ _
    (fun v j => Cert.Conv.aggr (gRow m c) (gHit m c)
      (Cert.Conv.kerRows2 (gRow m c) (gHit m c) (outScale m c) (inScale m c) (feat m c) (wt1 m c) (bs1 m c) (wt2 m c)) v j) (bs2 m c)
    ?_ (fun v => (congrFun (W6_v8 m ρ c) (ix2 v 0)).trans (W1_v8_apply m ρ c v))
    (fun j => (congrFun (W6_v10 m ρ c) (ix2 0 j)).trans (W1_v10_apply m ρ c j)) v j).trans rfl
  intro v j
  exact (W6_v35_aggr m ρ c v j).trans
    (congrArg (fun x => Cert.Conv.aggr (gRow m c) (gHit m c) x v j) (funext fun u => funext fun j => travel2 m ρ c u j))

/-- The kernel's value theorem in the form the assembly takes. -/
theorem kernel_value : Cert.Proof.Assembly.KV := fun m ρ c v j => result_apply m ρ c v j

end Cert.KernelIdeal.KernelValue

end
-- ==== Proof.lean ====
/-
  The certificate of a two-layer graph convolution kernel against its reference, over the extended reals.

  Both programs compute, for 50000 nodes and 1.6 million edges given as two arrays of 32-bit words, two layers of
  "scale each node's row by the inverse square root of its out-degree (raised to at least one), gather the rows along
  the edges, sum them per destination node, scale by the inverse square root of the in-degree, multiply by a weight
  matrix, add a bias", with a rectifier between the layers.  The reference does it in that order, the scale written as
  the power -1/2.  The kernel multiplies by the weight matrix BEFORE the gather and the sum, so that narrower rows
  travel along the edges, and applies the second layer's out-degree scale right after the rectifier; its dense steps
  are four tiled regions, its gathers and accumulating scatters host operations between them.

  The two results are equal entry by entry because a matrix product commutes with "gather along edges, sum per
  destination, scale the row": a rearrangement of finite sums and products that is valid for real numbers but not at
  the infinities of the extended reals.  Under the precondition every float input is a real number, every degree is a
  finite count, every scale is a real in (0, 1], so every intermediate entry is real and the rearrangement goes
  through (ConvLaw).  On real numbers at least one the inverse square root and the power -1/2 agree (GraphRead).

  The frames of the two kernel programs are the generated ones; the reference's frame is its generated run with the
  result dropped; the idealization rewrote no operation, so its preservation claim is trivial.  The kernel's value is
  read off the run's boundary contents region by region (Region0 … Region3, Chain), the host operations between them
  by their definitions (HostWalk, HostRead0, HostRead1, HostRead3), and assembled in KernelValue; the reference's value
  is read one operation at a time (RefValue); Assembly joins the two.
-/
import proofs.«102259_j2284922601619_2_alg».proof.Defs
import proofs.«102259_j2284922601619_2_alg».proof.Proof.Gen.Kernel
import proofs.«102259_j2284922601619_2_alg».proof.Proof.Gen.Kernel.Skeleton
import proofs.«102259_j2284922601619_2_alg».proof.Proof.Gen.Kernel.Launch
import proofs.«102259_j2284922601619_2_alg».proof.Proof.Gen.Kernel.Points
import proofs.«102259_j2284922601619_2_alg».proof.Proof.Gen.Kernel.Frame
import proofs.«102259_j2284922601619_2_alg».proof.Proof.Gen.KernelIdeal
import proofs.«102259_j2284922601619_2_alg».proof.Proof.Gen.KernelIdeal.Skeleton
import proofs.«102259_j2284922601619_2_alg».proof.Proof.Gen.KernelIdeal.Launch
import proofs.«102259_j2284922601619_2_alg».proof.Proof.Gen.KernelIdeal.Points
import proofs.«102259_j2284922601619_2_alg».proof.Proof.Gen.KernelIdeal.Frame
import proofs.«102259_j2284922601619_2_alg».proof.Proof.Gen.ReferenceIdeal
import proofs.«102259_j2284922601619_2_alg».proof.Proof.Gen.Pre_finite_inputs
import proofs.«102259_j2284922601619_2_alg».proof.Proof.Assembly
import proofs.«102259_j2284922601619_2_alg».proof.Proof.KernelValue
import Idealize.ShloMosaic.Adequacy
import Idealize.ShloMosaic.Init

noncomputable section

namespace Cert.Proof

open Idealize.ShloMosaic Idealize.SL.Sem Cert.Kernel

/-- The five claims under the programs' stated side conditions: the three frames, the trivial preservation claim, and
    the equality of the two idealized results from the kernel's value theorem. -/
theorem claim : Cert.Claim := ⟨Cert.Kernel.Gen.facts, Cert.KernelIdeal.Gen.facts, Cert.ReferenceIdeal.Gen.facts, Cert.Pre_finite_inputs.Gen.facts,
  Cert.Proof.Assembly.frame_p, Cert.Proof.Assembly.frame_pi, Cert.Proof.Assembly.frame_ri, Cert.Proof.Assembly.preserves,
  Cert.Proof.Assembly.algebraic_of Cert.KernelIdeal.KernelValue.kernel_value⟩

end Cert.Proof

end
